-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v254) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x64 : Shape := ⟨2, ![800000, 64]⟩
abbrev S1024 : Shape := ⟨1, ![1024]⟩
abbrev S3x128x128 : Shape := ⟨3, ![3, 128, 128]⟩
abbrev S3x128 : Shape := ⟨2, ![3, 128]⟩
abbrev S3x128x64 : Shape := ⟨3, ![3, 128, 64]⟩
abbrev S3x64 : Shape := ⟨2, ![3, 64]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S3x128x64 : S_.BroadcastsInDim S3x128x64 (![] : Fin 0 → Fin S3x128x64.rank)
  reducesTo_S3x128x64_S_d0_1_2 : S3x128x64.ReducesTo [0, 1, 2] S_
  bcast_S_S3x64 : S_.BroadcastsInDim S3x64 (![] : Fin 0 → Fin S3x64.rank)
  reducesTo_S3x64_S_d0_1 : S3x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1024 : S_.BroadcastsInDim S1024 (![] : Fin 0 → Fin S1024.rank)
  reducesTo_S1024_S_d0 : S1024.ReducesTo [0] S_

variable [Facts]

def fn_part6 {F : FTy → Type} [FloatOps F] (main_arg3 : IVec S1024 32) (main_v98 : IVec S_ 1) (main_v100 : IVec S1024 1) (main_v101 : IVec S1024 32) : IVec S_ 1 :=
  let main_v102 : IVec S1024 1 := cmpi .slt main_arg3 main_v101
  let main_v103 : IVec S1024 1 := andi main_v100 main_v102
  let main_c_40 : IVec S_ 1 := constantI S_ 1 1#1
  let main_v104 : IVec S_ 1 := (fun x v => Host.reduce IntOp.andi x v reducesTo_S1024_S_d0 h_S_) main_v103 main_c_40
  let main_v105 : IVec S_ 1 := andi main_v98 main_v104
  main_v105

def fn_part5 {F : FTy → Type} [FloatOps F] (main_arg3 : IVec S1024 32) (main_arg20 : FVec F S256x1 .f32) (main_arg21 : FVec F S1 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256x1 .f32 := Host.absf main_arg20
  let main_cst_34 : FVec F S_ .f32 := constant S_ .f32 0x7F800000#32
  let main_v90 : FVec F S256x1 .f32 := broadcastInDim S256x1 ![] bcast_S_S256x1 main_cst_34
  let main_v91 : IVec S256x1 1 := cmpf .olt main_v89 main_v90
  let main_c_35 : IVec S_ 1 := constantI S_ 1 1#1
  let main_v92 : IVec S_ 1 := (fun x v => Host.reduce IntOp.andi x v reducesTo_S256x1_S_d0_1 h_S_) main_v91 main_c_35
  let main_v93 : IVec S_ 1 := andi main_v88 main_v92
  let main_v94 : FVec F S1 .f32 := Host.absf main_arg21
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  let main_c_38 : IVec S_ 32 := constantI S_ 32 0#32
  let main_v99 : IVec S1024 32 := broadcastInDim S1024 ![] bcast_S_S1024 main_c_38
  let main_v100 : IVec S1024 1 := cmpi .sge main_arg3 main_v99
  let main_c_39 : IVec S_ 32 := constantI S_ 32 50000#32
  let main_v101 : IVec S1024 32 := broadcastInDim S1024 ![] bcast_S_S1024 main_c_39
  fn_part6 (F := F) main_arg3 main_v98 main_v100 main_v101

def fn_part4 {F : FTy → Type} [FloatOps F] (main_arg3 : IVec S1024 32) (main_arg16 : FVec F S1024x512 .f32) (main_arg17 : FVec F S512 .f32) (main_arg18 : FVec F S512x256 .f32) (main_arg19 : FVec F S256 .f32) (main_arg20 : FVec F S256x1 .f32) (main_arg21 : FVec F S1 .f32) (main_v63 : IVec S_ 1) (main_v67 : IVec S_ 1) : IVec S_ 1 :=
  let main_v68 : IVec S_ 1 := andi main_v63 main_v67
  let main_v69 : FVec F S1024x512 .f32 := Host.absf main_arg16
  let main_cst_26 : FVec F S_ .f32 := constant S_ .f32 0x7F800000#32
  let main_v70 : FVec F S1024x512 .f32 := broadcastInDim S1024x512 ![] bcast_S_S1024x512 main_cst_26
  let main_v71 : IVec S1024x512 1 := cmpf .olt main_v69 main_v70
  let main_c_27 : IVec S_ 1 := constantI S_ 1 1#1
  let main_v72 : IVec S_ 1 := (fun x v => Host.reduce IntOp.andi x v reducesTo_S1024x512_S_d0_1 h_S_) main_v71 main_c_27
  let main_v73 : IVec S_ 1 := andi main_v68 main_v72
  let main_v74 : FVec F S512 .f32 := Host.absf main_arg17
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  let main_v79 : FVec F S512x256 .f32 := Host.absf main_arg18
  let main_cst_30 : FVec F S_ .f32 := constant S_ .f32 0x7F800000#32
  let main_v80 : FVec F S512x256 .f32 := broadcastInDim S512x256 ![] bcast_S_S512x256 main_cst_30
  let main_v81 : IVec S512x256 1 := cmpf .olt main_v79 main_v80
  let main_c_31 : IVec S_ 1 := constantI S_ 1 1#1
  let main_v82 : IVec S_ 1 := (fun x v => Host.reduce IntOp.andi x v reducesTo_S512x256_S_d0_1 h_S_) main_v81 main_c_31
  let main_v83 : IVec S_ 1 := andi main_v78 main_v82
  let main_v84 : FVec F S256 .f32 := Host.absf main_arg19
  let main_cst_32 : FVec F S_ .f32 := constant S_ .f32 0x7F800000#32
  fn_part5 (F := F) main_arg3 main_arg20 main_arg21 main_v83 main_v84 main_cst_32

def fn_part3 {F : FTy → Type} [FloatOps F] (main_arg3 : IVec S1024 32) (main_arg13 : FVec F S1 .f32) (main_arg14 : FVec F S1 .f32) (main_arg15 : FVec F S1 .f32) (main_arg16 : FVec F S1024x512 .f32) (main_arg17 : FVec F S512 .f32) (main_arg18 : FVec F S512x256 .f32) (main_arg19 : FVec F S256 .f32) (main_arg20 : FVec F S256x1 .f32) (main_arg21 : FVec F S1 .f32) (main_v48 : IVec S_ 1) (main_v49 : FVec F S64x1 .f32) (main_v50 : FVec F S64x1 .f32) : IVec S_ 1 :=
  let main_v51 : IVec S64x1 1 := cmpf .olt main_v49 main_v50
  let main_c_19 : IVec S_ 1 := constantI S_ 1 1#1
  let main_v52 : IVec S_ 1 := (fun x v => Host.reduce IntOp.andi x v reducesTo_S64x1_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_v59 : FVec F S1 .f32 := Host.absf main_arg14
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : FVec F S1 .f32 := Host.absf main_arg15
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_arg3 main_arg16 main_arg17 main_arg18 main_arg19 main_arg20 main_arg21 main_v63 main_v67

def fn_part2 {F : FTy → Type} [FloatOps F] (main_arg3 : IVec S1024 32) (main_arg9 : FVec F S3x64 .f32) (main_arg10 : FVec F S64x64 .f32) (main_arg11 : FVec F S64 .f32) (main_arg12 : FVec F S64x1 .f32) (main_arg13 : FVec F S1 .f32) (main_arg14 : FVec F S1 .f32) (main_arg15 : FVec F S1 .f32) (main_arg16 : FVec F S1024x512 .f32) (main_arg17 : FVec F S512 .f32) (main_arg18 : FVec F S512x256 .f32) (main_arg19 : FVec F S256 .f32) (main_arg20 : FVec F S256x1 .f32) (main_arg21 : FVec F S1 .f32) (main_v33 : IVec S_ 1) : IVec S_ 1 :=
  let main_v34 : FVec F S3x64 .f32 := Host.absf main_arg9
  let main_cst_12 : FVec F S_ .f32 := constant S_ .f32 0x7F800000#32
  let main_v35 : FVec F S3x64 .f32 := broadcastInDim S3x64 ![] bcast_S_S3x64 main_cst_12
  let main_v36 : IVec S3x64 1 := cmpf .olt main_v34 main_v35
  let main_c_13 : IVec S_ 1 := constantI S_ 1 1#1
  let main_v37 : IVec S_ 1 := (fun x v => Host.reduce IntOp.andi x v reducesTo_S3x64_S_d0_1 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x1 .f32 := Host.absf main_arg12
  let main_cst_18 : FVec F S_ .f32 := constant S_ .f32 0x7F800000#32
  let main_v50 : FVec F S64x1 .f32 := broadcastInDim S64x1 ![] bcast_S_S64x1 main_cst_18
  fn_part3 (F := F) main_arg3 main_arg13 main_arg14 main_arg15 main_arg16 main_arg17 main_arg18 main_arg19 main_arg20 main_arg21 main_v48 main_v49 main_v50

def fn_part1 {F : FTy → Type} [FloatOps F] (main_arg3 : IVec S1024 32) (main_arg6 : FVec F S3x128x64 .f32) (main_arg7 : FVec F S3x64 .f32) (main_arg8 : FVec F S3x64 .f32) (main_arg9 : FVec F S3x64 .f32) (main_arg10 : FVec F S64x64 .f32) (main_arg11 : FVec F S64 .f32) (main_arg12 : FVec F S64x1 .f32) (main_arg13 : FVec F S1 .f32) (main_arg14 : FVec F S1 .f32) (main_arg15 : FVec F S1 .f32) (main_arg16 : FVec F S1024x512 .f32) (main_arg17 : FVec F S512 .f32) (main_arg18 : FVec F S512x256 .f32) (main_arg19 : FVec F S256 .f32) (main_arg20 : FVec F S256x1 .f32) (main_arg21 : FVec F S1 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128x64 .f32 := Host.absf main_arg6
  let main_cst_6 : FVec F S_ .f32 := constant S_ .f32 0x7F800000#32
  let main_v20 : FVec F S3x128x64 .f32 := broadcastInDim S3x128x64 ![] bcast_S_S3x128x64 main_cst_6
  let main_v21 : IVec S3x128x64 1 := cmpf .olt main_v19 main_v20
  let main_c_7 : IVec S_ 1 := constantI S_ 1 1#1
  let main_v22 : IVec S_ 1 := (fun x v => Host.reduce IntOp.andi x v reducesTo_S3x128x64_S_d0_1_2 h_S_) main_v21 main_c_7
  let main_v23 : IVec S_ 1 := andi main_v18 main_v22
  let main_v24 : FVec F S3x64 .f32 := Host.absf main_arg7
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_v29 : FVec F S3x64 .f32 := Host.absf main_arg8
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  fn_part2 (F := F) main_arg3 main_arg9 main_arg10 main_arg11 main_arg12 main_arg13 main_arg14 main_arg15 main_arg16 main_arg17 main_arg18 main_arg19 main_arg20 main_arg21 main_v33

def fn {F : FTy → Type} [FloatOps F] (main_arg0 : FVec F S50000x64 .f32) (main_arg1 : IVec S2x800000 32) (main_arg2 : FVec F S800000x64 .f32) (main_arg3 : IVec S1024 32) (main_arg4 : FVec F S3x128x128 .f32) (main_arg5 : FVec F S3x128 .f32) (main_arg6 : FVec F S3x128x64 .f32) (main_arg7 : FVec F S3x64 .f32) (main_arg8 : FVec F S3x64 .f32) (main_arg9 : FVec F S3x64 .f32) (main_arg10 : FVec F S64x64 .f32) (main_arg11 : FVec F S64 .f32) (main_arg12 : FVec F S64x1 .f32) (main_arg13 : FVec F S1 .f32) (main_arg14 : FVec F S1 .f32) (main_arg15 : FVec F S1 .f32) (main_arg16 : FVec F S1024x512 .f32) (main_arg17 : FVec F S512 .f32) (main_arg18 : FVec F S512x256 .f32) (main_arg19 : FVec F S256 .f32) (main_arg20 : FVec F S256x1 .f32) (main_arg21 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg2
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S3x128x128 .f32 := Host.absf main_arg4
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg5
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg3 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S50000x64 : Shape := ⟨2, ![50000, 64]⟩
abbrev S2x800000 : Shape := ⟨2, ![2, 800000]⟩
abbrev S800000x64 : Shape := ⟨2, ![800000, 64]⟩
abbrev S1024 : Shape := ⟨1, ![1024]⟩
abbrev S3x128x128 : Shape := ⟨3, ![3, 128, 128]⟩
abbrev S3x128 : Shape := ⟨2, ![3, 128]⟩
abbrev S3x128x64 : Shape := ⟨3, ![3, 128, 64]⟩
abbrev S3x64 : Shape := ⟨2, ![3, 64]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S1x1 : Shape := ⟨2, ![1, 1]⟩
abbrev S8000x64 : Shape := ⟨2, ![8000, 64]⟩
abbrev S1x64x128 : Shape := ⟨3, ![1, 64, 128]⟩
abbrev S64x128 : Shape := ⟨2, ![64, 128]⟩
abbrev S1x128 : Shape := ⟨2, ![1, 128]⟩
abbrev S128 : Shape := ⟨1, ![128]⟩
abbrev S1x128x64 : Shape := ⟨3, ![1, 128, 64]⟩
abbrev S128x64 : Shape := ⟨2, ![128, 64]⟩
abbrev S1x64 : Shape := ⟨2, ![1, 64]⟩
abbrev S5000x64 : Shape := ⟨2, ![5000, 64]⟩
abbrev S5000x128 : Shape := ⟨2, ![5000, 128]⟩
abbrev S5000 : Shape := ⟨1, ![5000]⟩
abbrev S5000x1 : Shape := ⟨2, ![5000, 1]⟩
abbrev S1024x1 : Shape := ⟨2, ![1024, 1]⟩
abbrev S1x1024 : Shape := ⟨2, ![1, 1024]⟩
abbrev S1x512 : Shape := ⟨2, ![1, 512]⟩
abbrev S1x256 : Shape := ⟨2, ![1, 256]⟩

abbrev nBuf : Space → Nat
  | .hbm => 208
  | .vmem => 75
  | .smem => 0
  | _ => 0

abbrev hbmTy0_0 (i : Nat) : BufTy := match i % 128 with
  | 0 => ⟨S50000x64, .f32⟩
  | 1 => ⟨S2x800000, .i32⟩
  | 2 => ⟨S800000x64, .f32⟩
  | 3 => ⟨S1024, .i32⟩
  | 4 => ⟨S3x128x128, .f32⟩
  | 5 => ⟨S3x128, .f32⟩
  | 6 => ⟨S3x128x64, .f32⟩
  | 7 => ⟨S3x64, .f32⟩
  | 8 => ⟨S3x64, .f32⟩
  | 9 => ⟨S3x64, .f32⟩
  | 10 => ⟨S64x64, .f32⟩
  | 11 => ⟨S64, .f32⟩
  | 12 => ⟨S64x1, .f32⟩
  | 13 => ⟨S1, .f32⟩
  | 14 => ⟨S1, .f32⟩
  | 15 => ⟨S1, .f32⟩
  | 16 => ⟨S1024x512, .f32⟩
  | 17 => ⟨S512, .f32⟩
  | 18 => ⟨S512x256, .f32⟩
  | 19 => ⟨S256, .f32⟩
  | 20 => ⟨S256x1, .f32⟩
  | 21 => ⟨S1, .f32⟩
  | 22 => ⟨S1x800000, .i32⟩
  | 23 => ⟨S800000, .i32⟩
  | 24 => ⟨S_, .f32⟩
  | 25 => ⟨S800000x1, .f32⟩
  | 26 => ⟨S_, .f32⟩
  | 27 => ⟨S50000x1, .f32⟩
  | 28 => ⟨S800000x1, .i32⟩
  | 29 => ⟨S50000x1, .f32⟩
  | 30 => ⟨S_, .f32⟩
  | 31 => ⟨S50000x1, .f32⟩
  | 32 => ⟨S50000x1, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S1, .i32⟩
  | 42 => ⟨S_, .i32⟩
  | 43 => ⟨S800000x1, .i32⟩
  | 44 => ⟨S800000x1, .i1⟩
  | 45 => ⟨S1x1, .i32⟩
  | 46 => ⟨S800000x1, .i32⟩
  | 47 => ⟨S800000x1, .i1⟩
  | 48 => ⟨S800000x1, .i1⟩
  | 49 => ⟨S_, .i1⟩
  | 50 => ⟨S800000, .i1⟩
  | 51 => ⟨S800000x64, .f32⟩
  | 52 => ⟨S800000x64, .i1⟩
  | 53 => ⟨S_, .f32⟩
  | 54 => ⟨S800000x64, .f32⟩
  | 55 => ⟨S800000x64, .f32⟩
  | 56 => ⟨S800000x64, .f32⟩
  | 57 => ⟨S_, .f32⟩
  | 58 => ⟨S50000x64, .f32⟩
  | 59 => ⟨S800000x1, .i32⟩
  | 60 => ⟨S50000x64, .f32⟩
  | 61 => ⟨S50000x64, .f32⟩
  | 62 => ⟨S50000x64, .f32⟩
  | 63 => ⟨S1x64x128, .f32⟩
  | 64 => ⟨S64x128, .f32⟩
  | 65 => ⟨S1x64x128, .f32⟩
  | 66 => ⟨S64x128, .f32⟩
  | 67 => ⟨S1x128, .f32⟩
  | 68 => ⟨S128, .f32⟩
  | 69 => ⟨S1x128x64, .f32⟩
  | 70 => ⟨S128x64, .f32⟩
  | 71 => ⟨S1x64, .f32⟩
  | 72 => ⟨S64, .f32⟩
  | 73 => ⟨S1x64, .f32⟩
  | 74 => ⟨S64, .f32⟩
  | 75 => ⟨S1x64, .f32⟩
  | 76 => ⟨S64, .f32⟩
  | 77 => ⟨S50000x64, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S1, .i32⟩
  | 87 => ⟨S_, .i32⟩
  | 88 => ⟨S800000x1, .i32⟩
  | 89 => ⟨S800000x1, .i1⟩
  | 90 => ⟨S1x1, .i32⟩
  | 91 => ⟨S800000x1, .i32⟩
  | 92 => ⟨S800000x1, .i1⟩
  | 93 => ⟨S800000x1, .i1⟩
  | 94 => ⟨S_, .i1⟩
  | 95 => ⟨S800000, .i1⟩
  | 96 => ⟨S800000x64, .f32⟩
  | 97 => ⟨S800000x64, .i1⟩
  | 98 => ⟨S_, .f32⟩
  | 99 => ⟨S800000x64, .f32⟩
  | 100 => ⟨S800000x64, .f32⟩
  | 101 => ⟨S800000x64, .f32⟩
  | 102 => ⟨S_, .f32⟩
  | 103 => ⟨S50000x64, .f32⟩
  | 104 => ⟨S800000x1, .i32⟩
  | 105 => ⟨S50000x64, .f32⟩
  | 106 => ⟨S50000x64, .f32⟩
  | 107 => ⟨S50000x64, .f32⟩
  | 108 => ⟨S1x64x128, .f32⟩
  | 109 => ⟨S64x128, .f32⟩
  | 110 => ⟨S1x64x128, .f32⟩
  | 111 => ⟨S64x128, .f32⟩
  | 112 => ⟨S1x128, .f32⟩
  | 113 => ⟨S128, .f32⟩
  | 114 => ⟨S1x128x64, .f32⟩
  | 115 => ⟨S128x64, .f32⟩
  | 116 => ⟨S1x64, .f32⟩
  | 117 => ⟨S64, .f32⟩
  | 118 => ⟨S1x64, .f32⟩
  | 119 => ⟨S64, .f32⟩
  | 120 => ⟨S1x64, .f32⟩
  | 121 => ⟨S64, .f32⟩
  | 122 => ⟨S50000x64, .f32⟩
  | 123 => ⟨S_, .i32⟩
  | 124 => ⟨S800000, .i32⟩
  | 125 => ⟨S800000, .i1⟩
  | 126 => ⟨S_, .i32⟩
  | 127 => ⟨S800000, .i32⟩
  | _ => ⟨S50000x64, .f32⟩

abbrev hbmTy0_1 (i : Nat) : BufTy := match i % 128 with
  | 0 => ⟨S800000, .i32⟩
  | 1 => ⟨S800000, .i32⟩
  | 2 => ⟨S800000x1, .i32⟩
  | 3 => ⟨S1, .i32⟩
  | 4 => ⟨S_, .i32⟩
  | 5 => ⟨S800000x1, .i32⟩
  | 6 => ⟨S800000x1, .i1⟩
  | 7 => ⟨S1x1, .i32⟩
  | 8 => ⟨S800000x1, .i32⟩
  | 9 => ⟨S800000x1, .i1⟩
  | 10 => ⟨S800000x1, .i1⟩
  | 11 => ⟨S_, .i1⟩
  | 12 => ⟨S800000, .i1⟩
  | 13 => ⟨S800000x64, .f32⟩
  | 14 => ⟨S800000x64, .i1⟩
  | 15 => ⟨S_, .f32⟩
  | 16 => ⟨S800000x64, .f32⟩
  | 17 => ⟨S800000x64, .f32⟩
  | 18 => ⟨S800000x64, .f32⟩
  | 19 => ⟨S_, .f32⟩
  | 20 => ⟨S50000x64, .f32⟩
  | 21 => ⟨S800000x1, .i32⟩
  | 22 => ⟨S50000x64, .f32⟩
  | 23 => ⟨S50000x64, .f32⟩
  | 24 => ⟨S50000x64, .f32⟩
  | 25 => ⟨S1x64x128, .f32⟩
  | 26 => ⟨S64x128, .f32⟩
  | 27 => ⟨S1x64x128, .f32⟩
  | 28 => ⟨S64x128, .f32⟩
  | 29 => ⟨S1x128, .f32⟩
  | 30 => ⟨S128, .f32⟩
  | 31 => ⟨S1x128x64, .f32⟩
  | 32 => ⟨S128x64, .f32⟩
  | 33 => ⟨S1x64, .f32⟩
  | 34 => ⟨S64, .f32⟩
  | 35 => ⟨S1x64, .f32⟩
  | 36 => ⟨S64, .f32⟩
  | 37 => ⟨S1x64, .f32⟩
  | 38 => ⟨S64, .f32⟩
  | 39 => ⟨S50000x64, .f32⟩
  | 40 => ⟨S50000x1, .f32⟩
  | 41 => ⟨S_, .i32⟩
  | 42 => ⟨S1024, .i32⟩
  | 43 => ⟨S1024, .i1⟩
  | 44 => ⟨S_, .i32⟩
  | 45 => ⟨S1024, .i32⟩
  | 46 => ⟨S1024, .i32⟩
  | 47 => ⟨S1024, .i32⟩
  | 48 => ⟨S1024x1, .i32⟩
  | 49 => ⟨S1, .i32⟩
  | 50 => ⟨S_, .i32⟩
  | 51 => ⟨S1024x1, .i32⟩
  | 52 => ⟨S1024x1, .i1⟩
  | 53 => ⟨S1x1, .i32⟩
  | 54 => ⟨S1024x1, .i32⟩
  | 55 => ⟨S1024x1, .i1⟩
  | 56 => ⟨S1024x1, .i1⟩
  | 57 => ⟨S_, .i1⟩
  | 58 => ⟨S1024, .i1⟩
  | 59 => ⟨S1024x1, .f32⟩
  | 60 => ⟨S1024x1, .i1⟩
  | 61 => ⟨S_, .f32⟩
  | 62 => ⟨S1024x1, .f32⟩
  | 63 => ⟨S1024x1, .f32⟩
  | 64 => ⟨S1x1024, .f32⟩
  | 65 => ⟨S_, .f32⟩
  | 66 => ⟨S1x1, .f32⟩
  | 67 => ⟨S1x1, .f32⟩
  | 68 => ⟨S_, .f32⟩
  | 69 => ⟨S1, .f32⟩
  | 70 => ⟨S_, .f32⟩
  | 71 => ⟨S1, .f32⟩
  | 72 => ⟨S1, .f32⟩
  | 73 => ⟨S1x1, .f32⟩
  | 74 => ⟨S1x1, .f32⟩
  | 75 => ⟨S1x1, .f32⟩
  | 76 => ⟨S_, .f32⟩
  | 77 => ⟨S1, .f32⟩
  | 78 => ⟨S1x1, .f32⟩
  | 79 => ⟨S1x1, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S8000x64, .f32⟩
  | .local _ .vmem, ⟨1, _⟩ => ⟨S8000x64, .f32⟩
  | .local _ .vmem, ⟨2, _⟩ => ⟨S8000x64, .f32⟩
  | .local _ .vmem, ⟨3, _⟩ => ⟨S8000x64, .f32⟩
  | .local _ .vmem, ⟨4, _⟩ => ⟨S8000x64, .f32⟩
  | .local _ .vmem, ⟨5, _⟩ => ⟨S8000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S64x128, .f32⟩
  | .local _ .vmem, ⟨11, _⟩ => ⟨S64x128, .f32⟩
  | .local _ .vmem, ⟨12, _⟩ => ⟨S128, .f32⟩
  | .local _ .vmem, ⟨13, _⟩ => ⟨S128x64, .f32⟩
  | .local _ .vmem, ⟨14, _⟩ => ⟨S64, .f32⟩
  | .local _ .vmem, ⟨15, _⟩ => ⟨S64, .f32⟩
  | .local _ .vmem, ⟨16, _⟩ => ⟨S64, .f32⟩
  | .local _ .vmem, ⟨17, _⟩ => ⟨S5000x64, .f32⟩
  | .local _ .vmem, ⟨18, _⟩ => ⟨S5000x64, .f32⟩
  | .local _ .vmem, ⟨19, _⟩ => ⟨S8000x64, .f32⟩
  | .local _ .vmem, ⟨20, _⟩ => ⟨S8000x64, .f32⟩
  | .local _ .vmem, ⟨21, _⟩ => ⟨S8000x64, .f32⟩
  | .local _ .vmem, ⟨22, _⟩ => ⟨S8000x64, .f32⟩
  | .local _ .vmem, ⟨23, _⟩ => ⟨S8000x64, .f32⟩
  | .local _ .vmem, ⟨24, _⟩ => ⟨S8000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S64x128, .f32⟩
  | .local _ .vmem, ⟨30, _⟩ => ⟨S64x128, .f32⟩
  | .local _ .vmem, ⟨31, _⟩ => ⟨S128, .f32⟩
  | .local _ .vmem, ⟨32, _⟩ => ⟨S128x64, .f32⟩
  | .local _ .vmem, ⟨33, _⟩ => ⟨S64, .f32⟩
  | .local _ .vmem, ⟨34, _⟩ => ⟨S64, .f32⟩
  | .local _ .vmem, ⟨35, _⟩ => ⟨S64, .f32⟩
  | .local _ .vmem, ⟨36, _⟩ => ⟨S5000x64, .f32⟩
  | .local _ .vmem, ⟨37, _⟩ => ⟨S5000x64, .f32⟩
  | .local _ .vmem, ⟨38, _⟩ => ⟨S8000x64, .f32⟩
  | .local _ .vmem, ⟨39, _⟩ => ⟨S8000x64, .f32⟩
  | .local _ .vmem, ⟨40, _⟩ => ⟨S8000x64, .f32⟩
  | .local _ .vmem, ⟨41, _⟩ => ⟨S8000x64, .f32⟩
  | .local _ .vmem, ⟨42, _⟩ => ⟨S8000x64, .f32⟩
  | .local _ .vmem, ⟨43, _⟩ => ⟨S8000x64, .f32⟩
  | .local _ .vmem, ⟨44, _⟩ => ⟨S5000x64, .f32⟩
  | .local _ .vmem, ⟨45, _⟩ => ⟨S5000x64, .f32⟩
  | .local _ .vmem, ⟨46, _⟩ => ⟨S5000x64, .f32⟩
  | .local _ .vmem, ⟨47, _⟩ => ⟨S5000x64, .f32⟩
  | .local _ .vmem, ⟨48, _⟩ => ⟨S64x128, .f32⟩
  | .local _ .vmem, ⟨49, _⟩ => ⟨S64x128, .f32⟩
  | .local _ .vmem, ⟨50, _⟩ => ⟨S128, .f32⟩
  | .local _ .vmem, ⟨51, _⟩ => ⟨S128x64, .f32⟩
  | .local _ .vmem, ⟨52, _⟩ => ⟨S64, .f32⟩
  | .local _ .vmem, ⟨53, _⟩ => ⟨S64, .f32⟩
  | .local _ .vmem, ⟨54, _⟩ => ⟨S64, .f32⟩
  | .local _ .vmem, ⟨55, _⟩ => ⟨S5000x64, .f32⟩
  | .local _ .vmem, ⟨56, _⟩ => ⟨S5000x64, .f32⟩
  | .local _ .vmem, ⟨57, _⟩ => ⟨S5000x64, .f32⟩
  | .local _ .vmem, ⟨58, _⟩ => ⟨S5000x64, .f32⟩
  | .local _ .vmem, ⟨59, _⟩ => ⟨S64x64, .f32⟩
  | .local _ .vmem, ⟨60, _⟩ => ⟨S64, .f32⟩
  | .local _ .vmem, ⟨61, _⟩ => ⟨S64x1, .f32⟩
  | .local _ .vmem, ⟨62, _⟩ => ⟨S1, .f32⟩
  | .local _ .vmem, ⟨63, _⟩ => ⟨S1, .f32⟩
  | .local _ .vmem, ⟨64, _⟩ => ⟨S1, .f32⟩
  | .local _ .vmem, ⟨65, _⟩ => ⟨S5000x1, .f32⟩
  | .local _ .vmem, ⟨66, _⟩ => ⟨S5000x1, .f32⟩
  | .local _ .vmem, ⟨67, _⟩ => ⟨S1x1024, .f32⟩
  | .local _ .vmem, ⟨68, _⟩ => ⟨S1024x512, .f32⟩
  | .local _ .vmem, ⟨69, _⟩ => ⟨S512, .f32⟩
  | .local _ .vmem, ⟨70, _⟩ => ⟨S512x256, .f32⟩
  | .local _ .vmem, ⟨71, _⟩ => ⟨S256, .f32⟩
  | .local _ .vmem, ⟨72, _⟩ => ⟨S256x1, .f32⟩
  | .local _ .vmem, ⟨73, _⟩ => ⟨S1, .f32⟩
  | .local _ .vmem, ⟨74, _⟩ => ⟨S1x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | _, _ => false

abbrev semScoped : Fin 0 → Bool
  | ⟨_, h⟩ => absurd h (Nat.not_lt_zero _)

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  ofTc nBuf bufTy 0 75 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_cst : Ref sig .tc := ⟨.hbm, 24, rfl⟩
abbrev main_v2 : Ref sig .tc := ⟨.hbm, 25, rfl⟩
abbrev main_cst_0 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_cst_1 : Ref sig .tc := ⟨.hbm, 30, rfl⟩
abbrev main_v6 : Ref sig .tc := ⟨.hbm, 31, rfl⟩
abbrev main_v7 : Ref sig .tc := ⟨.hbm, 32, rfl⟩
abbrev main_call0_c : Ref sig .tc := ⟨.hbm, 33, rfl⟩
abbrev main_call0_v0 : Ref sig .tc := ⟨.hbm, 34, rfl⟩
abbrev main_call0_v1 : Ref sig .tc := ⟨.hbm, 35, rfl⟩
abbrev main_call0_c_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_c_1 : Ref sig .tc := ⟨.hbm, 41, rfl⟩
abbrev main_call0_c_2 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_c_3 : Ref sig .tc := ⟨.hbm, 49, rfl⟩
abbrev main_call0_v12 : Ref sig .tc := ⟨.hbm, 50, rfl⟩
abbrev main_call0_v13 : Ref sig .tc := ⟨.hbm, 51, rfl⟩
abbrev main_call0_v14 : Ref sig .tc := ⟨.hbm, 52, rfl⟩
abbrev main_call0_cst : Ref sig .tc := ⟨.hbm, 53, rfl⟩
abbrev main_call0_v15 : Ref sig .tc := ⟨.hbm, 54, rfl⟩
abbrev main_v8 : Ref sig .tc := ⟨.hbm, 55, rfl⟩
abbrev main_v9 : Ref sig .tc := ⟨.hbm, 56, rfl⟩
abbrev main_cst_2 : Ref sig .tc := ⟨.hbm, 57, rfl⟩
abbrev main_v10 : Ref sig .tc := ⟨.hbm, 58, rfl⟩
abbrev main_v11 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_call1_c : Ref sig .tc := ⟨.hbm, 78, rfl⟩
abbrev main_call1_v0 : Ref sig .tc := ⟨.hbm, 79, rfl⟩
abbrev main_call1_v1 : Ref sig .tc := ⟨.hbm, 80, rfl⟩
abbrev main_call1_c_0 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_call1_v5 : Ref sig .tc := ⟨.hbm, 85, rfl⟩
abbrev main_call1_c_1 : Ref sig .tc := ⟨.hbm, 86, rfl⟩
abbrev main_call1_c_2 : Ref sig .tc := ⟨.hbm, 87, rfl⟩
abbrev main_call1_v6 : Ref sig .tc := ⟨.hbm, 88, rfl⟩
abbrev main_call1_v7 : Ref sig .tc := ⟨.hbm, 89, rfl⟩
abbrev main_call1_v8 : Ref sig .tc := ⟨.hbm, 90, rfl⟩
abbrev main_call1_v9 : Ref sig .tc := ⟨.hbm, 91, rfl⟩
abbrev main_call1_v10 : Ref sig .tc := ⟨.hbm, 92, rfl⟩
abbrev main_call1_v11 : Ref sig .tc := ⟨.hbm, 93, rfl⟩
abbrev main_call1_c_3 : Ref sig .tc := ⟨.hbm, 94, rfl⟩
abbrev main_call1_v12 : Ref sig .tc := ⟨.hbm, 95, rfl⟩
abbrev main_call1_v13 : Ref sig .tc := ⟨.hbm, 96, rfl⟩
abbrev main_call1_v14 : Ref sig .tc := ⟨.hbm, 97, rfl⟩
abbrev main_call1_cst : Ref sig .tc := ⟨.hbm, 98, rfl⟩
abbrev main_call1_v15 : Ref sig .tc := ⟨.hbm, 99, rfl⟩
abbrev main_v30 : Ref sig .tc := ⟨.hbm, 100, rfl⟩
abbrev main_v31 : Ref sig .tc := ⟨.hbm, 101, rfl⟩
abbrev main_cst_3 : Ref sig .tc := ⟨.hbm, 102, rfl⟩
abbrev main_v32 : Ref sig .tc := ⟨.hbm, 103, rfl⟩
abbrev main_v33 : Ref sig .tc := ⟨.hbm, 104, rfl⟩
abbrev main_v34 : Ref sig .tc := ⟨.hbm, 105, rfl⟩
abbrev main_v35 : Ref sig .tc := ⟨.hbm, 106, rfl⟩
abbrev main_v36 : Ref sig .tc := ⟨.hbm, 107, rfl⟩
abbrev main_v37 : Ref sig .tc := ⟨.hbm, 108, rfl⟩
abbrev main_v38 : Ref sig .tc := ⟨.hbm, 109, rfl⟩
abbrev main_v39 : Ref sig .tc := ⟨.hbm, 110, rfl⟩
abbrev main_v40 : Ref sig .tc := ⟨.hbm, 111, rfl⟩
abbrev main_v41 : Ref sig .tc := ⟨.hbm, 112, rfl⟩
abbrev main_v42 : Ref sig .tc := ⟨.hbm, 113, rfl⟩
abbrev main_v43 : Ref sig .tc := ⟨.hbm, 114, rfl⟩
abbrev main_v44 : Ref sig .tc := ⟨.hbm, 115, rfl⟩
abbrev main_v45 : Ref sig .tc := ⟨.hbm, 116, rfl⟩
abbrev main_v46 : Ref sig .tc := ⟨.hbm, 117, rfl⟩
abbrev main_v47 : Ref sig .tc := ⟨.hbm, 118, rfl⟩
abbrev main_v48 : Ref sig .tc := ⟨.hbm, 119, rfl⟩
abbrev main_v49 : Ref sig .tc := ⟨.hbm, 120, rfl⟩
abbrev main_v50 : Ref sig .tc := ⟨.hbm, 121, rfl⟩
abbrev main_v51 : Ref sig .tc := ⟨.hbm, 122, rfl⟩
abbrev main_call2_c : Ref sig .tc := ⟨.hbm, 123, rfl⟩
abbrev main_call2_v0 : Ref sig .tc := ⟨.hbm, 124, rfl⟩
abbrev main_call2_v1 : Ref sig .tc := ⟨.hbm, 125, rfl⟩
abbrev main_call2_c_0 : Ref sig .tc := ⟨.hbm, 126, rfl⟩
abbrev main_call2_v2 : Ref sig .tc := ⟨.hbm, 127, rfl⟩
abbrev main_call2_v3 : Ref sig .tc := ⟨.hbm, 128, rfl⟩
abbrev main_call2_v4 : Ref sig .tc := ⟨.hbm, 129, rfl⟩
abbrev main_call2_v5 : Ref sig .tc := ⟨.hbm, 130, rfl⟩
abbrev main_call2_c_1 : Ref sig .tc := ⟨.hbm, 131, rfl⟩
abbrev main_call2_c_2 : Ref sig .tc := ⟨.hbm, 132, rfl⟩
abbrev main_call2_v6 : Ref sig .tc := ⟨.hbm, 133, rfl⟩
abbrev main_call2_v7 : Ref sig .tc := ⟨.hbm, 134, rfl⟩
abbrev main_call2_v8 : Ref sig .tc := ⟨.hbm, 135, rfl⟩
abbrev main_call2_v9 : Ref sig .tc := ⟨.hbm, 136, rfl⟩
abbrev main_call2_v10 : Ref sig .tc := ⟨.hbm, 137, rfl⟩
abbrev main_call2_v11 : Ref sig .tc := ⟨.hbm, 138, rfl⟩
abbrev main_call2_c_3 : Ref sig .tc := ⟨.hbm, 139, rfl⟩
abbrev main_call2_v12 : Ref sig .tc := ⟨.hbm, 140, rfl⟩
abbrev main_call2_v13 : Ref sig .tc := ⟨.hbm, 141, rfl⟩
abbrev main_call2_v14 : Ref sig .tc := ⟨.hbm, 142, rfl⟩
abbrev main_call2_cst : Ref sig .tc := ⟨.hbm, 143, rfl⟩
abbrev main_call2_v15 : Ref sig .tc := ⟨.hbm, 144, rfl⟩
abbrev main_v52 : Ref sig .tc := ⟨.hbm, 145, rfl⟩
abbrev main_v53 : Ref sig .tc := ⟨.hbm, 146, rfl⟩
abbrev main_cst_4 : Ref sig .tc := ⟨.hbm, 147, rfl⟩
abbrev main_v54 : Ref sig .tc := ⟨.hbm, 148, rfl⟩
abbrev main_v55 : Ref sig .tc := ⟨.hbm, 149, rfl⟩
abbrev main_v56 : Ref sig .tc := ⟨.hbm, 150, rfl⟩
abbrev main_v57 : Ref sig .tc := ⟨.hbm, 151, rfl⟩
abbrev main_v58 : Ref sig .tc := ⟨.hbm, 152, rfl⟩
abbrev main_v59 : Ref sig .tc := ⟨.hbm, 153, rfl⟩
abbrev main_v60 : Ref sig .tc := ⟨.hbm, 154, rfl⟩
abbrev main_v61 : Ref sig .tc := ⟨.hbm, 155, rfl⟩
abbrev main_v62 : Ref sig .tc := ⟨.hbm, 156, rfl⟩
abbrev main_v63 : Ref sig .tc := ⟨.hbm, 157, rfl⟩
abbrev main_v64 : Ref sig .tc := ⟨.hbm, 158, rfl⟩
abbrev main_v65 : Ref sig .tc := ⟨.hbm, 159, rfl⟩
abbrev main_v66 : Ref sig .tc := ⟨.hbm, 160, rfl⟩
abbrev main_v67 : Ref sig .tc := ⟨.hbm, 161, rfl⟩
abbrev main_v68 : Ref sig .tc := ⟨.hbm, 162, rfl⟩
abbrev main_v69 : Ref sig .tc := ⟨.hbm, 163, rfl⟩
abbrev main_v70 : Ref sig .tc := ⟨.hbm, 164, rfl⟩
abbrev main_v71 : Ref sig .tc := ⟨.hbm, 165, rfl⟩
abbrev main_v72 : Ref sig .tc := ⟨.hbm, 166, rfl⟩
abbrev main_v73 : Ref sig .tc := ⟨.hbm, 167, rfl⟩
abbrev main_v74 : Ref sig .tc := ⟨.hbm, 168, rfl⟩
abbrev main_call3_c : Ref sig .tc := ⟨.hbm, 169, rfl⟩
abbrev main_call3_v0 : Ref sig .tc := ⟨.hbm, 170, rfl⟩
abbrev main_call3_v1 : Ref sig .tc := ⟨.hbm, 171, rfl⟩
abbrev main_call3_c_0 : Ref sig .tc := ⟨.hbm, 172, rfl⟩
abbrev main_call3_v2 : Ref sig .tc := ⟨.hbm, 173, rfl⟩
abbrev main_call3_v3 : Ref sig .tc := ⟨.hbm, 174, rfl⟩
abbrev main_call3_v4 : Ref sig .tc := ⟨.hbm, 175, rfl⟩
abbrev main_call3_v5 : Ref sig .tc := ⟨.hbm, 176, rfl⟩
abbrev main_call3_c_1 : Ref sig .tc := ⟨.hbm, 177, rfl⟩
abbrev main_call3_c_2 : Ref sig .tc := ⟨.hbm, 178, rfl⟩
abbrev main_call3_v6 : Ref sig .tc := ⟨.hbm, 179, rfl⟩
abbrev main_call3_v7 : Ref sig .tc := ⟨.hbm, 180, rfl⟩
abbrev main_call3_v8 : Ref sig .tc := ⟨.hbm, 181, rfl⟩
abbrev main_call3_v9 : Ref sig .tc := ⟨.hbm, 182, rfl⟩
abbrev main_call3_v10 : Ref sig .tc := ⟨.hbm, 183, rfl⟩
abbrev main_call3_v11 : Ref sig .tc := ⟨.hbm, 184, rfl⟩
abbrev main_call3_c_3 : Ref sig .tc := ⟨.hbm, 185, rfl⟩
abbrev main_call3_v12 : Ref sig .tc := ⟨.hbm, 186, rfl⟩
abbrev main_call3_v13 : Ref sig .tc := ⟨.hbm, 187, rfl⟩
abbrev main_call3_v14 : Ref sig .tc := ⟨.hbm, 188, rfl⟩
abbrev main_call3_cst : Ref sig .tc := ⟨.hbm, 189, rfl⟩
abbrev main_call3_v15 : Ref sig .tc := ⟨.hbm, 190, rfl⟩
abbrev main_v75 : Ref sig .tc := ⟨.hbm, 191, rfl⟩
abbrev main_v76 : Ref sig .tc := ⟨.hbm, 192, rfl⟩
abbrev main_cst_5 : Ref sig .tc := ⟨.hbm, 193, rfl⟩
abbrev main_v77 : Ref sig .tc := ⟨.hbm, 194, rfl⟩
abbrev main_v78 : Ref sig .tc := ⟨.hbm, 195, rfl⟩
abbrev main_cst_6 : Ref sig .tc := ⟨.hbm, 196, rfl⟩
abbrev main_v79 : Ref sig .tc := ⟨.hbm, 197, rfl⟩
abbrev main_cst_7 : Ref sig .tc := ⟨.hbm, 198, rfl⟩
abbrev main_v80 : Ref sig .tc := ⟨.hbm, 199, rfl⟩
abbrev main_v81 : Ref sig .tc := ⟨.hbm, 200, rfl⟩
abbrev main_v82 : Ref sig .tc := ⟨.hbm, 201, rfl⟩
abbrev main_v83 : Ref sig .tc := ⟨.hbm, 202, rfl⟩
abbrev main_v84 : Ref sig .tc := ⟨.hbm, 203, rfl⟩
abbrev main_cst_8 : Ref sig .tc := ⟨.hbm, 204, rfl⟩
abbrev main_v85 : Ref sig .tc := ⟨.hbm, 205, rfl⟩
abbrev main_v86 : Ref sig .tc := ⟨.hbm, 206, rfl⟩
abbrev main_v87 : Ref sig .tc := ⟨.hbm, 207, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg9_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg6_0 : Ref sig .tc := ⟨.vmem, 33, rfl⟩
abbrev cc3_stg7_0 : Ref sig .tc := ⟨.vmem, 34, rfl⟩
abbrev cc3_stg8_0 : Ref sig .tc := ⟨.vmem, 35, rfl⟩
abbrev cc3_stg9_0 : Ref sig .tc := ⟨.vmem, 36, rfl⟩
abbrev cc3_stg9_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg2_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg1_1 : Ref sig .tc := ⟨.vmem, 47, rfl⟩
abbrev cc5_stg2_0 : Ref sig .tc := ⟨.vmem, 48, rfl⟩
abbrev cc5_stg3_0 : Ref sig .tc := ⟨.vmem, 49, rfl⟩
abbrev cc5_stg4_0 : Ref sig .tc := ⟨.vmem, 50, rfl⟩
abbrev cc5_stg5_0 : Ref sig .tc := ⟨.vmem, 51, rfl⟩
abbrev cc5_stg6_0 : Ref sig .tc := ⟨.vmem, 52, rfl⟩
abbrev cc5_stg7_0 : Ref sig .tc := ⟨.vmem, 53, rfl⟩
abbrev cc5_stg8_0 : Ref sig .tc := ⟨.vmem, 54, rfl⟩
abbrev cc5_stg9_0 : Ref sig .tc := ⟨.vmem, 55, rfl⟩
abbrev cc5_stg9_1 : Ref sig .tc := ⟨.vmem, 56, rfl⟩
abbrev cc6_stg0_0 : Ref sig .tc := ⟨.vmem, 57, rfl⟩
abbrev cc6_stg0_1 : Ref sig .tc := ⟨.vmem, 58, rfl⟩
abbrev cc6_stg1_0 : Ref sig .tc := ⟨.vmem, 59, rfl⟩
abbrev cc6_stg2_0 : Ref sig .tc := ⟨.vmem, 60, rfl⟩
abbrev cc6_stg3_0 : Ref sig .tc := ⟨.vmem, 61, rfl⟩
abbrev cc6_stg4_0 : Ref sig .tc := ⟨.vmem, 62, rfl⟩
abbrev cc6_stg5_0 : Ref sig .tc := ⟨.vmem, 63, rfl⟩
abbrev cc6_stg6_0 : Ref sig .tc := ⟨.vmem, 64, rfl⟩
abbrev cc6_stg7_0 : Ref sig .tc := ⟨.vmem, 65, rfl⟩
abbrev cc6_stg7_1 : Ref sig .tc := ⟨.vmem, 66, rfl⟩
abbrev cc7_stg0_0 : Ref sig .tc := ⟨.vmem, 67, rfl⟩
abbrev cc7_stg1_0 : Ref sig .tc := ⟨.vmem, 68, rfl⟩
abbrev cc7_stg2_0 : Ref sig .tc := ⟨.vmem, 69, rfl⟩
abbrev cc7_stg3_0 : Ref sig .tc := ⟨.vmem, 70, rfl⟩
abbrev cc7_stg4_0 : Ref sig .tc := ⟨.vmem, 71, rfl⟩
abbrev cc7_stg5_0 : Ref sig .tc := ⟨.vmem, 72, rfl⟩
abbrev cc7_stg6_0 : Ref sig .tc := ⟨.vmem, 73, rfl⟩
abbrev cc7_stg7_0 : Ref sig .tc := ⟨.vmem, 74, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem9_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem6_0 : DmaSem sig := 33
abbrev cc3_sem7_0 : DmaSem sig := 34
abbrev cc3_sem8_0 : DmaSem sig := 35
abbrev cc3_sem9_0 : DmaSem sig := 36
abbrev cc3_sem9_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem2_1 : DmaSem sig := 43
abbrev cc5_sem0_0 : DmaSem sig := 44
abbrev cc5_sem0_1 : DmaSem sig := 45
abbrev cc5_sem1_0 : DmaSem sig := 46
abbrev cc5_sem1_1 : DmaSem sig := 47
abbrev cc5_sem2_0 : DmaSem sig := 48
abbrev cc5_sem3_0 : DmaSem sig := 49
abbrev cc5_sem4_0 : DmaSem sig := 50
abbrev cc5_sem5_0 : DmaSem sig := 51
abbrev cc5_sem6_0 : DmaSem sig := 52
abbrev cc5_sem7_0 : DmaSem sig := 53
abbrev cc5_sem8_0 : DmaSem sig := 54
abbrev cc5_sem9_0 : DmaSem sig := 55
abbrev cc5_sem9_1 : DmaSem sig := 56
abbrev cc6_sem0_0 : DmaSem sig := 57
abbrev cc6_sem0_1 : DmaSem sig := 58
abbrev cc6_sem1_0 : DmaSem sig := 59
abbrev cc6_sem2_0 : DmaSem sig := 60
abbrev cc6_sem3_0 : DmaSem sig := 61
abbrev cc6_sem4_0 : DmaSem sig := 62
abbrev cc6_sem5_0 : DmaSem sig := 63
abbrev cc6_sem6_0 : DmaSem sig := 64
abbrev cc6_sem7_0 : DmaSem sig := 65
abbrev cc6_sem7_1 : DmaSem sig := 66
abbrev cc7_sem0_0 : DmaSem sig := 67
abbrev cc7_sem1_0 : DmaSem sig := 68
abbrev cc7_sem2_0 : DmaSem sig := 69
abbrev cc7_sem3_0 : DmaSem sig := 70
abbrev cc7_sem4_0 : DmaSem sig := 71
abbrev cc7_sem5_0 : DmaSem sig := 72
abbrev cc7_sem6_0 : DmaSem sig := 73
abbrev cc7_sem7_0 : DmaSem sig := 74

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_8 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S5000x64 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_7 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_8 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S64 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S64 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 2 → Memref sig .tc .vmem S5000x64 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_5 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_6 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S5000x1 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 1 → Memref sig .tc .vmem S1x1024 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 1 → Memref sig .tc .vmem S1024x512 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S512 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S512x256 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S256 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S256x1 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S1x1 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

class Facts₀ : Prop where
  slices_S2x800000_S1x800000_0_0 : S2x800000.Slices ![0, 0] S1x800000
  shapeCasts_S1x800000_S800000 : S1x800000.ShapeCasts S800000
  bcast_S_S800000x1 : S_.BroadcastsInDim S800000x1 (![] : Fin 0 → Fin S800000x1.rank)
  bcast_S_S50000x1 : S_.BroadcastsInDim S50000x1 (![] : Fin 0 → Fin S50000x1.rank)
  bcast_S800000_S800000x1_0 : S800000.BroadcastsInDim S800000x1 (![0] : Fin 1 → Fin S800000x1.rank)
  bcast_S_S800000 : S_.BroadcastsInDim S800000 (![] : Fin 0 → Fin S800000.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  slices_S3x128x128_S1x64x128_0_0_0 : S3x128x128.Slices ![0, 0, 0] S1x64x128
  shapeCasts_S1x64x128_S64x128 : S1x64x128.ShapeCasts S64x128
  slices_S3x128x128_S1x64x128_0_64_0 : S3x128x128.Slices ![0, 64, 0] S1x64x128
  slices_S3x128_S1x128_0_0 : S3x128.Slices ![0, 0] S1x128
  shapeCasts_S1x128_S128 : S1x128.ShapeCasts S128
  slices_S3x128x64_S1x128x64_0_0_0 : S3x128x64.Slices ![0, 0, 0] S1x128x64
  shapeCasts_S1x128x64_S128x64 : S1x128x64.ShapeCasts S128x64
  slices_S3x64_S1x64_0_0 : S3x64.Slices ![0, 0] S1x64
  shapeCasts_S1x64_S64 : S1x64.ShapeCasts S64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  shapeCasts_S64_S64 : S64.ShapeCasts S64
  shapeCasts_S64_S1x64 : S64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  slices_S3x128x128_S1x64x128_1_0_0 : S3x128x128.Slices ![1, 0, 0] S1x64x128
  slices_S3x128x128_S1x64x128_1_64_0 : S3x128x128.Slices ![1, 64, 0] S1x64x128
  slices_S3x128_S1x128_1_0 : S3x128.Slices ![1, 0] S1x128
  slices_S3x128x64_S1x128x64_1_0_0 : S3x128x64.Slices ![1, 0, 0] S1x128x64
  slices_S3x64_S1x64_1_0 : S3x64.Slices ![1, 0] S1x64
  slices_S3x128x128_S1x64x128_2_0_0 : S3x128x128.Slices ![2, 0, 0] S1x64x128
  slices_S3x128x128_S1x64x128_2_64_0 : S3x128x128.Slices ![2, 64, 0] S1x64x128
  slices_S3x128_S1x128_2_0 : S3x128.Slices ![2, 0] S1x128
  slices_S3x128x64_S1x128x64_2_0_0 : S3x128x64.Slices ![2, 0, 0] S1x128x64
  slices_S3x64_S1x64_2_0 : S3x64.Slices ![2, 0] S1x64
  inb_S64x64_S64x64_0_0 : ∀ a, (![0, 0] : Fin 2 → Nat) a + S64x64.size a ≤ S64x64.size a
  h_S64x64 : 0 < S64x64.numel
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  reduces_S5000x1_S5000 : S5000x1.Reduces [1] S5000
  inb_S5000x1_S5000x1_0_0 : ∀ a, (![0, 0] : Fin 2 → Nat) a + S5000x1.size a ≤ S5000x1.size a
  h_S5000x1 : 0 < S5000x1.numel
  bcast_S_S1024 : S_.BroadcastsInDim S1024 (![] : Fin 0 → Fin S1024.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1x1_S1024x1_0_1 : S1x1.BroadcastsInDim S1024x1 (![0, 1] : Fin 2 → Fin S1024x1.rank)
  reducesTo_S1024x1_S1024_d1 : S1024x1.ReducesTo [1] S1024
  transposes_S1024x1_S1x1024_1_0 : S1024x1.Transposes [1, 0] S1x1024
  bcast_S_S1x1 : S_.BroadcastsInDim S1x1 (![] : Fin 0 → Fin S1x1.rank)
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x512_S1024x512_0_0 : ∀ a, (![0, 0] : Fin 2 → Nat) a + S1024x512.size a ≤ S1024x512.size a
  h_S1024x512 : 0 < S1024x512.numel
  inb_S512_S512_0 : ∀ a, (![0] : Fin 1 → Nat) a + S512.size a ≤ S512.size a
  h_S512 : 0 < S512.numel
  shapeCasts_S512_S1x512 : S512.ShapeCasts S1x512
  inb_S512x256_S512x256_0_0 : ∀ a, (![0, 0] : Fin 2 → Nat) a + S512x256.size a ≤ S512x256.size a
  h_S512x256 : 0 < S512x256.numel
  inb_S256_S256_0 : ∀ a, (![0] : Fin 1 → Nat) a + S256.size a ≤ S256.size a
  h_S256 : 0 < S256.numel
  shapeCasts_S256_S1x256 : S256.ShapeCasts S1x256
  inb_S256x1_S256x1_0_0 : ∀ a, (![0, 0] : Fin 2 → Nat) a + S256x1.size a ≤ S256x1.size a
  h_S256x1 : 0 < S256x1.numel
  inb_S1x1_S1x1_0_0 : ∀ a, (![0, 0] : Fin 2 → Nat) a + S1x1.size a ≤ S1x1.size a
  h_S1x1 : 0 < S1x1.numel
  reducesTo_S1x1_S1_d1 : S1x1.ReducesTo [1] S1
  bcast_S_S1 : S_.BroadcastsInDim S1 (![] : Fin 0 → Fin S1.rank)
  bcast_S1_S1x1_0 : S1.BroadcastsInDim S1x1 (![0] : Fin 1 → Fin S1x1.rank)
  scatter_S50000x1_S800000x1_S800000x1_1_0_0_1_wf : ScatterDims.WF S50000x1 S800000x1 S800000x1 [1] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x128_S5000x128_1_0_0_1_n_n_wf : DotDims.WF S5000x64 S64x128 S5000x128 [1] [0] [0] [1] [] []
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  dot_S5000x64_S64x1_S5000x1_1_0_0_1_n_n_wf : DotDims.WF S5000x64 S64x1 S5000x1 [1] [0] [0] [1] [] []
  gather_S50000x1_S1024x1_S1024x1_1_0_n_n_0_1_11_wf : GatherDims.WF S50000x1 S1024x1 S1024x1 [1] [0] [] [0] [] 1 ![1, 1]
  dot_S1x1024_S1024x512_S1x512_1_0_0_1_n_n_wf : DotDims.WF S1x1024 S1024x512 S1x512 [1] [0] [0] [1] [] []
  dot_S1x512_S512x256_S1x256_1_0_0_1_n_n_wf : DotDims.WF S1x512 S512x256 S1x256 [1] [0] [0] [1] [] []
  dot_S1x256_S256x1_S1x1_1_0_0_1_n_n_wf : DotDims.WF S1x256 S256x1 S1x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S800000x64.size a
  hwx0_0 : ∀ i : grid0.Coords, EltTy.bits .f32 = 32 ∨ (Rect.block (s := S800000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S800000x64.size a
  hwx0_1 : ∀ i : grid0.Coords, EltTy.bits .f32 = 32 ∨ (Rect.block (s := S800000x64) S8000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x64.size a ≤ S800000x64.size a
  hwx0_2 : ∀ i : grid0.Coords, EltTy.bits .f32 = 32 ∨ (Rect.block (s := S800000x64) S8000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64.size a ≤ S64.size a
  hwx1_7 : ∀ i : grid1.Coords, EltTy.bits .f32 = 32 ∨ (Rect.block (s := S64) S64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64.size a ≤ S64.size a
  hwx1_8 : ∀ i : grid1.Coords, EltTy.bits .f32 = 32 ∨ (Rect.block (s := S64) S64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x64.size a ≤ S50000x64.size a
  hwx1_9 : ∀ i : grid1.Coords, EltTy.bits .f32 = 32 ∨ (Rect.block (s := S50000x64) S5000x64.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x64.size a ≤ S800000x64.size a
  hwx2_0 : ∀ i : grid2.Coords, EltTy.bits .f32 = 32 ∨ (Rect.block (s := S800000x64) S8000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x64.size a ≤ S800000x64.size a
  hwx2_1 : ∀ i : grid2.Coords, EltTy.bits .f32 = 32 ∨ (Rect.block (s := S800000x64) S8000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x64.size a ≤ S800000x64.size a
  hwx2_2 : ∀ i : grid2.Coords, EltTy.bits .f32 = 32 ∨ (Rect.block (s := S800000x64) S8000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x128.size a ≤ S64x128.size a
  hwx3_2 : ∀ i : grid3.Coords, EltTy.bits .f32 = 32 ∨ (Rect.block (s := S64x128) S64x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x128.size a ≤ S64x128.size a
  hwx3_3 : ∀ i : grid3.Coords, EltTy.bits .f32 = 32 ∨ (Rect.block (s := S64x128) S64x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x64.size a ≤ S128x64.size a
  hwx3_5 : ∀ i : grid3.Coords, EltTy.bits .f32 = 32 ∨ (Rect.block (s := S128x64) S128x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S64.size a ≤ S64.size a
  hwx3_6 : ∀ i : grid3.Coords, EltTy.bits .f32 = 32 ∨ (Rect.block (s := S64) S64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S64.size a ≤ S64.size a
  hwx3_7 : ∀ i : grid3.Coords, EltTy.bits .f32 = 32 ∨ (Rect.block (s := S64) S64.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S64.size a ≤ S64.size a
  hwx3_8 : ∀ i : grid3.Coords, EltTy.bits .f32 = 32 ∨ (Rect.block (s := S64) S64.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S5000x64.size a ≤ S50000x64.size a
  hwx3_9 : ∀ i : grid3.Coords, EltTy.bits .f32 = 32 ∨ (Rect.block (s := S50000x64) S5000x64.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x64.size a ≤ S800000x64.size a
  hwx4_0 : ∀ i : grid4.Coords, EltTy.bits .f32 = 32 ∨ (Rect.block (s := S800000x64) S8000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x64.size a ≤ S800000x64.size a
  hwx4_1 : ∀ i : grid4.Coords, EltTy.bits .f32 = 32 ∨ (Rect.block (s := S800000x64) S8000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8000x64.size a ≤ S800000x64.size a
  hwx4_2 : ∀ i : grid4.Coords, EltTy.bits .f32 = 32 ∨ (Rect.block (s := S800000x64) S8000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S50000x64.size a
  hwx5_1 : ∀ i : grid5.Coords, EltTy.bits .f32 = 32 ∨ (Rect.block (s := S50000x64) S5000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x128.size a ≤ S64x128.size a
  hwx5_2 : ∀ i : grid5.Coords, EltTy.bits .f32 = 32 ∨ (Rect.block (s := S64x128) S64x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x128.size a ≤ S64x128.size a
  hwx5_3 : ∀ i : grid5.Coords, EltTy.bits .f32 = 32 ∨ (Rect.block (s := S64x128) S64x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128.size a ≤ S128.size a
  hwx5_4 : ∀ i : grid5.Coords, EltTy.bits .f32 = 32 ∨ (Rect.block (s := S128) S128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x64.size a ≤ S128x64.size a
  hwx5_5 : ∀ i : grid5.Coords, EltTy.bits .f32 = 32 ∨ (Rect.block (s := S128x64) S128x64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S64.size a ≤ S64.size a
  hwx5_6 : ∀ i : grid5.Coords, EltTy.bits .f32 = 32 ∨ (Rect.block (s := S64) S64.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S64.size a ≤ S64.size a
  hwx5_7 : ∀ i : grid5.Coords, EltTy.bits .f32 = 32 ∨ (Rect.block (s := S64) S64.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S64.size a ≤ S64.size a
  hwx5_8 : ∀ i : grid5.Coords, EltTy.bits .f32 = 32 ∨ (Rect.block (s := S64) S64.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S5000x64.size a ≤ S50000x64.size a
  hwx5_9 : ∀ i : grid5.Coords, EltTy.bits .f32 = 32 ∨ (Rect.block (s := S50000x64) S5000x64.size (cc5_transform_9 i) (hinb5_9 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64.size a ≤ S64.size a
  hwx6_2 : ∀ i : grid6.Coords, EltTy.bits .f32 = 32 ∨ (Rect.block (s := S64) S64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x1.size a ≤ S64x1.size a
  hwx6_3 : ∀ i : grid6.Coords, EltTy.bits .f32 = 32 ∨ (Rect.block (s := S64x1) S64x1.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1.size a ≤ S1.size a
  hwx6_4 : ∀ i : grid6.Coords, EltTy.bits .f32 = 32 ∨ (Rect.block (s := S1) S1.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1.size a ≤ S1.size a
  hwx6_5 : ∀ i : grid6.Coords, EltTy.bits .f32 = 32 ∨ (Rect.block (s := S1) S1.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1.size a ≤ S1.size a
  hwx6_6 : ∀ i : grid6.Coords, EltTy.bits .f32 = 32 ∨ (Rect.block (s := S1) S1.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S5000x1.size a ≤ S50000x1.size a
  hwx6_7 : ∀ i : grid6.Coords, EltTy.bits .f32 = 32 ∨ (Rect.block (s := S50000x1) S5000x1.size (cc6_transform_7 i) (hinb6_7 i)).WholeWords (EltTy.packing .f32)
  hrank7 : 0 < grid7.rank
  hstage7_0 : ∀ j, (stage7_0 j).IsWhole
  nbuf7_0 : grid7.bufCount reads7_0 true = 1
  hreads7_0 : ∀ i i' : grid7.Coords, (∀ a, reads7_0 a = true → i a = i' a) → cc7_transform_0 i = cc7_transform_0 i'
  hinb7_0 : ∀ (i : grid7.Coords) a, (cc7_transform_0 i a + 1) * S1x1024.size a ≤ S1x1024.size a
  hwx7_0 : ∀ i : grid7.Coords, EltTy.bits .f32 = 32 ∨ (Rect.block (s := S1x1024) S1x1024.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1024x512.size a ≤ S1024x512.size a
  hwx7_1 : ∀ i : grid7.Coords, EltTy.bits .f32 = 32 ∨ (Rect.block (s := S1024x512) S1024x512.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S512.size a ≤ S512.size a
  hwx7_2 : ∀ i : grid7.Coords, EltTy.bits .f32 = 32 ∨ (Rect.block (s := S512) S512.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S512x256.size a ≤ S512x256.size a
  hwx7_3 : ∀ i : grid7.Coords, EltTy.bits .f32 = 32 ∨ (Rect.block (s := S512x256) S512x256.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S256.size a ≤ S256.size a
  hwx7_4 : ∀ i : grid7.Coords, EltTy.bits .f32 = 32 ∨ (Rect.block (s := S256) S256.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S256x1.size a ≤ S256x1.size a
  hwx7_5 : ∀ i : grid7.Coords, EltTy.bits .f32 = 32 ∨ (Rect.block (s := S256x1) S256x1.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1.size a ≤ S1.size a
  hwx7_6 : ∀ i : grid7.Coords, EltTy.bits .f32 = 32 ∨ (Rect.block (s := S1) S1.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S1x1.size a ≤ S1x1.size a
  hwx7_7 : ∀ i : grid7.Coords, EltTy.bits .f32 = 32 ∨ (Rect.block (s := S1x1) S1x1.size (cc7_transform_7 i) (hinb7_7 i)).WholeWords (EltTy.packing .f32)

variable [Facts₀]

def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf
def gather_S50000x1_S1024x1_S1024x1_1_0_n_n_0_1_11 : GatherDims S50000x1 S1024x1 S1024x1 where
  offsetDims := [1]
  collapsedSliceDims := [0]
  operandBatchingDims := []
  startIndicesBatchingDims := []
  startIndexMap := [0]
  indexVectorDim := 1
  sliceSizes := ![1, 1]
  wf := gather_S50000x1_S1024x1_S1024x1_1_0_n_n_0_1_11_wf
def dot_S1x1024_S1024x512_S1x512_1_0_0_1_n_n : DotDims S1x1024 S1024x512 S1x512 where
  lhsContracting := [1]
  rhsContracting := [0]
  lhsNonContracting := [0]
  rhsNonContracting := [1]
  lhsBatch := []
  rhsBatch := []
  wf := dot_S1x1024_S1024x512_S1x512_1_0_0_1_n_n_wf
def dot_S1x512_S512x256_S1x256_1_0_0_1_n_n : DotDims S1x512 S512x256 S1x256 where
  lhsContracting := [1]
  rhsContracting := [0]
  lhsNonContracting := [0]
  rhsNonContracting := [1]
  lhsBatch := []
  rhsBatch := []
  wf := dot_S1x512_S512x256_S1x256_1_0_0_1_n_n_wf
def dot_S1x256_S256x1_S1x1_1_0_0_1_n_n : DotDims S1x256 S256x1 S1x1 where
  lhsContracting := [1]
  rhsContracting := [0]
  lhsNonContracting := [0]
  rhsNonContracting := [1]
  lhsBatch := []
  rhsBatch := []
  wf := dot_S1x256_S256x1_S1x1_1_0_0_1_n_n_wf

abbrev win0_0 : Pipeline.Window sig grid0 :=
  Pipeline.Window.ofSpec (Memref.whole main_v8) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S8000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v22) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v24) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v26) S64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v28) S64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v29) S5000x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v30) S8000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S8000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v31) S8000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v29) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v36) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v38) S64x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v40) S64x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v42) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v44) S128x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v46) S64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v48) S64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v50) S64.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v51) S5000x64.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v52) S8000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg2) S8000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v53) S8000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v51) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v58) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v60) S64x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v62) S64x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v64) S128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v66) S128x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v68) S64.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v70) S64.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v72) S64.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v73) S5000x64.size cc5_transform_9 reads5_9 true false 2 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

abbrev win6_0 : Pipeline.Window sig grid6 :=
  Pipeline.Window.ofSpec (Memref.whole main_v73) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg11) S64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg12) S64x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg13) S1.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg14) S1.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_arg15) S1.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v74) S5000x1.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v76) S1x1024.size cc7_transform_0 reads7_0 false true 1 stage7_0 sem7_0
    hrank7 hreads7_0 hinb7_0 nbuf7_0 (Memref.isWhole_whole _) hwx7_0 hstage7_0

abbrev win7_1 : Pipeline.Window sig grid7 :=
  Pipeline.Window.ofSpec (Memref.whole main_arg16) S1024x512.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_arg17) S512.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg18) S512x256.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_arg19) S256.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_arg20) S256x1.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_arg21) S1.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v78) S1x1.size cc7_transform_7 reads7_7 true true 1 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x64 : Shape := ⟨2, ![800000, 64]⟩
abbrev S1024 : Shape := ⟨1, ![1024]⟩
abbrev S3x128x128 : Shape := ⟨3, ![3, 128, 128]⟩
abbrev S3x128 : Shape := ⟨2, ![3, 128]⟩
abbrev S3x128x64 : Shape := ⟨3, ![3, 128, 64]⟩
abbrev S3x64 : Shape := ⟨2, ![3, 64]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S50000x128 : Shape := ⟨2, ![50000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1x128x64 : Shape := ⟨3, ![1, 128, 64]⟩
abbrev S128x64 : Shape := ⟨2, ![128, 64]⟩
abbrev S1x64 : Shape := ⟨2, ![1, 64]⟩
abbrev S50000 : Shape := ⟨1, ![50000]⟩
abbrev S1x1 : Shape := ⟨2, ![1, 1]⟩
abbrev S1024x1 : Shape := ⟨2, ![1024, 1]⟩
abbrev S1x1024 : Shape := ⟨2, ![1, 1024]⟩
abbrev S1x512 : Shape := ⟨2, ![1, 512]⟩
abbrev S1x256 : Shape := ⟨2, ![1, 256]⟩

abbrev nBuf : Space → Nat
  | .hbm => 332
  | .vmem => 0
  | .smem => 0
  | _ => 0

abbrev hbmTy0_0 (i : Nat) : BufTy := match i % 128 with
  | 0 => ⟨S50000x64, .f32⟩
  | 1 => ⟨S2x800000, .i32⟩
  | 2 => ⟨S800000x64, .f32⟩
  | 3 => ⟨S1024, .i32⟩
  | 4 => ⟨S3x128x128, .f32⟩
  | 5 => ⟨S3x128, .f32⟩
  | 6 => ⟨S3x128x64, .f32⟩
  | 7 => ⟨S3x64, .f32⟩
  | 8 => ⟨S3x64, .f32⟩
  | 9 => ⟨S3x64, .f32⟩
  | 10 => ⟨S64x64, .f32⟩
  | 11 => ⟨S64, .f32⟩
  | 12 => ⟨S64x1, .f32⟩
  | 13 => ⟨S1, .f32⟩
  | 14 => ⟨S1, .f32⟩
  | 15 => ⟨S1, .f32⟩
  | 16 => ⟨S1024x512, .f32⟩
  | 17 => ⟨S512, .f32⟩
  | 18 => ⟨S512x256, .f32⟩
  | 19 => ⟨S256, .f32⟩
  | 20 => ⟨S256x1, .f32⟩
  | 21 => ⟨S1, .f32⟩
  | 22 => ⟨S1x800000, .i32⟩
  | 23 => ⟨S800000, .i32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x64, .f32⟩
  | 33 => ⟨S800000x64, .f32⟩
  | 34 => ⟨S_, .f32⟩
  | 35 => ⟨S50000x64, .f32⟩
  | 36 => ⟨S800000x1, .i32⟩
  | 37 => ⟨S50000x64, .f32⟩
  | 38 => ⟨S_, .f32⟩
  | 39 => ⟨S800000x1, .f32⟩
  | 40 => ⟨S_, .f32⟩
  | 41 => ⟨S50000x1, .f32⟩
  | 42 => ⟨S800000x1, .i32⟩
  | 43 => ⟨S50000x1, .f32⟩
  | 44 => ⟨S_, .f32⟩
  | 45 => ⟨S50000x1, .f32⟩
  | 46 => ⟨S50000x1, .f32⟩
  | 47 => ⟨S50000x64, .f32⟩
  | 48 => ⟨S50000x64, .f32⟩
  | 49 => ⟨S50000x128, .f32⟩
  | 50 => ⟨S1x128x128, .f32⟩
  | 51 => ⟨S128x128, .f32⟩
  | 52 => ⟨S50000x128, .f32⟩
  | 53 => ⟨S1x128, .f32⟩
  | 54 => ⟨S128, .f32⟩
  | 55 => ⟨S1x128, .f32⟩
  | 56 => ⟨S50000x128, .f32⟩
  | 57 => ⟨S50000x128, .f32⟩
  | 58 => ⟨S_, .f32⟩
  | 59 => ⟨S50000x128, .f32⟩
  | 60 => ⟨S50000x128, .f32⟩
  | 61 => ⟨S1x128x64, .f32⟩
  | 62 => ⟨S128x64, .f32⟩
  | 63 => ⟨S50000x64, .f32⟩
  | 64 => ⟨S1x64, .f32⟩
  | 65 => ⟨S64, .f32⟩
  | 66 => ⟨S1x64, .f32⟩
  | 67 => ⟨S50000x64, .f32⟩
  | 68 => ⟨S50000x64, .f32⟩
  | 69 => ⟨S1x64, .f32⟩
  | 70 => ⟨S64, .f32⟩
  | 71 => ⟨S1x64, .f32⟩
  | 72 => ⟨S64, .f32⟩
  | 73 => ⟨S_, .f32⟩
  | 74 => ⟨S50000, .f32⟩
  | 75 => ⟨S50000x1, .f32⟩
  | 76 => ⟨S_, .f32⟩
  | 77 => ⟨S50000x1, .f32⟩
  | 78 => ⟨S50000x1, .f32⟩
  | 79 => ⟨S50000x64, .f32⟩
  | 80 => ⟨S50000x64, .f32⟩
  | 81 => ⟨S50000x64, .f32⟩
  | 82 => ⟨S_, .f32⟩
  | 83 => ⟨S50000, .f32⟩
  | 84 => ⟨S50000x1, .f32⟩
  | 85 => ⟨S_, .f32⟩
  | 86 => ⟨S50000x1, .f32⟩
  | 87 => ⟨S50000x1, .f32⟩
  | 88 => ⟨S50000x64, .f32⟩
  | 89 => ⟨S50000x64, .f32⟩
  | 90 => ⟨S_, .f32⟩
  | 91 => ⟨S50000x1, .f32⟩
  | 92 => ⟨S50000x1, .f32⟩
  | 93 => ⟨S50000x1, .f32⟩
  | 94 => ⟨S50000x64, .f32⟩
  | 95 => ⟨S50000x64, .f32⟩
  | 96 => ⟨S1x64, .f32⟩
  | 97 => ⟨S50000x64, .f32⟩
  | 98 => ⟨S50000x64, .f32⟩
  | 99 => ⟨S1x64, .f32⟩
  | 100 => ⟨S50000x64, .f32⟩
  | 101 => ⟨S50000x64, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000x64, .f32⟩
  | 111 => ⟨S800000x64, .f32⟩
  | 112 => ⟨S_, .f32⟩
  | 113 => ⟨S50000x64, .f32⟩
  | 114 => ⟨S800000x1, .i32⟩
  | 115 => ⟨S50000x64, .f32⟩
  | 116 => ⟨S_, .f32⟩
  | 117 => ⟨S800000x1, .f32⟩
  | 118 => ⟨S_, .f32⟩
  | 119 => ⟨S50000x1, .f32⟩
  | 120 => ⟨S800000x1, .i32⟩
  | 121 => ⟨S50000x1, .f32⟩
  | 122 => ⟨S_, .f32⟩
  | 123 => ⟨S50000x1, .f32⟩
  | 124 => ⟨S50000x1, .f32⟩
  | 125 => ⟨S50000x64, .f32⟩
  | 126 => ⟨S50000x64, .f32⟩
  | 127 => ⟨S50000x128, .f32⟩
  | _ => ⟨S50000x64, .f32⟩

abbrev hbmTy0_1 (i : Nat) : BufTy := match i % 128 with
  | 0 => ⟨S1x128x128, .f32⟩
  | 1 => ⟨S128x128, .f32⟩
  | 2 => ⟨S50000x128, .f32⟩
  | 3 => ⟨S1x128, .f32⟩
  | 4 => ⟨S128, .f32⟩
  | 5 => ⟨S1x128, .f32⟩
  | 6 => ⟨S50000x128, .f32⟩
  | 7 => ⟨S50000x128, .f32⟩
  | 8 => ⟨S_, .f32⟩
  | 9 => ⟨S50000x128, .f32⟩
  | 10 => ⟨S50000x128, .f32⟩
  | 11 => ⟨S1x128x64, .f32⟩
  | 12 => ⟨S128x64, .f32⟩
  | 13 => ⟨S50000x64, .f32⟩
  | 14 => ⟨S1x64, .f32⟩
  | 15 => ⟨S64, .f32⟩
  | 16 => ⟨S1x64, .f32⟩
  | 17 => ⟨S50000x64, .f32⟩
  | 18 => ⟨S50000x64, .f32⟩
  | 19 => ⟨S1x64, .f32⟩
  | 20 => ⟨S64, .f32⟩
  | 21 => ⟨S1x64, .f32⟩
  | 22 => ⟨S64, .f32⟩
  | 23 => ⟨S_, .f32⟩
  | 24 => ⟨S50000, .f32⟩
  | 25 => ⟨S50000x1, .f32⟩
  | 26 => ⟨S_, .f32⟩
  | 27 => ⟨S50000x1, .f32⟩
  | 28 => ⟨S50000x1, .f32⟩
  | 29 => ⟨S50000x64, .f32⟩
  | 30 => ⟨S50000x64, .f32⟩
  | 31 => ⟨S50000x64, .f32⟩
  | 32 => ⟨S_, .f32⟩
  | 33 => ⟨S50000, .f32⟩
  | 34 => ⟨S50000x1, .f32⟩
  | 35 => ⟨S_, .f32⟩
  | 36 => ⟨S50000x1, .f32⟩
  | 37 => ⟨S50000x1, .f32⟩
  | 38 => ⟨S50000x64, .f32⟩
  | 39 => ⟨S50000x64, .f32⟩
  | 40 => ⟨S_, .f32⟩
  | 41 => ⟨S50000x1, .f32⟩
  | 42 => ⟨S50000x1, .f32⟩
  | 43 => ⟨S50000x1, .f32⟩
  | 44 => ⟨S50000x64, .f32⟩
  | 45 => ⟨S50000x64, .f32⟩
  | 46 => ⟨S1x64, .f32⟩
  | 47 => ⟨S50000x64, .f32⟩
  | 48 => ⟨S50000x64, .f32⟩
  | 49 => ⟨S1x64, .f32⟩
  | 50 => ⟨S50000x64, .f32⟩
  | 51 => ⟨S50000x64, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x64, .f32⟩
  | 61 => ⟨S800000x64, .f32⟩
  | 62 => ⟨S_, .f32⟩
  | 63 => ⟨S50000x64, .f32⟩
  | 64 => ⟨S800000x1, .i32⟩
  | 65 => ⟨S50000x64, .f32⟩
  | 66 => ⟨S_, .f32⟩
  | 67 => ⟨S800000x1, .f32⟩
  | 68 => ⟨S_, .f32⟩
  | 69 => ⟨S50000x1, .f32⟩
  | 70 => ⟨S800000x1, .i32⟩
  | 71 => ⟨S50000x1, .f32⟩
  | 72 => ⟨S_, .f32⟩
  | 73 => ⟨S50000x1, .f32⟩
  | 74 => ⟨S50000x1, .f32⟩
  | 75 => ⟨S50000x64, .f32⟩
  | 76 => ⟨S50000x64, .f32⟩
  | 77 => ⟨S50000x128, .f32⟩
  | 78 => ⟨S1x128x128, .f32⟩
  | 79 => ⟨S128x128, .f32⟩
  | 80 => ⟨S50000x128, .f32⟩
  | 81 => ⟨S1x128, .f32⟩
  | 82 => ⟨S128, .f32⟩
  | 83 => ⟨S1x128, .f32⟩
  | 84 => ⟨S50000x128, .f32⟩
  | 85 => ⟨S50000x128, .f32⟩
  | 86 => ⟨S_, .f32⟩
  | 87 => ⟨S50000x128, .f32⟩
  | 88 => ⟨S50000x128, .f32⟩
  | 89 => ⟨S1x128x64, .f32⟩
  | 90 => ⟨S128x64, .f32⟩
  | 91 => ⟨S50000x64, .f32⟩
  | 92 => ⟨S1x64, .f32⟩
  | 93 => ⟨S64, .f32⟩
  | 94 => ⟨S1x64, .f32⟩
  | 95 => ⟨S50000x64, .f32⟩
  | 96 => ⟨S50000x64, .f32⟩
  | 97 => ⟨S1x64, .f32⟩
  | 98 => ⟨S64, .f32⟩
  | 99 => ⟨S1x64, .f32⟩
  | 100 => ⟨S64, .f32⟩
  | 101 => ⟨S_, .f32⟩
  | 102 => ⟨S50000, .f32⟩
  | 103 => ⟨S50000x1, .f32⟩
  | 104 => ⟨S_, .f32⟩
  | 105 => ⟨S50000x1, .f32⟩
  | 106 => ⟨S50000x1, .f32⟩
  | 107 => ⟨S50000x64, .f32⟩
  | 108 => ⟨S50000x64, .f32⟩
  | 109 => ⟨S50000x64, .f32⟩
  | 110 => ⟨S_, .f32⟩
  | 111 => ⟨S50000, .f32⟩
  | 112 => ⟨S50000x1, .f32⟩
  | 113 => ⟨S_, .f32⟩
  | 114 => ⟨S50000x1, .f32⟩
  | 115 => ⟨S50000x1, .f32⟩
  | 116 => ⟨S50000x64, .f32⟩
  | 117 => ⟨S50000x64, .f32⟩
  | 118 => ⟨S_, .f32⟩
  | 119 => ⟨S50000x1, .f32⟩
  | 120 => ⟨S50000x1, .f32⟩
  | 121 => ⟨S50000x1, .f32⟩
  | 122 => ⟨S50000x64, .f32⟩
  | 123 => ⟨S50000x64, .f32⟩
  | 124 => ⟨S1x64, .f32⟩
  | 125 => ⟨S50000x64, .f32⟩
  | 126 => ⟨S50000x64, .f32⟩
  | 127 => ⟨S1x64, .f32⟩
  | _ => ⟨S50000x64, .f32⟩

abbrev hbmTy0_2 (i : Nat) : BufTy := match i % 128 with
  | 0 => ⟨S50000x64, .f32⟩
  | 1 => ⟨S50000x64, .f32⟩
  | 2 => ⟨S50000x64, .f32⟩
  | 3 => ⟨S1x64, .f32⟩
  | 4 => ⟨S50000x64, .f32⟩
  | 5 => ⟨S50000x64, .f32⟩
  | 6 => ⟨S_, .f32⟩
  | 7 => ⟨S50000x64, .f32⟩
  | 8 => ⟨S50000x64, .f32⟩
  | 9 => ⟨S50000x1, .f32⟩
  | 10 => ⟨S1x1, .f32⟩
  | 11 => ⟨S50000x1, .f32⟩
  | 12 => ⟨S50000x1, .f32⟩
  | 13 => ⟨S_, .f32⟩
  | 14 => ⟨S50000, .f32⟩
  | 15 => ⟨S50000x1, .f32⟩
  | 16 => ⟨S_, .f32⟩
  | 17 => ⟨S50000x1, .f32⟩
  | 18 => ⟨S50000x1, .f32⟩
  | 19 => ⟨S50000x1, .f32⟩
  | 20 => ⟨S50000x1, .f32⟩
  | 21 => ⟨S_, .f32⟩
  | 22 => ⟨S50000, .f32⟩
  | 23 => ⟨S50000x1, .f32⟩
  | 24 => ⟨S_, .f32⟩
  | 25 => ⟨S50000x1, .f32⟩
  | 26 => ⟨S50000x1, .f32⟩
  | 27 => ⟨S50000x1, .f32⟩
  | 28 => ⟨S_, .f32⟩
  | 29 => ⟨S50000x1, .f32⟩
  | 30 => ⟨S50000x1, .f32⟩
  | 31 => ⟨S50000x1, .f32⟩
  | 32 => ⟨S50000x1, .f32⟩
  | 33 => ⟨S1x1, .f32⟩
  | 34 => ⟨S50000x1, .f32⟩
  | 35 => ⟨S50000x1, .f32⟩
  | 36 => ⟨S1x1, .f32⟩
  | 37 => ⟨S50000x1, .f32⟩
  | 38 => ⟨S50000x1, .f32⟩
  | 39 => ⟨S_, .i32⟩
  | 40 => ⟨S1024, .i32⟩
  | 41 => ⟨S1024, .i1⟩
  | 42 => ⟨S_, .i32⟩
  | 43 => ⟨S1024, .i32⟩
  | 44 => ⟨S1024, .i32⟩
  | 45 => ⟨S1024, .i32⟩
  | 46 => ⟨S1024x1, .i32⟩
  | 47 => ⟨S1024x1, .f32⟩
  | 48 => ⟨S1x1024, .f32⟩
  | 49 => ⟨S1x512, .f32⟩
  | 50 => ⟨S1x512, .f32⟩
  | 51 => ⟨S1x512, .f32⟩
  | 52 => ⟨S_, .f32⟩
  | 53 => ⟨S1x512, .f32⟩
  | 54 => ⟨S1x512, .f32⟩
  | 55 => ⟨S1x256, .f32⟩
  | 56 => ⟨S1x256, .f32⟩
  | 57 => ⟨S1x256, .f32⟩
  | 58 => ⟨S_, .f32⟩
  | 59 => ⟨S1x256, .f32⟩
  | 60 => ⟨S1x256, .f32⟩
  | 61 => ⟨S1x1, .f32⟩
  | 62 => ⟨S1x1, .f32⟩
  | 63 => ⟨S1x1, .f32⟩
  | 64 => ⟨S_, .f32⟩
  | 65 => ⟨S1, .f32⟩
  | 66 => ⟨S_, .f32⟩
  | 67 => ⟨S1, .f32⟩
  | 68 => ⟨S1, .f32⟩
  | 69 => ⟨S1x1, .f32⟩
  | 70 => ⟨S1x1, .f32⟩
  | 71 => ⟨S1x1, .f32⟩
  | 72 => ⟨S_, .f32⟩
  | 73 => ⟨S1, .f32⟩
  | 74 => ⟨S1x1, .f32⟩
  | 75 => ⟨S1x1, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_c : Ref sig .tc := ⟨.hbm, 24, rfl⟩
abbrev main_v2 : Ref sig .tc := ⟨.hbm, 25, rfl⟩
abbrev main_v3 : Ref sig .tc := ⟨.hbm, 26, rfl⟩
abbrev main_c_0 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_cst : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_cst_1 : Ref sig .tc := ⟨.hbm, 38, rfl⟩
abbrev main_v13 : Ref sig .tc := ⟨.hbm, 39, rfl⟩
abbrev main_cst_2 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_cst_3 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_call0_cst : Ref sig .tc := ⟨.hbm, 58, rfl⟩
abbrev main_call0_v0 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_4 : Ref sig .tc := ⟨.hbm, 73, rfl⟩
abbrev main_v43 : Ref sig .tc := ⟨.hbm, 74, rfl⟩
abbrev main_v44 : Ref sig .tc := ⟨.hbm, 75, rfl⟩
abbrev main_cst_5 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_6 : Ref sig .tc := ⟨.hbm, 82, rfl⟩
abbrev main_v50 : Ref sig .tc := ⟨.hbm, 83, rfl⟩
abbrev main_v51 : Ref sig .tc := ⟨.hbm, 84, rfl⟩
abbrev main_cst_7 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_8 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_c_9 : Ref sig .tc := ⟨.hbm, 102, rfl⟩
abbrev main_v67 : Ref sig .tc := ⟨.hbm, 103, rfl⟩
abbrev main_v68 : Ref sig .tc := ⟨.hbm, 104, rfl⟩
abbrev main_c_10 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_11 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_cst_12 : Ref sig .tc := ⟨.hbm, 116, rfl⟩
abbrev main_v78 : Ref sig .tc := ⟨.hbm, 117, rfl⟩
abbrev main_cst_13 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_cst_14 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_call1_cst : Ref sig .tc := ⟨.hbm, 136, rfl⟩
abbrev main_call1_v0 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_cst_15 : Ref sig .tc := ⟨.hbm, 151, rfl⟩
abbrev main_v108 : Ref sig .tc := ⟨.hbm, 152, rfl⟩
abbrev main_v109 : Ref sig .tc := ⟨.hbm, 153, rfl⟩
abbrev main_cst_16 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_cst_17 : Ref sig .tc := ⟨.hbm, 160, rfl⟩
abbrev main_v115 : Ref sig .tc := ⟨.hbm, 161, rfl⟩
abbrev main_v116 : Ref sig .tc := ⟨.hbm, 162, rfl⟩
abbrev main_cst_18 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_cst_19 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_c_20 : Ref sig .tc := ⟨.hbm, 180, rfl⟩
abbrev main_v132 : Ref sig .tc := ⟨.hbm, 181, rfl⟩
abbrev main_v133 : Ref sig .tc := ⟨.hbm, 182, rfl⟩
abbrev main_c_21 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_cst_22 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_cst_23 : Ref sig .tc := ⟨.hbm, 194, rfl⟩
abbrev main_v143 : Ref sig .tc := ⟨.hbm, 195, rfl⟩
abbrev main_cst_24 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_cst_25 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_call2_cst : Ref sig .tc := ⟨.hbm, 214, rfl⟩
abbrev main_call2_v0 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_cst_26 : Ref sig .tc := ⟨.hbm, 229, rfl⟩
abbrev main_v173 : Ref sig .tc := ⟨.hbm, 230, rfl⟩
abbrev main_v174 : Ref sig .tc := ⟨.hbm, 231, rfl⟩
abbrev main_cst_27 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_cst_28 : Ref sig .tc := ⟨.hbm, 238, rfl⟩
abbrev main_v180 : Ref sig .tc := ⟨.hbm, 239, rfl⟩
abbrev main_v181 : Ref sig .tc := ⟨.hbm, 240, rfl⟩
abbrev main_cst_29 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_cst_30 : Ref sig .tc := ⟨.hbm, 246, rfl⟩
abbrev main_v186 : Ref sig .tc := ⟨.hbm, 247, rfl⟩
abbrev main_v187 : Ref sig .tc := ⟨.hbm, 248, rfl⟩
abbrev main_v188 : Ref sig .tc := ⟨.hbm, 249, rfl⟩
abbrev main_v189 : Ref sig .tc := ⟨.hbm, 250, rfl⟩
abbrev main_v190 : Ref sig .tc := ⟨.hbm, 251, rfl⟩
abbrev main_v191 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_v195 : Ref sig .tc := ⟨.hbm, 256, rfl⟩
abbrev main_v196 : Ref sig .tc := ⟨.hbm, 257, rfl⟩
abbrev main_v197 : Ref sig .tc := ⟨.hbm, 258, rfl⟩
abbrev main_v198 : Ref sig .tc := ⟨.hbm, 259, rfl⟩
abbrev main_v199 : Ref sig .tc := ⟨.hbm, 260, rfl⟩
abbrev main_v200 : Ref sig .tc := ⟨.hbm, 261, rfl⟩
abbrev main_call3_cst : Ref sig .tc := ⟨.hbm, 262, rfl⟩
abbrev main_call3_v0 : Ref sig .tc := ⟨.hbm, 263, rfl⟩
abbrev main_v201 : Ref sig .tc := ⟨.hbm, 264, rfl⟩
abbrev main_v202 : Ref sig .tc := ⟨.hbm, 265, rfl⟩
abbrev main_v203 : Ref sig .tc := ⟨.hbm, 266, rfl⟩
abbrev main_v204 : Ref sig .tc := ⟨.hbm, 267, rfl⟩
abbrev main_v205 : Ref sig .tc := ⟨.hbm, 268, rfl⟩
abbrev main_cst_31 : Ref sig .tc := ⟨.hbm, 269, rfl⟩
abbrev main_v206 : Ref sig .tc := ⟨.hbm, 270, rfl⟩
abbrev main_v207 : Ref sig .tc := ⟨.hbm, 271, rfl⟩
abbrev main_cst_32 : Ref sig .tc := ⟨.hbm, 272, rfl⟩
abbrev main_v208 : Ref sig .tc := ⟨.hbm, 273, rfl⟩
abbrev main_v209 : Ref sig .tc := ⟨.hbm, 274, rfl⟩
abbrev main_v210 : Ref sig .tc := ⟨.hbm, 275, rfl⟩
abbrev main_v211 : Ref sig .tc := ⟨.hbm, 276, rfl⟩
abbrev main_cst_33 : Ref sig .tc := ⟨.hbm, 277, rfl⟩
abbrev main_v212 : Ref sig .tc := ⟨.hbm, 278, rfl⟩
abbrev main_v213 : Ref sig .tc := ⟨.hbm, 279, rfl⟩
abbrev main_cst_34 : Ref sig .tc := ⟨.hbm, 280, rfl⟩
abbrev main_v214 : Ref sig .tc := ⟨.hbm, 281, rfl⟩
abbrev main_v215 : Ref sig .tc := ⟨.hbm, 282, rfl⟩
abbrev main_v216 : Ref sig .tc := ⟨.hbm, 283, rfl⟩
abbrev main_cst_35 : Ref sig .tc := ⟨.hbm, 284, rfl⟩
abbrev main_v217 : Ref sig .tc := ⟨.hbm, 285, rfl⟩
abbrev main_v218 : Ref sig .tc := ⟨.hbm, 286, rfl⟩
abbrev main_v219 : Ref sig .tc := ⟨.hbm, 287, rfl⟩
abbrev main_v220 : Ref sig .tc := ⟨.hbm, 288, rfl⟩
abbrev main_v221 : Ref sig .tc := ⟨.hbm, 289, rfl⟩
abbrev main_v222 : Ref sig .tc := ⟨.hbm, 290, rfl⟩
abbrev main_v223 : Ref sig .tc := ⟨.hbm, 291, rfl⟩
abbrev main_v224 : Ref sig .tc := ⟨.hbm, 292, rfl⟩
abbrev main_v225 : Ref sig .tc := ⟨.hbm, 293, rfl⟩
abbrev main_v226 : Ref sig .tc := ⟨.hbm, 294, rfl⟩
abbrev main_c_36 : Ref sig .tc := ⟨.hbm, 295, rfl⟩
abbrev main_v227 : Ref sig .tc := ⟨.hbm, 296, rfl⟩
abbrev main_v228 : Ref sig .tc := ⟨.hbm, 297, rfl⟩
abbrev main_c_37 : Ref sig .tc := ⟨.hbm, 298, rfl⟩
abbrev main_v229 : Ref sig .tc := ⟨.hbm, 299, rfl⟩
abbrev main_v230 : Ref sig .tc := ⟨.hbm, 300, rfl⟩
abbrev main_v231 : Ref sig .tc := ⟨.hbm, 301, rfl⟩
abbrev main_v232 : Ref sig .tc := ⟨.hbm, 302, rfl⟩
abbrev main_v233 : Ref sig .tc := ⟨.hbm, 303, rfl⟩
abbrev main_v234 : Ref sig .tc := ⟨.hbm, 304, rfl⟩
abbrev main_v235 : Ref sig .tc := ⟨.hbm, 305, rfl⟩
abbrev main_v236 : Ref sig .tc := ⟨.hbm, 306, rfl⟩
abbrev main_v237 : Ref sig .tc := ⟨.hbm, 307, rfl⟩
abbrev main_call4_cst : Ref sig .tc := ⟨.hbm, 308, rfl⟩
abbrev main_call4_v0 : Ref sig .tc := ⟨.hbm, 309, rfl⟩
abbrev main_v238 : Ref sig .tc := ⟨.hbm, 310, rfl⟩
abbrev main_v239 : Ref sig .tc := ⟨.hbm, 311, rfl⟩
abbrev main_v240 : Ref sig .tc := ⟨.hbm, 312, rfl⟩
abbrev main_v241 : Ref sig .tc := ⟨.hbm, 313, rfl⟩
abbrev main_call5_cst : Ref sig .tc := ⟨.hbm, 314, rfl⟩
abbrev main_call5_v0 : Ref sig .tc := ⟨.hbm, 315, rfl⟩
abbrev main_v242 : Ref sig .tc := ⟨.hbm, 316, rfl⟩
abbrev main_v243 : Ref sig .tc := ⟨.hbm, 317, rfl⟩
abbrev main_v244 : Ref sig .tc := ⟨.hbm, 318, rfl⟩
abbrev main_v245 : Ref sig .tc := ⟨.hbm, 319, rfl⟩
abbrev main_cst_38 : Ref sig .tc := ⟨.hbm, 320, rfl⟩
abbrev main_v246 : Ref sig .tc := ⟨.hbm, 321, rfl⟩
abbrev main_cst_39 : Ref sig .tc := ⟨.hbm, 322, rfl⟩
abbrev main_v247 : Ref sig .tc := ⟨.hbm, 323, rfl⟩
abbrev main_v248 : Ref sig .tc := ⟨.hbm, 324, rfl⟩
abbrev main_v249 : Ref sig .tc := ⟨.hbm, 325, rfl⟩
abbrev main_v250 : Ref sig .tc := ⟨.hbm, 326, rfl⟩
abbrev main_v251 : Ref sig .tc := ⟨.hbm, 327, rfl⟩
abbrev main_cst_40 : Ref sig .tc := ⟨.hbm, 328, rfl⟩
abbrev main_v252 : Ref sig .tc := ⟨.hbm, 329, rfl⟩
abbrev main_v253 : Ref sig .tc := ⟨.hbm, 330, rfl⟩
abbrev main_v254 : Ref sig .tc := ⟨.hbm, 331, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  concatenates_S50000x64_S50000x64_S50000x128_d1 : Shape.Concatenates [S50000x64, S50000x64] S50000x128 1
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  slices_S3x128x64_S1x128x64_0_0_0 : S3x128x64.Slices ![0, 0, 0] S1x128x64
  shapeCasts_S1x128x64_S128x64 : S1x128x64.ShapeCasts S128x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  slices_S3x128x128_S1x128x128_1_0_0 : S3x128x128.Slices ![1, 0, 0] S1x128x128
  slices_S3x128_S1x128_1_0 : S3x128.Slices ![1, 0] S1x128
  slices_S3x128x64_S1x128x64_1_0_0 : S3x128x64.Slices ![1, 0, 0] S1x128x64
  slices_S3x64_S1x64_1_0 : S3x64.Slices ![1, 0] S1x64
  slices_S3x128x128_S1x128x128_2_0_0 : S3x128x128.Slices ![2, 0, 0] S1x128x128
  slices_S3x128_S1x128_2_0 : S3x128.Slices ![2, 0] S1x128
  slices_S3x128x64_S1x128x64_2_0_0 : S3x128x64.Slices ![2, 0, 0] S1x128x64
  slices_S3x64_S1x64_2_0 : S3x64.Slices ![2, 0] S1x64
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  reducesTo_S50000x1_S50000_d1 : S50000x1.ReducesTo [1] S50000
  bcast_S_S1024 : S_.BroadcastsInDim S1024 (![] : Fin 0 → Fin S1024.rank)
  bcast_S1024_S1024x1_0 : S1024.BroadcastsInDim S1024x1 (![0] : Fin 1 → Fin S1024x1.rank)
  transposes_S1024x1_S1x1024_1_0 : S1024x1.Transposes [1, 0] S1x1024
  bcast_S512_S1x512_1 : S512.BroadcastsInDim S1x512 (![1] : Fin 1 → Fin S1x512.rank)
  bcast_S_S1x512 : S_.BroadcastsInDim S1x512 (![] : Fin 0 → Fin S1x512.rank)
  bcast_S256_S1x256_1 : S256.BroadcastsInDim S1x256 (![1] : Fin 1 → Fin S1x256.rank)
  bcast_S_S1x256 : S_.BroadcastsInDim S1x256 (![] : Fin 0 → Fin S1x256.rank)
  reducesTo_S1x1_S1_d1 : S1x1.ReducesTo [1] S1
  bcast_S_S1 : S_.BroadcastsInDim S1 (![] : Fin 0 → Fin S1.rank)
  bcast_S1_S1x1_0 : S1.BroadcastsInDim S1x1 (![0] : Fin 1 → Fin S1x1.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000x1_S800000x1_S800000x1_1_0_0_1_wf : ScatterDims.WF S50000x1 S800000x1 S800000x1 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []
  dot_S50000x64_S64x1_S50000x1_1_0_0_1_n_n_wf : DotDims.WF S50000x64 S64x1 S50000x1 [1] [0] [0] [1] [] []
  gather_S50000x1_S1024x1_S1024x1_1_0_n_n_0_1_11_wf : GatherDims.WF S50000x1 S1024x1 S1024x1 [1] [0] [] [0] [] 1 ![1, 1]
  dot_S1x1024_S1024x512_S1x512_1_0_0_1_n_n_wf : DotDims.WF S1x1024 S1024x512 S1x512 [1] [0] [0] [1] [] []
  dot_S1x512_S512x256_S1x256_1_0_0_1_n_n_wf : DotDims.WF S1x512 S512x256 S1x256 [1] [0] [0] [1] [] []
  dot_S1x256_S256x1_S1x1_1_0_0_1_n_n_wf : DotDims.WF S1x256 S256x1 S1x1 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf
def gather_S50000x1_S1024x1_S1024x1_1_0_n_n_0_1_11 : GatherDims S50000x1 S1024x1 S1024x1 where
  offsetDims := [1]
  collapsedSliceDims := [0]
  operandBatchingDims := []
  startIndicesBatchingDims := []
  startIndexMap := [0]
  indexVectorDim := 1
  sliceSizes := ![1, 1]
  wf := gather_S50000x1_S1024x1_S1024x1_1_0_n_n_0_1_11_wf
def dot_S1x1024_S1024x512_S1x512_1_0_0_1_n_n : DotDims S1x1024 S1024x512 S1x512 where
  lhsContracting := [1]
  rhsContracting := [0]
  lhsNonContracting := [0]
  rhsNonContracting := [1]
  lhsBatch := []
  rhsBatch := []
  wf := dot_S1x1024_S1024x512_S1x512_1_0_0_1_n_n_wf
def dot_S1x512_S512x256_S1x256_1_0_0_1_n_n : DotDims S1x512 S512x256 S1x256 where
  lhsContracting := [1]
  rhsContracting := [0]
  lhsNonContracting := [0]
  rhsNonContracting := [1]
  lhsBatch := []
  rhsBatch := []
  wf := dot_S1x512_S512x256_S1x256_1_0_0_1_n_n_wf
def dot_S1x256_S256x1_S1x1_1_0_0_1_n_n : DotDims S1x256 S256x1 S1x1 where
  lhsContracting := [1]
  rhsContracting := [0]
  lhsNonContracting := [0]
  rhsNonContracting := [1]
  lhsBatch := []
  rhsBatch := []
  wf := dot_S1x256_S256x1_S1x1_1_0_0_1_n_n_wf

class Facts : Prop extends Facts₀ where

variable [Facts]
-- ==== Proof.KernelRun.lean ====
/-
  The idealized kernel program run from launch to return, with its result named.

  The program is eight kernel launches among stretches of host operations.  Its frame proof already folds the
  contents of every buffer through the program, boundary by boundary, down to the contents at the return; the
  same launch, read once more at the result's buffer, says that every fair execution terminates with the result
  at the last fold's value there and the arguments as launched.
-/
import proofs.«115235_j38740605010497_2_alg».proof.Proof.Gen.KernelIdeal.Frame

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, without a fault, with the result buffer holding the
    last fold's contents and every argument array as launched. -/
theorem run : θ_run defs (onTc (τ := τ) (main (F := F))) ⟨m, fun _ => 0, ρ⟩ (fun r => ∀ c : Dev nD,
      r.2.mem ((c.tc : Thread nD τ).loc main_v87) = W18 m ρ c (Proc.devRef .tc main_v87)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v87 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c),
       (h c _ (mem_uc main_arg12 (by decide))).trans (W18_main_arg12 m ρ c),
       (h c _ (mem_uc main_arg13 (by decide))).trans (W18_main_arg13 m ρ c),
       (h c _ (mem_uc main_arg14 (by decide))).trans (W18_main_arg14 m ρ c),
       (h c _ (mem_uc main_arg15 (by decide))).trans (W18_main_arg15 m ρ c),
       (h c _ (mem_uc main_arg16 (by decide))).trans (W18_main_arg16 m ρ c),
       (h c _ (mem_uc main_arg17 (by decide))).trans (W18_main_arg17 m ρ c),
       (h c _ (mem_uc main_arg18 (by decide))).trans (W18_main_arg18 m ρ c),
       (h c _ (mem_uc main_arg19 (by decide))).trans (W18_main_arg19 m ρ c),
       (h c _ (mem_uc main_arg20 (by decide))).trans (W18_main_arg20 m ρ c),
       (h c _ (mem_uc main_arg21 (by decide))).trans (W18_main_arg21 m ρ c)⟩)

end Cert.KernelIdeal.Result

end
-- ==== Proof.LibUnitNorm.lean ====
/-
  Normalising over an axis of length one gives the shift.

  Take any extended real x (a row of length one).  Its mean is x itself, so the centred value x - x is 0 when x
  is finite and the bottom element when x is infinite.  In the first case the centred value times anything is 0.
  In the second the variance is bottom times bottom, the top element; adding a constant that is not the bottom
  element leaves the top element, whose reciprocal square root is 0, and bottom times 0 is 0 again.  Either way
  the normalised value is 0, the scale multiplies 0, and only the shift remains.
-/
import Idealize.ShloMosaic.PureOps.Ideal.Laws

noncomputable section

namespace Cert.UnitNorm

open Idealize.ShloMosaic

/-- The word of 1.0 denotes the real one. -/
theorem ofBits_one : Ideal.ofBits .f32 0x3F800000#32 = 1 := by
  simp [Ideal.ofBits, Ideal.ieee, -EReal.coe_mul]; norm_num

/-- The word of the small positive constant under the square root is not the bottom element. -/
theorem ofBits_eps_ne_bot : Ideal.ofBits .f32 0x3727C5AC#32 ≠ ⊥ := by
  simp [Ideal.ofBits, Ideal.ieee, -EReal.coe_mul]

/-- Dividing by one changes nothing, on every extended real. -/
theorem div_one (x : EReal) : Ideal.div x (Ideal.ofBits .f32 0x3F800000#32) = x := by
  rw [ofBits_one]; unfold Ideal.div; rw [if_neg one_ne_zero, inv_one, mul_one]

/-- A sum over an axis of length one is its one term. -/
theorem sum_fin_one (f : Fin 1 → EReal) : ∑ k : Fin 1, f k = f 0 := Fin.sum_univ_one f

/-- The centred value times the reciprocal root of (its square plus a constant that is not bottom) is zero. -/
theorem centred_zero (x e : EReal) (he : e ≠ ⊥) : (x - x) * Ideal.rsqrt ((x - x) * (x - x) + e) = 0 := by
  induction x using EReal.rec with
  | bot =>
    have h : (⊥ : EReal) - ⊥ = ⊥ := EReal.bot_sub _
    rw [h, EReal.bot_mul_bot, EReal.top_add_of_ne_bot he]
    show (⊥ : EReal) * 0 = 0
    exact mul_zero _
  | coe r =>
    have h : ((r : ℝ) : EReal) - (r : EReal) = 0 := by rw [← EReal.coe_sub, sub_self, EReal.coe_zero]
    rw [h, zero_mul]
  | top =>
    have h : (⊤ : EReal) - ⊤ = ⊥ := EReal.sub_top _
    rw [h, EReal.bot_mul_bot, EReal.top_add_of_ne_bot he]
    show (⊥ : EReal) * 0 = 0
    exact mul_zero _

/-- So the whole normalisation of a row of length one is the shift, whatever the row, the scale and the shift. -/
theorem norm_one (x g b e : EReal) (he : e ≠ ⊥) :
    (x - x) * Ideal.rsqrt ((x - x) * (x - x) + e) * g + b = b := by
  rw [centred_zero x e he, zero_mul, zero_add]

end Cert.UnitNorm

end
-- ==== Proof.LibColumns.lean ====
/-
  Two layout readings used by every stage: a vector recast as a one-column matrix read at `(p, 0)`, and a scalar
  broadcast to any shape read at any index.
-/
import Idealize.ShloMosaic.Lib.ValueIdx
import Idealize.ShloMosaic.Lib.Pipeline.Value

noncomputable section

namespace Cert.Sage.Layout

open Idealize.ShloMosaic Idealize.ShloMosaic.ValueIdx

/-- An `[n]` array cast to `[n, 1]` reads, at `(p, 0)`, the operand at `p`. -/
theorem shapeCast_n_n1_apply {α : Type} {n : ℕ} (x : (⟨1, ![n]⟩ : Shape).Idx → α) (h : (⟨1, ![n]⟩ : Shape).ShapeCasts ⟨2, ![n, 1]⟩)
    (p : Fin n) : shapeCast ⟨2, ![n, 1]⟩ x h (ix2 p (0 : Fin 1)) = x (ix1 p) :=
  shapeCast_apply x h _ _ (by
    rw [Shape.rowMajor_val_one, Shape.rowMajor_val_two]
    show p.val = p.val * 1 + 0
    omega)

/-- A scalar broadcast to a shape reads, at every index, the scalar. -/
theorem broadcastInDim_scalar_apply {α : Type} {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

end Cert.Sage.Layout

end
-- ==== Proof.LibRowCast.lean ====
/-
  A vector recast as a one-row matrix, read at an entry.

  Recasting a vector of `n` entries to the shape `[1, n]` moves no entry: the one row's entry `k` is the
  vector's entry `k` (both sit at row-major position `k`).  Any length, any element type.
-/
import Idealize.ShloMosaic.Lib.ValueIdx
import Idealize.ShloMosaic.Lib.Pipeline.Value

noncomputable section

namespace Cert.Lib.RowCast

open Idealize.ShloMosaic Idealize.ShloMosaic.ValueIdx

/-- An `[n]` array cast to `[1, n]` reads, at `(0, k)`, the operand at `k`. -/
theorem shapeCast_n_1n_apply {α : Type} {n : ℕ} (x : (⟨1, ![n]⟩ : Shape).Idx → α)
    (h : (⟨1, ![n]⟩ : Shape).ShapeCasts ⟨2, ![1, n]⟩) (k : Fin n) :
    shapeCast ⟨2, ![1, n]⟩ x h (ix2 (0 : Fin 1) k) = x (ix1 k) :=
  shapeCast_apply x h _ _ (by
    rw [Shape.rowMajor_val_one, Shape.rowMajor_val_two]
    show k.val = 0 * n + k.val
    omega)

end Cert.Lib.RowCast

end
-- ==== Proof.TimeHead.lean ====
/-
  The body of the seventh launch writes the shift, whatever it read.

  The body computes a value t for every row (two matrix products and a bias), then normalises t over its last
  axis, which has length one, scales by g and shifts by b.  Over an axis of length one the row sum of t is t and
  the mean is t divided by one, again t; so the centred value, the variance and the reciprocal root are those of
  a row of length one, and the normalised, scaled and shifted value is b (the module on normalising over one
  element).  Nothing about t is used: the products are never opened.
-/
import proofs.«115235_j38740605010497_2_alg».proof.Proof.Gen.KernelIdeal.Skeleton
import proofs.«115235_j38740605010497_2_alg».proof.Proof.LibUnitNorm
import proofs.«115235_j38740605010497_2_alg».proof.Proof.LibColumns
import proofs.«115235_j38740605010497_2_alg».proof.Proof.LibRowCast
import Idealize.ShloMosaic.PureOps.Ideal.Laws
import Idealize.ShloMosaic.Lib.ValueIdx
import Idealize.ShloMosaic.Lib.Pipeline.Value

set_option maxRecDepth 16384

noncomputable section

namespace Cert.TimeHead

open Idealize.ShloMosaic Idealize.ShloMosaic.ValueIdx Cert.KernelIdeal Cert.KernelIdeal.Gen

variable [Cert.KernelIdeal.Facts]

/-- The mean over the last axis, of length one: the row sum recast as a column, divided by one. -/
def mean1 (u : FVec Ideal S5000x1 .f32) : FVec Ideal S5000x1 .f32 :=
  divf (shapeCast S5000x1 (multiReduction .add [1] S5000 u 0x00000000#32 reduces_S5000x1_S5000 (.inl rfl) rfl) shapeCasts_S5000_S5000x1)
    (broadcast S5000x1 (Scalar.ofBits .f32 0x3F800000#32))

/-- A one-element vector recast [1, 1] and repeated down the rows. -/
def downRows (v : Vec Ideal S1 .f32) : FVec Ideal S5000x1 .f32 :=
  broadcastTo S5000x1 (shapeCast S1x1 v shapeCasts_S1_S1x1) broadcasts_S1x1_S5000x1

/-- The body from the value t onward: the normalisation over the last axis, the scale and the shift. -/
def tail (t : FVec Ideal S5000x1 .f32) (g b : Vec Ideal S1 .f32) : FVec Ideal S5000x1 .f32 :=
  addf (mulf (mulf (subf t (mean1 t))
      (rsqrt (addf (mean1 (mulf (subf t (mean1 t)) (subf t (mean1 t)))) (broadcast S5000x1 (Scalar.ofBits .f32 0x3727C5AC#32)))))
    (downRows g)) (downRows b)

/-- The body's stored value is that tail of SOME value t. -/
theorem body_is_tail (x0 : Vec Ideal S5000x64 .f32) (x1 : Vec Ideal S64x64 .f32) (x2 : Vec Ideal S64 .f32)
    (x3 : Vec Ideal S64x1 .f32) (x4 x5 x6 : Vec Ideal S1 .f32) :
    ∃ t, k6_pay1 (F := Ideal) (k6_pay2 x0 x1 x2 x3 x4 x5) (k6_pay3 x6) = tail t x5 x6 := ⟨_, rfl⟩

/-- The sum over the last axis, of length one, recast as a column, is the array itself. -/
theorem rowsum_column (u : FVec Ideal S5000x1 .f32) (p : Fin 5000) :
    shapeCast S5000x1 (multiReduction .add [1] S5000 u 0x00000000#32 reduces_S5000x1_S5000 (.inl rfl) rfl)
      shapeCasts_S5000_S5000x1 (ix2 p (0 : Fin 1)) = u (ix2 p (0 : Fin 1)) := by
  refine (Cert.Sage.Layout.shapeCast_n_n1_apply _ shapeCasts_S5000_S5000x1 p).trans ?_
  refine (Ideal.multiReduction_add_single u 0x00000000#32 reduces_S5000x1_S5000 (.inl rfl) rfl (ix1 p)).trans ?_
  refine (Cert.UnitNorm.sum_fin_one _).trans ?_
  exact congrArg u (funext fun a => Fin.ext (by
    match a with
    | ⟨0, _⟩ => rfl
    | ⟨1, _⟩ => rfl))

/-- So the mean over an axis of length one is the array itself. -/
theorem mean1_apply (u : FVec Ideal S5000x1 .f32) (p : Fin 5000) : mean1 u (ix2 p (0 : Fin 1)) = u (ix2 p (0 : Fin 1)) := by
  show Ideal.div (shapeCast S5000x1 (multiReduction .add [1] S5000 u 0x00000000#32 reduces_S5000x1_S5000 (.inl rfl) rfl)
      shapeCasts_S5000_S5000x1 (ix2 p (0 : Fin 1))) (Ideal.ofBits .f32 0x3F800000#32) = _
  rw [rowsum_column, Cert.UnitNorm.div_one]

/-- The repeated one-element vector reads its one element in every row. -/
theorem downRows_apply (v : Vec Ideal S1 .f32) (p : Fin 5000) : downRows v (ix2 p (0 : Fin 1)) = v (ix1 (0 : Fin 1)) := by
  refine (broadcastTo_apply _ broadcasts_S1x1_S5000x1 (ix2 p (0 : Fin 1)) (ix2 (0 : Fin 1) (0 : Fin 1)) (fun a => by
    match a with
    | ⟨0, _⟩ => rfl
    | ⟨1, _⟩ => rfl)).trans ?_
  exact Cert.Lib.RowCast.shapeCast_n_1n_apply v shapeCasts_S1_S1x1 (0 : Fin 1)

/-- The tail at any entry is the shift's one element. -/
theorem tail_apply (t : FVec Ideal S5000x1 .f32) (g b : Vec Ideal S1 .f32) (j : S5000x1.Idx) :
    tail t g b j = b (ix1 (0 : Fin 1)) := by
  obtain ⟨p, q, rfl⟩ : ∃ (p : Fin 5000) (q : Fin 1), j = ix2 p q := ⟨j 0, j 1, eq_ix2 j⟩
  obtain rfl : q = 0 := Subsingleton.elim _ _
  show (t (ix2 p 0) - mean1 t (ix2 p 0))
      * Ideal.rsqrt (mean1 (mulf (subf t (mean1 t)) (subf t (mean1 t))) (ix2 p 0) + Ideal.ofBits .f32 0x3727C5AC#32)
      * downRows g (ix2 p 0) + downRows b (ix2 p 0) = b (ix1 0)
  rw [mean1_apply (mulf (subf t (mean1 t)) (subf t (mean1 t))) p, mean1_apply t p, downRows_apply, downRows_apply]
  show (t (ix2 p 0) - t (ix2 p 0))
      * Ideal.rsqrt ((t (ix2 p 0) - mean1 t (ix2 p 0)) * (t (ix2 p 0) - mean1 t (ix2 p 0)) + Ideal.ofBits .f32 0x3727C5AC#32)
      * g (ix1 0) + b (ix1 0) = b (ix1 0)
  rw [mean1_apply t p]
  exact Cert.UnitNorm.norm_one _ _ _ _ Cert.UnitNorm.ofBits_eps_ne_bot

/-- So the body's stored value is the shift's one element at every entry, whatever the body read. -/
theorem body_apply (x0 : Vec Ideal S5000x64 .f32) (x1 : Vec Ideal S64x64 .f32) (x2 : Vec Ideal S64 .f32)
    (x3 : Vec Ideal S64x1 .f32) (x4 x5 x6 : Vec Ideal S1 .f32) (j : S5000x1.Idx) :
    k6_pay1 (F := Ideal) (k6_pay2 x0 x1 x2 x3 x4 x5) (k6_pay3 x6) j = x6 (ix1 (0 : Fin 1)) := by
  obtain ⟨t, ht⟩ := body_is_tail x0 x1 x2 x3 x4 x5 x6
  rw [ht, tail_apply]

end Cert.TimeHead

end
-- ==== Proof.KernelRegions.lean ====
/-
  What the last two launches leave in their output arrays, as functions of the arrays they find.

  The seventh launch walks ten blocks of 5000 rows; at each point its body stores the shift's one element in every
  entry of the block (the module on that body), so its output array ends holding that element in every row: the
  ten blocks cover the 50000 rows, the point of row r being r / 5000.

  The eighth launch has one point, and every window's block is its whole array; so its output array ends holding
  the body's function of the whole input arrays.
-/
import proofs.«115235_j38740605010497_2_alg».proof.Proof.Gen.KernelIdeal.Frame
import proofs.«115235_j38740605010497_2_alg».proof.Proof.TimeHead
import Idealize.ShloMosaic.Lib.Pipeline.Value
import Idealize.ShloMosaic.Lib.ValueIdx

set_option maxRecDepth 16384

noncomputable section

namespace Cert.KernelRegions

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable (V : (c : Dev nD) → (b : Ref sig .tc) → Buf (Elt Ideal) ((c : Thread nD τ).loc b))

theorem hz1 : (![0] : Fin 1 → Nat) = fun _ => 0 := funext fun a => by fin_cases a; rfl
theorem hz2 : (![0, 0] : Fin 2 → Nat) = fun _ => 0 := funext fun a => by fin_cases a <;> rfl

/-! ## The seventh launch -/

/-- The array that holds one element of a one-element vector in every row. -/
abbrev everyRow (b : S1.Idx → Elt Ideal .f32) : S50000x1.Idx → Elt Ideal .f32 := fun _ => b (ix1 (0 : Fin 1))

/-- The shift's window never moves, and the output's block index is the point on the rows and zero on the column. -/
theorem idx6 : ∀ t : Fin cfg6.N, win6_6.index t (0 : Fin 1) = 0 :=
  (by decide +kernel : ∀ t : Fin grid6.N, _)

theorem idx_onto6 : ∀ q0 : Fin 10, ∃ t : Fin cfg6.N, win6_7.index t = ![q0.val, 0] :=
  (by decide +kernel : ∀ q0 : Fin 10, ∃ t : Fin grid6.N, win6_7.index t = ![q0.val, 0])

/-- What point t writes back is block t of the array holding the shift's element in every row. -/
theorem flushed6 (c : Dev nD) (t : Fin cfg6.N) :
    (dat6 V c).flushed 7 t = ((cfg6.win 7).blk t).view.read (Elt Ideal) (everyRow (V c main_arg15)) := by
  show (cfg6.win 7).cut (grid6.coords t) ((dat6 V c).after 7 t) = _
  rw [after6_7]
  unfold out6_7
  rw [View.canon_unit_zero hz2]
  funext j
  show k6_pay1 (F := Ideal) (k6_pay2 _ _ _ _ _ _) (k6_pay3 (View.ld (iblk6 V c 6 t) r6_4)) j = V c main_arg15 (ix1 (0 : Fin 1))
  refine (Cert.TimeHead.body_apply _ _ _ _ _ _ _ _).trans ?_
  rw [View.ld_unit_zero (S := S1) hz1]
  show V c main_arg15 (((cfg6.win 6).blk t).view.emb (ix1 (0 : Fin 1))) = V c main_arg15 (ix1 (0 : Fin 1))
  refine congrArg (V c main_arg15) (funext fun a => Fin.ext ?_)
  match a with
  | ⟨0, _⟩ =>
    show win6_6.index t (0 : Fin 1) * 1 + 1 * 0 = 0
    rw [idx6 t]

theorem mem_blk6 (t : Fin cfg6.N) (i : S50000x1.Idx) :
    i ∈ ((cfg6.win 7).blk t).view.set ↔ ∀ a : Fin 2, win6_7.index t a * S5000x1.size a ≤ (i a).val ∧ (i a).val < win6_7.index t a * S5000x1.size a + S5000x1.size a := by
  show i ∈ ((View.whole main_v74).slice (win6_7.rect t)).set ↔ _
  rw [View.set_slice_whole, Rect.mem_set_unit]
  exact Iff.rfl

/-- Every row is in some point's block. -/
theorem cover6 (i : S50000x1.Idx) : ∃ t : Fin cfg6.N, (cfg6.win 7).flush t = true ∧ i ∈ ((cfg6.win 7).blk t).view.set := by
  have hi0 : (i 0).val < 50000 := (i 0).isLt
  have hi1 : (i 1).val < 1 := (i 1).isLt
  obtain ⟨t, ht⟩ := idx_onto6 ⟨(i 0).val / 5000, by omega⟩
  have q0 : win6_7.index t (0 : Fin 2) = (i 0).val / 5000 := congrFun ht 0
  have q1 : win6_7.index t (1 : Fin 2) = 0 := congrFun ht 1
  refine ⟨t, flush6_7 t, ?_⟩
  rw [mem_blk6]
  intro a
  match a with
  | ⟨0, _⟩ => show win6_7.index t (0 : Fin 2) * 5000 ≤ (i 0).val ∧ (i 0).val < win6_7.index t (0 : Fin 2) * 5000 + 5000; omega
  | ⟨1, _⟩ => show win6_7.index t (1 : Fin 2) * 1 ≤ (i 1).val ∧ (i 1).val < win6_7.index t (1 : Fin 2) * 1 + 1; omega

/-- The seventh launch's output array ends holding the shift's element in every row. -/
theorem final6 (c : Dev nD) : (dat6 V c).arrAt 7 cfg6.N = everyRow (V c main_arg15) :=
  (dat6 V c).arrAt_eq_of_cover 7 _ (fun t _ => flushed6 V c t) cover6

/-! ## The eighth launch -/

/-- The body's function of seven whole arrays. -/
abbrev headOf (a0 : S1x1024.Idx → Elt Ideal .f32) (a1 : S1024x512.Idx → Elt Ideal .f32) (a2 : S512.Idx → Elt Ideal .f32)
    (a3 : S512x256.Idx → Elt Ideal .f32) (a4 : S256.Idx → Elt Ideal .f32) (a5 : S256x1.Idx → Elt Ideal .f32)
    (a6 : S1.Idx → Elt Ideal .f32) : S1x1.Idx → Elt Ideal .f32 :=
  k7_pay1 (F := Ideal) a0 a1 a2 a3 a4 a5 a6

/-- Every window of the one point sits at block zero on every axis: each block is its whole array. -/
theorem idx7 : ∀ t : Fin cfg7.N,
    win7_0.index t (0 : Fin 2) = 0
    ∧ win7_0.index t (1 : Fin 2) = 0
    ∧ win7_1.index t (0 : Fin 2) = 0
    ∧ win7_1.index t (1 : Fin 2) = 0
    ∧ win7_2.index t (0 : Fin 1) = 0
    ∧ win7_3.index t (0 : Fin 2) = 0
    ∧ win7_3.index t (1 : Fin 2) = 0
    ∧ win7_4.index t (0 : Fin 1) = 0
    ∧ win7_5.index t (0 : Fin 2) = 0
    ∧ win7_5.index t (1 : Fin 2) = 0
    ∧ win7_6.index t (0 : Fin 1) = 0
    ∧ win7_7.index t (0 : Fin 2) = 0
    ∧ win7_7.index t (1 : Fin 2) = 0 :=
  (by decide +kernel : ∀ t : Fin grid7.N, _)

/-- What the one point writes back is the body's function of the whole arrays, read through the whole block. -/
theorem flushed7 (c : Dev nD) (t : Fin cfg7.N) :
    (dat7 V c).flushed 7 t = ((cfg7.win 7).blk t).view.read (Elt Ideal)
      (headOf (V c main_v76) (V c main_arg16) (V c main_arg17) (V c main_arg18) (V c main_arg19) (V c main_arg20) (V c main_arg21)) := by
  show (cfg7.win 7).cut (grid7.coords t) ((dat7 V c).after 7 t) = _
  rw [after7_7]
  unfold out7_7
  rw [View.canon_unit_zero hz2]
  simp only [View.ld_unit_zero (S := S1x1024) hz2, View.ld_unit_zero (S := S1024x512) hz2, View.ld_unit_zero (S := S512) hz1,
    View.ld_unit_zero (S := S512x256) hz2, View.ld_unit_zero (S := S256) hz1, View.ld_unit_zero (S := S256x1) hz2,
    View.ld_unit_zero (S := S1) hz1]
  obtain ⟨e00, e01, e10, e11, e20, e30, e31, e40, e50, e51, e60, e70, e71⟩ := idx7 t
  have h0 : iblk7 V c 0 t = (V c main_v76 : S1x1024.Idx → Elt Ideal .f32) := funext fun j => by
    show V c main_v76 (((cfg7.win 0).blk t).view.emb j) = V c main_v76 j
    refine congrArg (V c main_v76) (funext fun a => Fin.ext ?_)
    match a with
    | ⟨0, _⟩ => show win7_0.index t (0 : Fin 2) * 1 + 1 * (j 0).val = (j 0).val; omega
    | ⟨1, _⟩ => show win7_0.index t (1 : Fin 2) * 1024 + 1 * (j 1).val = (j 1).val; omega
  have h1 : iblk7 V c 1 t = (V c main_arg16 : S1024x512.Idx → Elt Ideal .f32) := funext fun j => by
    show V c main_arg16 (((cfg7.win 1).blk t).view.emb j) = V c main_arg16 j
    refine congrArg (V c main_arg16) (funext fun a => Fin.ext ?_)
    match a with
    | ⟨0, _⟩ => show win7_1.index t (0 : Fin 2) * 1024 + 1 * (j 0).val = (j 0).val; omega
    | ⟨1, _⟩ => show win7_1.index t (1 : Fin 2) * 512 + 1 * (j 1).val = (j 1).val; omega
  have h2 : iblk7 V c 2 t = (V c main_arg17 : S512.Idx → Elt Ideal .f32) := funext fun j => by
    show V c main_arg17 (((cfg7.win 2).blk t).view.emb j) = V c main_arg17 j
    refine congrArg (V c main_arg17) (funext fun a => Fin.ext ?_)
    match a with
    | ⟨0, _⟩ => show win7_2.index t (0 : Fin 1) * 512 + 1 * (j 0).val = (j 0).val; omega
  have h3 : iblk7 V c 3 t = (V c main_arg18 : S512x256.Idx → Elt Ideal .f32) := funext fun j => by
    show V c main_arg18 (((cfg7.win 3).blk t).view.emb j) = V c main_arg18 j
    refine congrArg (V c main_arg18) (funext fun a => Fin.ext ?_)
    match a with
    | ⟨0, _⟩ => show win7_3.index t (0 : Fin 2) * 512 + 1 * (j 0).val = (j 0).val; omega
    | ⟨1, _⟩ => show win7_3.index t (1 : Fin 2) * 256 + 1 * (j 1).val = (j 1).val; omega
  have h4 : iblk7 V c 4 t = (V c main_arg19 : S256.Idx → Elt Ideal .f32) := funext fun j => by
    show V c main_arg19 (((cfg7.win 4).blk t).view.emb j) = V c main_arg19 j
    refine congrArg (V c main_arg19) (funext fun a => Fin.ext ?_)
    match a with
    | ⟨0, _⟩ => show win7_4.index t (0 : Fin 1) * 256 + 1 * (j 0).val = (j 0).val; omega
  have h5 : iblk7 V c 5 t = (V c main_arg20 : S256x1.Idx → Elt Ideal .f32) := funext fun j => by
    show V c main_arg20 (((cfg7.win 5).blk t).view.emb j) = V c main_arg20 j
    refine congrArg (V c main_arg20) (funext fun a => Fin.ext ?_)
    match a with
    | ⟨0, _⟩ => show win7_5.index t (0 : Fin 2) * 256 + 1 * (j 0).val = (j 0).val; omega
    | ⟨1, _⟩ => show win7_5.index t (1 : Fin 2) * 1 + 1 * (j 1).val = (j 1).val; omega
  have h6 : iblk7 V c 6 t = (V c main_arg21 : S1.Idx → Elt Ideal .f32) := funext fun j => by
    show V c main_arg21 (((cfg7.win 6).blk t).view.emb j) = V c main_arg21 j
    refine congrArg (V c main_arg21) (funext fun a => Fin.ext ?_)
    match a with
    | ⟨0, _⟩ => show win7_6.index t (0 : Fin 1) * 1 + 1 * (j 0).val = (j 0).val; omega
  rw [h0, h1, h2, h3, h4, h5, h6]
  funext j
  show headOf (V c main_v76) (V c main_arg16) (V c main_arg17) (V c main_arg18) (V c main_arg19) (V c main_arg20) (V c main_arg21) j
    = headOf (V c main_v76) (V c main_arg16) (V c main_arg17) (V c main_arg18) (V c main_arg19) (V c main_arg20) (V c main_arg21)
        (((cfg7.win 7).blk t).view.emb j)
  refine congrArg _ (funext fun a => Fin.ext ?_)
  match a with
  | ⟨0, _⟩ => show (j 0).val = win7_7.index t (0 : Fin 2) * 1 + 1 * (j 0).val; omega
  | ⟨1, _⟩ => show (j 1).val = win7_7.index t (1 : Fin 2) * 1 + 1 * (j 1).val; omega

theorem mem_blk7 (t : Fin cfg7.N) (i : S1x1.Idx) :
    i ∈ ((cfg7.win 7).blk t).view.set ↔ ∀ a : Fin 2, win7_7.index t a * S1x1.size a ≤ (i a).val ∧ (i a).val < win7_7.index t a * S1x1.size a + S1x1.size a := by
  show i ∈ ((View.whole main_v78).slice (win7_7.rect t)).set ↔ _
  rw [View.set_slice_whole, Rect.mem_set_unit]
  exact Iff.rfl

/-- The one block covers the one-by-one array. -/
theorem cover7 (i : S1x1.Idx) : ∃ t : Fin cfg7.N, (cfg7.win 7).flush t = true ∧ i ∈ ((cfg7.win 7).blk t).view.set := by
  have hi0 : (i 0).val < 1 := (i 0).isLt
  have hi1 : (i 1).val < 1 := (i 1).isLt
  refine ⟨⟨0, by decide⟩, flush7_7 _, ?_⟩
  obtain ⟨e00, e01, e10, e11, e20, e30, e31, e40, e50, e51, e60, e70, e71⟩ := idx7 ⟨0, by decide⟩
  rw [mem_blk7]
  intro a
  match a with
  | ⟨0, _⟩ => show win7_7.index ⟨0, by decide⟩ (0 : Fin 2) * 1 ≤ (i 0).val ∧ (i 0).val < win7_7.index ⟨0, by decide⟩ (0 : Fin 2) * 1 + 1; omega
  | ⟨1, _⟩ => show win7_7.index ⟨0, by decide⟩ (1 : Fin 2) * 1 ≤ (i 1).val ∧ (i 1).val < win7_7.index ⟨0, by decide⟩ (1 : Fin 2) * 1 + 1; omega

/-- The eighth launch's output array ends holding the body's function of the whole arrays it found. -/
theorem final7 (c : Dev nD) : (dat7 V c).arrAt 7 cfg7.N
    = headOf (V c main_v76) (V c main_arg16) (V c main_arg17) (V c main_arg18) (V c main_arg19) (V c main_arg20) (V c main_arg21) :=
  (dat7 V c).arrAt_eq_of_cover 7 _ (fun t _ => flushed7 V c t) cover7

end Cert.KernelRegions

end
-- ==== Proof.IndexRange.lean ====
/-
  Signed comparisons of 32-bit words against 0 and 50000.

  A word that is at least 0 and below 50000 as a signed integer is not negative, so the rule that adds 50000 to a
  negative index leaves it alone; and it is at least 0 and at most 49999, so the test that an index lies inside an
  array of 50000 rows answers one.
-/
import Idealize.ShloMosaic.PureOps.Float
import Idealize.ShloMosaic.PureOps.Contract

namespace Cert.IndexRange

open Idealize.ShloMosaic

theorem ofBool_eq_one (b : Bool) : BitVec.ofBool b = 1#1 ↔ b = true := by cases b <;> decide
theorem ofBool_eq_zero (b : Bool) : BitVec.ofBool b = 0#1 ↔ b = false := by cases b <;> decide
theorem and1 : ∀ (a b : BitVec 1), IntOp.andi a b = 1#1 ↔ a = 1#1 ∧ b = 1#1 := by decide

theorem toInt_zero : (0#32 : BitVec 32).toInt = 0 := by decide
theorem toInt_50000 : (50000#32 : BitVec 32).toInt = 50000 := by decide
theorem toInt_49999 : (49999#32 : BitVec 32).toInt = 49999 := by decide

/-- "At least zero", signed. -/
theorem sge_zero (w : BitVec 32) : IntOp.cmpi .sge w 0#32 = 1#1 ↔ 0 ≤ w.toInt := by
  show BitVec.ofBool ((0#32 : BitVec 32).sle w) = 1#1 ↔ _
  rw [ofBool_eq_one, BitVec.sle, decide_eq_true_eq, toInt_zero]

/-- "Below 50000", signed. -/
theorem slt_50000 (w : BitVec 32) : IntOp.cmpi .slt w 50000#32 = 1#1 ↔ w.toInt < 50000 := by
  show BitVec.ofBool (w.slt (50000#32 : BitVec 32)) = 1#1 ↔ _
  rw [ofBool_eq_one, BitVec.slt, decide_eq_true_eq, toInt_50000]

/-- A word that is at least zero is not negative: the wrap of negative indices leaves it alone. -/
theorem wrap_id (w : BitVec 32) (h0 : 0 ≤ w.toInt) :
    Scalar.select (IntOp.cmpi .slt w 0#32) (IntOp.addi w 50000#32) w = w := by
  have e : IntOp.cmpi .slt w 0#32 = 0#1 := by
    show BitVec.ofBool (w.slt (0#32 : BitVec 32)) = 0#1
    rw [ofBool_eq_zero, BitVec.slt, decide_eq_false_iff_not, toInt_zero]
    omega
  rw [e]
  exact if_neg (by decide)

/-- A word in [0, 50000) passes the test "at least 0 and at most 49999". -/
theorem inside (w : BitVec 32) (h0 : 0 ≤ w.toInt) (h1 : w.toInt < 50000) :
    IntOp.andi (IntOp.cmpi .sge w 0#32) (IntOp.cmpi .sle w 49999#32) = 1#1 := by
  rw [and1]
  refine ⟨(sge_zero w).mpr h0, ?_⟩
  show BitVec.ofBool (w.sle (49999#32 : BitVec 32)) = 1#1
  rw [ofBool_eq_one, BitVec.sle, decide_eq_true_eq, toInt_49999]
  omega

/-- A fold of "and" from one over entries that are all one is one. -/
theorem foldl_andi_ones {ι : Type} (l : List ι) (g : ι → BitVec 1) (hg : ∀ n, g n = 1#1) :
    l.foldl (fun r n => IntOp.andi r (g n)) 1#1 = 1#1 := by
  induction l with
  | nil => rfl
  | cons a l ih =>
    rw [List.foldl_cons, hg a, show IntOp.andi (1#1 : BitVec 1) 1#1 = 1#1 from by decide]
    exact ih

/-- So a host reduction by "and" from one of an array that is one everywhere is one at every index. -/
theorem reduce_andi_ones {s t u : Shape} {axes : List (Fin s.rank)} (x : s.Idx → BitVec 1) (init : u.Idx → BitVec 1)
    (h : s.ReducesTo axes t) (hu : 0 < u.numel) (j : t.Idx) (hx : ∀ i, x i = 1#1)
    (hi : init (Shape.Idx.first hu) = 1#1) : Host.reduce IntOp.andi x init h hu j = 1#1 := by
  unfold Host.reduce
  rw [hi]
  exact foldl_andi_ones _ (fun n => x (s.rowMajor.symm n)) (fun n => hx _)

end Cert.IndexRange
-- ==== Proof.HeadMlp.lean ====
/-
  The last three layers: the kernel's body and the reference compute one function.

  Each layer is a matrix product into a zero accumulator, plus a bias row, clipped below at zero (the last layer is
  not clipped).  On the extended reals a matrix product into the zero accumulator and the host's product of the same
  operands are the same sum over the contracted axis, and a change of float format is the identity, so layer by
  layer the two programs agree entry by entry: the product, then the bias read at the entry's column, then the
  maximum with zero.
-/
import proofs.«115235_j38740605010497_2_alg».proof.Proof.Gen.KernelIdeal.Skeleton
import proofs.«115235_j38740605010497_2_alg».proof.ReferenceIdeal
import proofs.«115235_j38740605010497_2_alg».proof.Proof.Gen.ReferenceIdeal
import proofs.«115235_j38740605010497_2_alg».proof.Proof.LibRowCast
import Idealize.ShloMosaic.PureOps.Ideal.Laws
import Idealize.ShloMosaic.Lib.ValueIdx
import Idealize.ShloMosaic.Lib.Pipeline.Value

set_option maxRecDepth 16384

noncomputable section

namespace Cert.HeadMlp

open Idealize.ShloMosaic Idealize.ShloMosaic.ValueIdx

/-- One layer before the clip: a one-row matrix product into the zero accumulator (operands narrowed, which
    changes nothing) plus the bias recast as a row is the host's product plus the bias broadcast along the
    columns.  At entry (0, c) both are the sum over the contracted axis plus the bias at c. -/
theorem layer_eq {K N : Nat} (d : DotDims ⟨2, ![1, K]⟩ ⟨2, ![K, N]⟩ ⟨2, ![1, N]⟩)
    (x : FVec Ideal ⟨2, ![1, K]⟩ .f32) (w : FVec Ideal ⟨2, ![K, N]⟩ .f32) (b : FVec Ideal ⟨1, ![N]⟩ .f32)
    (h : FTy.bf16.bits < FTy.f32.bits)
    (hc : (⟨1, ![N]⟩ : Shape).ShapeCasts ⟨2, ![1, N]⟩)
    (hb : (⟨1, ![N]⟩ : Shape).BroadcastsInDim ⟨2, ![1, N]⟩ (![1] : Fin 1 → Fin 2)) :
    addf (matmul d none (truncf .bf16 x h) (truncf .bf16 w h) (constant (F := Ideal) ⟨2, ![1, N]⟩ .f32 0x00000000#32))
        (shapeCast ⟨2, ![1, N]⟩ b hc)
      = addf (Host.dotGeneral d none x w) (broadcastInDim ⟨2, ![1, N]⟩ (![1] : Fin 1 → Fin 2) hb b) := by
  funext j
  obtain ⟨p, c, rfl⟩ : ∃ (p : Fin 1) (c : Fin N), j = ix2 p c := ⟨j 0, j 1, eq_ix2 j⟩
  obtain rfl : p = 0 := Subsingleton.elim _ _
  have e1 := Ideal.matmul_constant_zero_apply d none (truncf .bf16 x h) (truncf .bf16 w h) (ix2 (0 : Fin 1) c)
  have e2 : Host.dotGeneral d none x w (ix2 (0 : Fin 1) c)
      = ∑ k : d.contr.Idx, x (d.lhsIdx (ix2 (0 : Fin 1) c) k) * w (d.rhsIdx (ix2 (0 : Fin 1) c) k) := by
    simp only [Host.dotGeneral]
    exact Ideal.dotGeneral_apply d none _ x w _
  have e3 := Cert.Lib.RowCast.shapeCast_n_1n_apply b hc c
  have e4 := broadcastInDim_apply (![1] : Fin 1 → Fin 2) hb b (ix2 (0 : Fin 1) c) (ix1 c) (fun a => by
    obtain rfl : a = 0 := Subsingleton.elim _ _
    show c.val = if N = 1 then 0 else c.val
    have := c.isLt
    split <;> omega)
  show _ + _ = _ + _
  rw [e3, e4, e2]
  exact congrArg (· + b (ix1 c)) e1

section Head

/-- The reference's last three layers as one function of the row they start from and the six parameters. -/
def headRef (z : FVec Ideal Cert.ReferenceIdeal.S1x1024 .f32) (w1 : FVec Ideal Cert.ReferenceIdeal.S1024x512 .f32)
    (b1 : FVec Ideal Cert.ReferenceIdeal.S512 .f32) (w2 : FVec Ideal Cert.ReferenceIdeal.S512x256 .f32)
    (b2 : FVec Ideal Cert.ReferenceIdeal.S256 .f32) (w3 : FVec Ideal Cert.ReferenceIdeal.S256x1 .f32)
    (b3 : FVec Ideal Cert.ReferenceIdeal.S1 .f32) : FVec Ideal Cert.ReferenceIdeal.S1x1 .f32 :=
  open Cert.ReferenceIdeal Cert.ReferenceIdeal.Gen in
  addf (Host.dotGeneral dot_S1x256_S256x1_S1x1_1_0_0_1_n_n none
      (maximumf (addf (Host.dotGeneral dot_S1x512_S512x256_S1x256_1_0_0_1_n_n none
          (maximumf (addf (Host.dotGeneral dot_S1x1024_S1024x512_S1x512_1_0_0_1_n_n none z w1)
              (broadcastInDim S1x512 ![1] bcast_S512_S1x512_1 b1))
            (broadcastInDim S1x512 ![] bcast_S_S1x512 (constant (F := Ideal) S_ .f32 0x00000000#32))) w2)
          (broadcastInDim S1x256 ![1] bcast_S256_S1x256_1 b2))
        (broadcastInDim S1x256 ![] bcast_S_S1x256 (constant (F := Ideal) S_ .f32 0x00000000#32))) w3)
    (broadcastInDim S1x1 ![1] bcast_S1_S1x1_1 b3)

/-- The kernel's body computes that function of the same operands. -/
theorem head_eq (z : Vec Ideal Cert.KernelIdeal.S1x1024 .f32) (w1 : Vec Ideal Cert.KernelIdeal.S1024x512 .f32)
    (b1 : Vec Ideal Cert.KernelIdeal.S512 .f32) (w2 : Vec Ideal Cert.KernelIdeal.S512x256 .f32)
    (b2 : Vec Ideal Cert.KernelIdeal.S256 .f32) (w3 : Vec Ideal Cert.KernelIdeal.S256x1 .f32)
    (b3 : Vec Ideal Cert.KernelIdeal.S1 .f32) :
    Cert.KernelIdeal.Gen.k7_pay1 (F := Ideal) z w1 b1 w2 b2 w3 b3 = headRef z w1 b1 w2 b2 w3 b3 := by
  unfold Cert.KernelIdeal.Gen.k7_pay1 headRef
  dsimp only
  rw [shapeCast_self]
  rw [layer_eq Cert.KernelIdeal.dot_S1x1024_S1024x512_S1x512_1_0_0_1_n_n z w1 b1 Cert.KernelIdeal.Gen.bitsLt_bf16_f32
      Cert.KernelIdeal.Gen.shapeCasts_S512_S1x512 Cert.ReferenceIdeal.Gen.bcast_S512_S1x512_1]
  rw [layer_eq Cert.KernelIdeal.dot_S1x512_S512x256_S1x256_1_0_0_1_n_n _ w2 b2 Cert.KernelIdeal.Gen.bitsLt_bf16_f32
      Cert.KernelIdeal.Gen.shapeCasts_S256_S1x256 Cert.ReferenceIdeal.Gen.bcast_S256_S1x256_1]
  rw [layer_eq Cert.KernelIdeal.dot_S1x256_S256x1_S1x1_1_0_0_1_n_n _ w3 b3 Cert.KernelIdeal.Gen.bitsLt_bf16_f32
      Cert.KernelIdeal.Gen.shapeCasts_S1_S1x1 Cert.ReferenceIdeal.Gen.bcast_S1_S1x1_1]
  rfl

/-- The closing operations of both programs: the exponential of the entry less the row's maximum, over the
    row's sum of those exponentials, of a one-by-one array. -/
def softmaxTail (l : FVec Ideal Cert.KernelIdeal.S1x1 .f32) : FVec Ideal Cert.KernelIdeal.S1x1 .f32 :=
  open Cert.KernelIdeal Cert.KernelIdeal.Gen in
  have m0 : FVec Ideal S1 .f32 := Host.reduce FloatOps.maximumf l (constant (F := Ideal) S_ .f32 0xFF800000#32) reducesTo_S1x1_S1_d1 h_S_
  have m1 : FVec Ideal S1 .f32 := maximumf (broadcastInDim S1 ![] bcast_S_S1 (constant (F := Ideal) S_ .f32 0xFF800000#32)) m0
  have e : FVec Ideal S1x1 .f32 := Host.exp (subf l (broadcastInDim S1x1 ![0] bcast_S1_S1x1_0 m1))
  Host.divf e (broadcastInDim S1x1 ![0] bcast_S1_S1x1_0
    (Host.reduceAdd e (constant (F := Ideal) S_ .f32 0x00000000#32) reducesTo_S1x1_S1_d1 h_S_))

end Head

end Cert.HeadMlp

end
-- ==== Proof.KernelFold.lean ====
/-
  The idealized kernel program's result, read back through the last folds.

  The result is the closing operations applied to the eighth launch's output array.  That array is the body's three
  layers of the arrays the launch finds: the six parameters, still as launched (nothing before writes them), and a
  row made by the host operations before it from the seventh launch's output and the index argument.  The seventh
  launch's output holds the shift's one element in every row; the row gathered from it holds that element
  wherever the index passes the test "at least 0 and at most 49999" (a filler otherwise), so under the precondition
  that every index is at least 0 and below 50000 the row holds the element in all its 1024 places.
-/
import proofs.«115235_j38740605010497_2_alg».proof.Proof.Gen.KernelIdeal.Frame
import proofs.«115235_j38740605010497_2_alg».proof.Proof.KernelRegions
import proofs.«115235_j38740605010497_2_alg».proof.Proof.IndexRange
import proofs.«115235_j38740605010497_2_alg».proof.Proof.HeadMlp
import Idealize.ShloMosaic.Lib.StableHlo.Run
import Idealize.ShloMosaic.Lib.Pipeline.Value
import Idealize.ShloMosaic.Lib.ValueIdx

set_option maxRecDepth 16384

noncomputable section

namespace Cert.KernelFold

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen
open Cert.KernelRegions

/-- The contents of a buffer of a shape and a format, at the extended reals. -/
abbrev C (S : Shape) (e : EltTy) := (⟨S, e⟩ : BufTy).Contents (Elt Ideal)

/-! ## The row the host makes for the eighth launch -/

/-- The indices, a negative one moved up by 50000, as a column. -/
def wrapCol (idx : C S1024 .i32) : C S1024x1 .i32 :=
  broadcastInDim S1024x1 ![0] bcast_S1024_S1024x1_0
    (select (cmpi .slt idx (broadcastInDim S1024 ![] bcast_S_S1024 (constantI S_ 32 0#32)))
      (addi idx (broadcastInDim S1024 ![] bcast_S_S1024 (constantI S_ 32 50000#32))) idx)

/-- The test "at least 0 and at most 49999" of each moved index. -/
def insideCol (idx : C S1024 .i32) : C S1024x1 .i1 :=
  andi (cmpi .sge (wrapCol idx) (broadcastInDim S1024x1 ![] bcast_S_S1024x1 (constantI S_ 32 0#32)))
    (cmpi .sle (wrapCol idx) (broadcastInDim S1024x1 ![0, 1] bcast_S1x1_S1024x1_0_1
      (broadcastInDim S1x1 ![1] bcast_S1_S1x1_1 (constantI S1 32 49999#32))))

/-- The row: the one-column array gathered at the moved indices where the test passes, a filler elsewhere,
    transposed. -/
def rowOf (tl : C S50000x1 .f32) (idx : C S1024 .i32) : C S1x1024 .f32 :=
  transpose S1x1024 [1, 0]
    (select (broadcastInDim S1024x1 ![0] bcast_S1024_S1024x1_0
        (Host.reduce IntOp.andi (insideCol idx) (constantI S_ 1 1#1) reducesTo_S1024x1_S1024_d1 h_S_))
      (Host.gather gather_S50000x1_S1024x1_S1024x1_1_0_n_n_0_1_11 tl (wrapCol idx))
      (broadcastInDim S1024x1 ![] bcast_S_S1024x1 (constant (F := Ideal) S_ .f32 0x7FC00000#32)))
    transposes_S1024x1_S1x1024_1_0

/-- An index that is not negative is not moved. -/
theorem wrapCol_apply (idx : C S1024 .i32) (i : S1024x1.Idx)
    (h0 : 0 ≤ (idx (ix1 (⟨(i 0).val, (i 0).isLt⟩ : Fin 1024))).toInt) :
    wrapCol idx i = idx (ix1 (⟨(i 0).val, (i 0).isLt⟩ : Fin 1024)) := by
  refine (broadcastInDim_apply _ bcast_S1024_S1024x1_0 _ i (ix1 (⟨(i 0).val, (i 0).isLt⟩ : Fin 1024)) (fun a => by
    obtain rfl : a = 0 := Subsingleton.elim _ _
    show (i 0).val = if (1024 : Nat) = 1 then 0 else (i 0).val
    rw [if_neg (by decide)])).trans ?_
  exact Cert.IndexRange.wrap_id _ h0

/-- Every index in [0, 50000) passes the test. -/
theorem insideCol_apply (idx : C S1024 .i32) (hin : ∀ k : S1024.Idx, 0 ≤ (idx k).toInt ∧ (idx k).toInt < 50000)
    (i : S1024x1.Idx) : insideCol idx i = 1#1 := by
  obtain ⟨h0, h1⟩ := hin (ix1 (⟨(i 0).val, (i 0).isLt⟩ : Fin 1024))
  show IntOp.andi (IntOp.cmpi .sge (wrapCol idx i) 0#32) (IntOp.cmpi .sle (wrapCol idx i) 49999#32) = 1#1
  rw [wrapCol_apply idx i h0]
  exact Cert.IndexRange.inside _ h0 h1

/-- So, from the array that holds one element in every row, the row holds that element in every place. -/
theorem rowOf_inside (b : C S1 .f32) (idx : C S1024 .i32)
    (hin : ∀ k : S1024.Idx, 0 ≤ (idx k).toInt ∧ (idx k).toInt < 50000) :
    rowOf (everyRow b) idx = fun _ => b (ix1 (0 : Fin 1)) := by
  funext j
  refine (transpose_apply [1, 0] _ transposes_S1024x1_S1x1024_1_0 j (ix2 (⟨(j 1).val, (j 1).isLt⟩ : Fin 1024) (0 : Fin 1)) (fun a => by
    match a with
    | ⟨0, _⟩ => show (0 : Nat) = (j 0).val; have hj0 : (j 0).val < 1 := (j 0).isLt; omega
    | ⟨1, _⟩ => rfl)).trans ?_
  have hmask : broadcastInDim S1024x1 ![0] bcast_S1024_S1024x1_0
      (Host.reduce IntOp.andi (insideCol idx) (constantI S_ 1 1#1) reducesTo_S1024x1_S1024_d1 h_S_)
      (ix2 (⟨(j 1).val, (j 1).isLt⟩ : Fin 1024) (0 : Fin 1)) = 1#1 := by
    refine (broadcastInDim_apply _ bcast_S1024_S1024x1_0 _ _ (ix1 (⟨(j 1).val, (j 1).isLt⟩ : Fin 1024)) (fun a => by
      obtain rfl : a = 0 := Subsingleton.elim _ _
      show (j 1).val = if (1024 : Nat) = 1 then 0 else (j 1).val
      rw [if_neg (by decide)])).trans ?_
    exact Cert.IndexRange.reduce_andi_ones _ _ _ _ _ (insideCol_apply idx hin) rfl
  rw [select_apply, hmask, select_one]
  rfl

/-! ## The folds -/

variable (m : (ℓ : Loc nD τ sig) → Buf (Elt Ideal) ℓ) (ρ : Dev nD → PrngReg)

local macro "kept_by" l:ident : tactic =>
  `(tactic| (refine StableHlo.after_of_forall_not_mem _ _ (List.forall_iff_forall_mem.mp ?_)
             simp only [$l:ident, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
             repeat' apply And.intro
             all_goals exact StableHlo.devRef_ne_of_ne (by decide)))

set_option maxHeartbeats 8000000 in
/-- The two stretches of host operations before the eighth launch make that row, from any contents W. -/
theorem row_after (W : Valuation τ sig (Elt Ideal)) :
    StableHlo.after hostOps7_1 (StableHlo.after hostOps7 W) (Proc.devRef .tc main_v76)
      = rowOf (W (Proc.devRef .tc main_v74)) (W (Proc.devRef .tc main_arg3)) := by
  after_results_simp <;> rfl

/-- The eighth launch finds the row made from the seventh launch's output and the index argument. -/
theorem row_at_entry (c : Dev nD) : W16 m ρ c (Proc.devRef .tc main_v76)
    = rowOf (W14 m ρ c (Proc.devRef .tc main_v74)) (W14 m ρ c (Proc.devRef .tc main_arg3)) :=
  row_after (W14 m ρ c)

/-- The result is the closing operations of the eighth launch's output. -/
theorem result_at_return (c : Dev nD) : W18 m ρ c (Proc.devRef .tc main_v87)
    = Cert.HeadMlp.softmaxTail (W17 m ρ c (Proc.devRef .tc main_v78)) := by
  show StableHlo.after hostOps8 (W17 m ρ c) (Proc.devRef .tc main_v87) = _
  after_results
  rfl

/-- The shift is as launched when the seventh launch reads it. -/
theorem main_arg15_at_13 (c : Dev nD) : W13 m ρ c (Proc.devRef .tc main_arg15) = m ((c : Thread nD τ).loc main_arg15) :=
  calc W13 m ρ c (Proc.devRef .tc main_arg15)
      = W14 m ρ c (Proc.devRef .tc main_arg15) :=
        ((W14_arr m ρ c 6).trans (((dat6 (V13 m ρ) c).arrAt_in 6 rfl _).trans (A_eq6 (V13 m ρ) c 6))).symm
    _ = W15 m ρ c (Proc.devRef .tc main_arg15) := (by kept_by hostOps7 : StableHlo.after hostOps7 (W14 m ρ c) (Proc.devRef .tc main_arg15) = _).symm
    _ = W16 m ρ c (Proc.devRef .tc main_arg15) := (by kept_by hostOps7_1 : StableHlo.after hostOps7_1 (W15 m ρ c) (Proc.devRef .tc main_arg15) = _).symm
    _ = W17 m ρ c (Proc.devRef .tc main_arg15) := (W17_of_ne m ρ c main_arg15 (by decide)).symm
    _ = W18 m ρ c (Proc.devRef .tc main_arg15) := (by kept_by hostOps8 : StableHlo.after hostOps8 (W17 m ρ c) (Proc.devRef .tc main_arg15) = _).symm
    _ = m ((c : Thread nD τ).loc main_arg15) := W18_main_arg15 m ρ c

/-- The index argument is as launched when the host reads it. -/
theorem main_arg3_at_14 (c : Dev nD) : W14 m ρ c (Proc.devRef .tc main_arg3) = m ((c : Thread nD τ).loc main_arg3) :=
  calc W14 m ρ c (Proc.devRef .tc main_arg3)
      = W15 m ρ c (Proc.devRef .tc main_arg3) := (by kept_by hostOps7 : StableHlo.after hostOps7 (W14 m ρ c) (Proc.devRef .tc main_arg3) = _).symm
    _ = W16 m ρ c (Proc.devRef .tc main_arg3) := (by kept_by hostOps7_1 : StableHlo.after hostOps7_1 (W15 m ρ c) (Proc.devRef .tc main_arg3) = _).symm
    _ = W17 m ρ c (Proc.devRef .tc main_arg3) := (W17_of_ne m ρ c main_arg3 (by decide)).symm
    _ = W18 m ρ c (Proc.devRef .tc main_arg3) := (by kept_by hostOps8 : StableHlo.after hostOps8 (W17 m ρ c) (Proc.devRef .tc main_arg3) = _).symm
    _ = m ((c : Thread nD τ).loc main_arg3) := W18_main_arg3 m ρ c

/-- The six parameters are as launched when the eighth launch reads them. -/
theorem main_arg16_at_16 (c : Dev nD) : W16 m ρ c (Proc.devRef .tc main_arg16) = m ((c : Thread nD τ).loc main_arg16) :=
  calc W16 m ρ c (Proc.devRef .tc main_arg16)
      = W17 m ρ c (Proc.devRef .tc main_arg16) :=
        ((W17_arr m ρ c 1).trans (((dat7 (V16 m ρ) c).arrAt_in 1 rfl _).trans (A_eq7 (V16 m ρ) c 1))).symm
    _ = W18 m ρ c (Proc.devRef .tc main_arg16) := (by kept_by hostOps8 : StableHlo.after hostOps8 (W17 m ρ c) (Proc.devRef .tc main_arg16) = _).symm
    _ = m ((c : Thread nD τ).loc main_arg16) := W18_main_arg16 m ρ c
theorem main_arg17_at_16 (c : Dev nD) : W16 m ρ c (Proc.devRef .tc main_arg17) = m ((c : Thread nD τ).loc main_arg17) :=
  calc W16 m ρ c (Proc.devRef .tc main_arg17)
      = W17 m ρ c (Proc.devRef .tc main_arg17) :=
        ((W17_arr m ρ c 2).trans (((dat7 (V16 m ρ) c).arrAt_in 2 rfl _).trans (A_eq7 (V16 m ρ) c 2))).symm
    _ = W18 m ρ c (Proc.devRef .tc main_arg17) := (by kept_by hostOps8 : StableHlo.after hostOps8 (W17 m ρ c) (Proc.devRef .tc main_arg17) = _).symm
    _ = m ((c : Thread nD τ).loc main_arg17) := W18_main_arg17 m ρ c
theorem main_arg18_at_16 (c : Dev nD) : W16 m ρ c (Proc.devRef .tc main_arg18) = m ((c : Thread nD τ).loc main_arg18) :=
  calc W16 m ρ c (Proc.devRef .tc main_arg18)
      = W17 m ρ c (Proc.devRef .tc main_arg18) :=
        ((W17_arr m ρ c 3).trans (((dat7 (V16 m ρ) c).arrAt_in 3 rfl _).trans (A_eq7 (V16 m ρ) c 3))).symm
    _ = W18 m ρ c (Proc.devRef .tc main_arg18) := (by kept_by hostOps8 : StableHlo.after hostOps8 (W17 m ρ c) (Proc.devRef .tc main_arg18) = _).symm
    _ = m ((c : Thread nD τ).loc main_arg18) := W18_main_arg18 m ρ c
theorem main_arg19_at_16 (c : Dev nD) : W16 m ρ c (Proc.devRef .tc main_arg19) = m ((c : Thread nD τ).loc main_arg19) :=
  calc W16 m ρ c (Proc.devRef .tc main_arg19)
      = W17 m ρ c (Proc.devRef .tc main_arg19) :=
        ((W17_arr m ρ c 4).trans (((dat7 (V16 m ρ) c).arrAt_in 4 rfl _).trans (A_eq7 (V16 m ρ) c 4))).symm
    _ = W18 m ρ c (Proc.devRef .tc main_arg19) := (by kept_by hostOps8 : StableHlo.after hostOps8 (W17 m ρ c) (Proc.devRef .tc main_arg19) = _).symm
    _ = m ((c : Thread nD τ).loc main_arg19) := W18_main_arg19 m ρ c
theorem main_arg20_at_16 (c : Dev nD) : W16 m ρ c (Proc.devRef .tc main_arg20) = m ((c : Thread nD τ).loc main_arg20) :=
  calc W16 m ρ c (Proc.devRef .tc main_arg20)
      = W17 m ρ c (Proc.devRef .tc main_arg20) :=
        ((W17_arr m ρ c 5).trans (((dat7 (V16 m ρ) c).arrAt_in 5 rfl _).trans (A_eq7 (V16 m ρ) c 5))).symm
    _ = W18 m ρ c (Proc.devRef .tc main_arg20) := (by kept_by hostOps8 : StableHlo.after hostOps8 (W17 m ρ c) (Proc.devRef .tc main_arg20) = _).symm
    _ = m ((c : Thread nD τ).loc main_arg20) := W18_main_arg20 m ρ c
theorem main_arg21_at_16 (c : Dev nD) : W16 m ρ c (Proc.devRef .tc main_arg21) = m ((c : Thread nD τ).loc main_arg21) :=
  calc W16 m ρ c (Proc.devRef .tc main_arg21)
      = W17 m ρ c (Proc.devRef .tc main_arg21) :=
        ((W17_arr m ρ c 6).trans (((dat7 (V16 m ρ) c).arrAt_in 6 rfl _).trans (A_eq7 (V16 m ρ) c 6))).symm
    _ = W18 m ρ c (Proc.devRef .tc main_arg21) := (by kept_by hostOps8 : StableHlo.after hostOps8 (W17 m ρ c) (Proc.devRef .tc main_arg21) = _).symm
    _ = m ((c : Thread nD τ).loc main_arg21) := W18_main_arg21 m ρ c

/-- The kernel program's result buffer at the return, under the precondition on the indices: the closing
    operations of the body's three layers of the row that holds the shift's element in every place. -/
theorem result_value (c : Dev nD)
    (hin : ∀ k : S1024.Idx, 0 ≤ ((m ((c : Thread nD τ).loc main_arg3) : C S1024 .i32) k).toInt
      ∧ ((m ((c : Thread nD τ).loc main_arg3) : C S1024 .i32) k).toInt < 50000) :
    W18 m ρ c (Proc.devRef .tc main_v87)
      = Cert.HeadMlp.softmaxTail (headOf (fun _ => (m ((c : Thread nD τ).loc main_arg15) : C S1 .f32) (ix1 (0 : Fin 1)))
          (m ((c : Thread nD τ).loc main_arg16)) (m ((c : Thread nD τ).loc main_arg17)) (m ((c : Thread nD τ).loc main_arg18))
          (m ((c : Thread nD τ).loc main_arg19)) (m ((c : Thread nD τ).loc main_arg20)) (m ((c : Thread nD τ).loc main_arg21))) := by
  have h74 : W14 m ρ c (Proc.devRef .tc main_v74) = everyRow (m ((c : Thread nD τ).loc main_arg15)) :=
    ((W14_arr m ρ c 7).trans (final6 (V13 m ρ) c)).trans (congrArg everyRow (main_arg15_at_13 m ρ c))
  have hrow : W16 m ρ c (Proc.devRef .tc main_v76) = fun _ => (m ((c : Thread nD τ).loc main_arg15) : C S1 .f32) (ix1 (0 : Fin 1)) := by
    rw [row_at_entry, h74, main_arg3_at_14]
    exact rowOf_inside _ _ hin
  have h78 : W17 m ρ c (Proc.devRef .tc main_v78)
      = headOf (W16 m ρ c (Proc.devRef .tc main_v76)) (W16 m ρ c (Proc.devRef .tc main_arg16)) (W16 m ρ c (Proc.devRef .tc main_arg17))
          (W16 m ρ c (Proc.devRef .tc main_arg18)) (W16 m ρ c (Proc.devRef .tc main_arg19)) (W16 m ρ c (Proc.devRef .tc main_arg20))
          (W16 m ρ c (Proc.devRef .tc main_arg21)) := (W17_arr m ρ c 7).trans (final7 (V16 m ρ) c)
  rw [result_at_return, h78, hrow, main_arg16_at_16, main_arg17_at_16, main_arg18_at_16, main_arg19_at_16, main_arg20_at_16, main_arg21_at_16]
  rfl

end Cert.KernelFold

end
-- ==== Proof.RefRun.lean ====
/-
  The reference program run, and its result read.

  The program is 310 host operations in a line; every fair execution ends with each buffer at the fold of the
  operations over the launch contents.  The line is cut after the operation that computes the one-column array t
  which the last normalisation takes.  The first part writes no argument, so the arguments the second part reads are
  the launch's.  The second part normalises t over its last axis, of length one, scales and shifts it: the result
  holds the shift's one element in every row, whatever t is (the module on normalising over one element).  The row
  gathered from that array, whatever the indices, holds the same element in its 1024 places; the last three layers
  and the closing operations are then applied to it.
-/
import proofs.«115235_j38740605010497_2_alg».proof.Proof.Gen.ReferenceIdeal
import proofs.«115235_j38740605010497_2_alg».proof.Proof.LibUnitNorm
import proofs.«115235_j38740605010497_2_alg».proof.Proof.HeadMlp
import Idealize.ShloMosaic.Lib.StableHlo.Run
import Idealize.ShloMosaic.Lib.Pipeline.Frame
import Idealize.ShloMosaic.Lib.Pipeline.Value
import Idealize.ShloMosaic.Lib.ValueIdx
import Idealize.ShloMosaic.PureOps.Ideal.Laws

noncomputable section

namespace Cert.RefRun

open Cert.ReferenceIdeal Cert.ReferenceIdeal.Gen Idealize.ShloMosaic Idealize.ShloMosaic.TcCoe Idealize.SL.Sem Idealize.ShloMosaic.StableHlo
open Idealize.ShloMosaic.ValueIdx

section Program

variable {F : FTy → Type} [FloatOps F]

/-- The operations up to and including the one that computes t, in order. -/
abbrev opsA : List (HloOp τ sig (Elt F)) :=
  [
    unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    nullary main_c (constantI S_ 32 0#32),
    unary main_c main_v2 (broadcastInDim S800000 ![] bcast_S_S800000 : (⟨S_, .i32⟩ : BufTy).Contents (Elt F) → (⟨S800000, .i32⟩ : BufTy).Contents (Elt F)),
    binary main_v1 main_v2 main_v3 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v4 (broadcastInDim S800000 ![] bcast_S_S800000 : (⟨S_, .i32⟩ : BufTy).Contents (Elt F) → (⟨S800000, .i32⟩ : BufTy).Contents (Elt F)),
    binary main_v1 main_v4 main_v5 (addi : (⟨S800000, .i32⟩ : BufTy).Contents (Elt F) → (⟨S800000, .i32⟩ : BufTy).Contents (Elt F) → (⟨S800000, .i32⟩ : BufTy).Contents (Elt F)),
    ternary main_v3 main_v5 main_v1 main_v6 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v6 main_v7 (broadcastInDim S800000x1 ![0] bcast_S800000_S800000x1_0 : (⟨S800000, .i32⟩ : BufTy).Contents (Elt F) → (⟨S800000x1, .i32⟩ : BufTy).Contents (Elt F)),
    binary main_arg0 main_v7 main_v8 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    binary main_v8 main_arg2 main_v9 (mulf : (⟨S800000x64, .f32⟩ : BufTy).Contents (Elt F) → (⟨S800000x64, .f32⟩ : BufTy).Contents (Elt F) → (⟨S800000x64, .f32⟩ : BufTy).Contents (Elt F)),
    nullary main_cst (constant S_ .f32 0x00000000#32),
    unary main_cst main_v10 (broadcastInDim S50000x64 ![] bcast_S_S50000x64 : (⟨S_, .f32⟩ : BufTy).Contents (Elt F) → (⟨S50000x64, .f32⟩ : BufTy).Contents (Elt F)),
    unary main_v1 main_v11 (broadcastInDim S800000x1 ![0] bcast_S800000_S800000x1_0 : (⟨S800000, .i32⟩ : BufTy).Contents (Elt F) → (⟨S800000x1, .i32⟩ : BufTy).Contents (Elt F)),
    ternary main_v10 main_v11 main_v9 main_v12 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_cst_1 (constant S_ .f32 0x3F800000#32),
    unary main_cst_1 main_v13 (broadcastInDim S800000x1 ![] bcast_S_S800000x1 : (⟨S_, .f32⟩ : BufTy).Contents (Elt F) → (⟨S800000x1, .f32⟩ : BufTy).Contents (Elt F)),
    nullary main_cst_2 (constant S_ .f32 0x00000000#32),
    unary main_cst_2 main_v14 (broadcastInDim S50000x1 ![] bcast_S_S50000x1 : (⟨S_, .f32⟩ : BufTy).Contents (Elt F) → (⟨S50000x1, .f32⟩ : BufTy).Contents (Elt F)),
    unary main_v1 main_v15 (broadcastInDim S800000x1 ![0] bcast_S800000_S800000x1_0 : (⟨S800000, .i32⟩ : BufTy).Contents (Elt F) → (⟨S800000x1, .i32⟩ : BufTy).Contents (Elt F)),
    ternary main_v14 main_v15 main_v13 main_v16 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    nullary main_cst_3 (constant S_ .f32 0x3F800000#32),
    unary main_cst_3 main_v17 (broadcastInDim S50000x1 ![] bcast_S_S50000x1 : (⟨S_, .f32⟩ : BufTy).Contents (Elt F) → (⟨S50000x1, .f32⟩ : BufTy).Contents (Elt F)),
    binary main_v16 main_v17 main_v18 (maximumf : (⟨S50000x1, .f32⟩ : BufTy).Contents (Elt F) → (⟨S50000x1, .f32⟩ : BufTy).Contents (Elt F) → (⟨S50000x1, .f32⟩ : BufTy).Contents (Elt F)),
    unary main_v18 main_v19 (broadcastInDim S50000x64 ![0, 1] bcast_S50000x1_S50000x64_0_1 : (⟨S50000x1, .f32⟩ : BufTy).Contents (Elt F) → (⟨S50000x64, .f32⟩ : BufTy).Contents (Elt F)),
    binary main_v12 main_v19 main_v20 (Host.divf : (⟨S50000x64, .f32⟩ : BufTy).Contents (Elt F) → (⟨S50000x64, .f32⟩ : BufTy).Contents (Elt F) → (⟨S50000x64, .f32⟩ : BufTy).Contents (Elt F)),
    binary main_arg0 main_v20 main_v21 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)),
    unary main_arg4 main_v22 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v22 main_v23 rfl shapeCasts_S1x128x128_S128x128,
    binary main_v21 main_v23 main_v24 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg5 main_v25 ((extractStridedSlice S1x128 ![0, 0] · slices_S3x128_S1x128_0_0) : (⟨S3x128, .f32⟩ : BufTy).Contents (Elt F) → (⟨S1x128, .f32⟩ : BufTy).Contents (Elt F)),
    reshape main_v25 main_v26 rfl shapeCasts_S1x128_S128,
    unary main_v26 main_v27 (broadcastInDim S1x128 ![1] bcast_S128_S1x128_1 : (⟨S128, .f32⟩ : BufTy).Contents (Elt F) → (⟨S1x128, .f32⟩ : BufTy).Contents (Elt F)),
    unary main_v27 main_v28 (broadcastInDim S50000x128 ![0, 1] bcast_S1x128_S50000x128_0_1 : (⟨S1x128, .f32⟩ : BufTy).Contents (Elt F) → (⟨S50000x128, .f32⟩ : BufTy).Contents (Elt F)),
    binary main_v24 main_v28 main_v29 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v29) (TRef.of (T := ⟨S50000x128, .f32⟩) main_call0_v0) (TRef.of (T := ⟨S50000x128, .f32⟩) main_v30) maximumf,
    unary main_arg6 main_v31 ((extractStridedSlice S1x128x64 ![0, 0, 0] · slices_S3x128x64_S1x128x64_0_0_0) : (⟨S3x128x64, .f32⟩ : BufTy).Contents (Elt F) → (⟨S1x128x64, .f32⟩ : BufTy).Contents (Elt F)),
    reshape main_v31 main_v32 rfl shapeCasts_S1x128x64_S128x64,
    binary main_v30 main_v32 main_v33 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg7 main_v34 ((extractStridedSlice S1x64 ![0, 0] · slices_S3x64_S1x64_0_0) : (⟨S3x64, .f32⟩ : BufTy).Contents (Elt F) → (⟨S1x64, .f32⟩ : BufTy).Contents (Elt F)),
    reshape main_v34 main_v35 rfl shapeCasts_S1x64_S64,
    unary main_v35 main_v36 (broadcastInDim S1x64 ![1] bcast_S64_S1x64_1 : (⟨S64, .f32⟩ : BufTy).Contents (Elt F) → (⟨S1x64, .f32⟩ : BufTy).Contents (Elt F)),
    unary main_v36 main_v37 (broadcastInDim S50000x64 ![0, 1] bcast_S1x64_S50000x64_0_1 : (⟨S1x64, .f32⟩ : BufTy).Contents (Elt F) → (⟨S50000x64, .f32⟩ : BufTy).Contents (Elt F)),
    binary main_v33 main_v37 main_v38 (addf : (⟨S50000x64, .f32⟩ : BufTy).Contents (Elt F) → (⟨S50000x64, .f32⟩ : BufTy).Contents (Elt F) → (⟨S50000x64, .f32⟩ : BufTy).Contents (Elt F)),
    unary main_arg8 main_v39 ((extractStridedSlice S1x64 ![0, 0] · slices_S3x64_S1x64_0_0) : (⟨S3x64, .f32⟩ : BufTy).Contents (Elt F) → (⟨S1x64, .f32⟩ : BufTy).Contents (Elt F)),
    reshape main_v39 main_v40 rfl shapeCasts_S1x64_S64,
    unary main_arg9 main_v41 ((extractStridedSlice S1x64 ![0, 0] · slices_S3x64_S1x64_0_0) : (⟨S3x64, .f32⟩ : BufTy).Contents (Elt F) → (⟨S1x64, .f32⟩ : BufTy).Contents (Elt F)),
    reshape main_v41 main_v42 rfl shapeCasts_S1x64_S64,
    nullary main_cst_4 (constant S_ .f32 0x00000000#32),
    binary main_v38 main_cst_4 main_v43 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v43 main_v44 (broadcastInDim S50000x1 ![0] bcast_S50000_S50000x1_0 : (⟨S50000, .f32⟩ : BufTy).Contents (Elt F) → (⟨S50000x1, .f32⟩ : BufTy).Contents (Elt F)),
    nullary main_cst_5 (constant S_ .f32 0x42800000#32),
    unary main_cst_5 main_v45 (broadcastInDim S50000x1 ![] bcast_S_S50000x1 : (⟨S_, .f32⟩ : BufTy).Contents (Elt F) → (⟨S50000x1, .f32⟩ : BufTy).Contents (Elt F)),
    binary main_v44 main_v45 main_v46 (Host.divf : (⟨S50000x1, .f32⟩ : BufTy).Contents (Elt F) → (⟨S50000x1, .f32⟩ : BufTy).Contents (Elt F) → (⟨S50000x1, .f32⟩ : BufTy).Contents (Elt F)),
    unary main_v46 main_v47 (broadcastInDim S50000x64 ![0, 1] bcast_S50000x1_S50000x64_0_1 : (⟨S50000x1, .f32⟩ : BufTy).Contents (Elt F) → (⟨S50000x64, .f32⟩ : BufTy).Contents (Elt F)),
    binary main_v38 main_v47 main_v48 (subf : (⟨S50000x64, .f32⟩ : BufTy).Contents (Elt F) → (⟨S50000x64, .f32⟩ : BufTy).Contents (Elt F) → (⟨S50000x64, .f32⟩ : BufTy).Contents (Elt F)),
    binary main_v48 main_v48 main_v49 (mulf : (⟨S50000x64, .f32⟩ : BufTy).Contents (Elt F) → (⟨S50000x64, .f32⟩ : BufTy).Contents (Elt F) → (⟨S50000x64, .f32⟩ : BufTy).Contents (Elt F)),
    nullary main_cst_6 (constant S_ .f32 0x00000000#32),
    binary main_v49 main_cst_6 main_v50 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v50 main_v51 (broadcastInDim S50000x1 ![0] bcast_S50000_S50000x1_0 : (⟨S50000, .f32⟩ : BufTy).Contents (Elt F) → (⟨S50000x1, .f32⟩ : BufTy).Contents (Elt F)),
    nullary main_cst_7 (constant S_ .f32 0x42800000#32),
    unary main_cst_7 main_v52 (broadcastInDim S50000x1 ![] bcast_S_S50000x1 : (⟨S_, .f32⟩ : BufTy).Contents (Elt F) → (⟨S50000x1, .f32⟩ : BufTy).Contents (Elt F)),
    binary main_v51 main_v52 main_v53 (Host.divf : (⟨S50000x1, .f32⟩ : BufTy).Contents (Elt F) → (⟨S50000x1, .f32⟩ : BufTy).Contents (Elt F) → (⟨S50000x1, .f32⟩ : BufTy).Contents (Elt F)),
    unary main_v46 main_v54 (broadcastInDim S50000x64 ![0, 1] bcast_S50000x1_S50000x64_0_1 : (⟨S50000x1, .f32⟩ : BufTy).Contents (Elt F) → (⟨S50000x64, .f32⟩ : BufTy).Contents (Elt F)),
    binary main_v38 main_v54 main_v55 (subf : (⟨S50000x64, .f32⟩ : BufTy).Contents (Elt F) → (⟨S50000x64, .f32⟩ : BufTy).Contents (Elt F) → (⟨S50000x64, .f32⟩ : BufTy).Contents (Elt F)),
    nullary main_cst_8 (constant S_ .f32 0x3727C5AC#32),
    unary main_cst_8 main_v56 (broadcastInDim S50000x1 ![] bcast_S_S50000x1 : (⟨S_, .f32⟩ : BufTy).Contents (Elt F) → (⟨S50000x1, .f32⟩ : BufTy).Contents (Elt F)),
    binary main_v53 main_v56 main_v57 (addf : (⟨S50000x1, .f32⟩ : BufTy).Contents (Elt F) → (⟨S50000x1, .f32⟩ : BufTy).Contents (Elt F) → (⟨S50000x1, .f32⟩ : BufTy).Contents (Elt F)),
    unary main_v57 main_v58 (Host.rsqrt : (⟨S50000x1, .f32⟩ : BufTy).Contents (Elt F) → (⟨S50000x1, .f32⟩ : BufTy).Contents (Elt F)),
    unary main_v58 main_v59 (broadcastInDim S50000x64 ![0, 1] bcast_S50000x1_S50000x64_0_1 : (⟨S50000x1, .f32⟩ : BufTy).Contents (Elt F) → (⟨S50000x64, .f32⟩ : BufTy).Contents (Elt F)),
    binary main_v55 main_v59 main_v60 (mulf : (⟨S50000x64, .f32⟩ : BufTy).Contents (Elt F) → (⟨S50000x64, .f32⟩ : BufTy).Contents (Elt F) → (⟨S50000x64, .f32⟩ : BufTy).Contents (Elt F)),
    unary main_v40 main_v61 (broadcastInDim S1x64 ![1] bcast_S64_S1x64_1 : (⟨S64, .f32⟩ : BufTy).Contents (Elt F) → (⟨S1x64, .f32⟩ : BufTy).Contents (Elt F)),
    unary main_v61 main_v62 (broadcastInDim S50000x64 ![0, 1] bcast_S1x64_S50000x64_0_1 : (⟨S1x64, .f32⟩ : BufTy).Contents (Elt F) → (⟨S50000x64, .f32⟩ : BufTy).Contents (Elt F)),
    binary main_v60 main_v62 main_v63 (mulf : (⟨S50000x64, .f32⟩ : BufTy).Contents (Elt F) → (⟨S50000x64, .f32⟩ : BufTy).Contents (Elt F) → (⟨S50000x64, .f32⟩ : BufTy).Contents (Elt F)),
    unary main_v42 main_v64 (broadcastInDim S1x64 ![1] bcast_S64_S1x64_1 : (⟨S64, .f32⟩ : BufTy).Contents (Elt F) → (⟨S1x64, .f32⟩ : BufTy).Contents (Elt F)),
    unary main_v64 main_v65 (broadcastInDim S50000x64 ![0, 1] bcast_S1x64_S50000x64_0_1 : (⟨S1x64, .f32⟩ : BufTy).Contents (Elt F) → (⟨S50000x64, .f32⟩ : BufTy).Contents (Elt F)),
    binary main_v63 main_v65 main_v66 (addf : (⟨S50000x64, .f32⟩ : BufTy).Contents (Elt F) → (⟨S50000x64, .f32⟩ : BufTy).Contents (Elt F) → (⟨S50000x64, .f32⟩ : BufTy).Contents (Elt F)),
    nullary main_c_9 (constantI S_ 32 0#32),
    unary main_c_9 main_v67 (broadcastInDim S800000 ![] bcast_S_S800000 : (⟨S_, .i32⟩ : BufTy).Contents (Elt F) → (⟨S800000, .i32⟩ : BufTy).Contents (Elt F)),
    binary main_v1 main_v67 main_v68 (cmpi .slt : (⟨S800000, .i32⟩ : BufTy).Contents (Elt F) → (⟨S800000, .i32⟩ : BufTy).Contents (Elt F) → (⟨S800000, .i1⟩ : BufTy).Contents (Elt F)),
    nullary main_c_10 (constantI S_ 32 50000#32),
    unary main_c_10 main_v69 (broadcastInDim S800000 ![] bcast_S_S800000 : (⟨S_, .i32⟩ : BufTy).Contents (Elt F) → (⟨S800000, .i32⟩ : BufTy).Contents (Elt F)),
    binary main_v1 main_v69 main_v70 (addi : (⟨S800000, .i32⟩ : BufTy).Contents (Elt F) → (⟨S800000, .i32⟩ : BufTy).Contents (Elt F) → (⟨S800000, .i32⟩ : BufTy).Contents (Elt F)),
    ternary main_v68 main_v70 main_v1 main_v71 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v71 main_v72 (broadcastInDim S800000x1 ![0] bcast_S800000_S800000x1_0 : (⟨S800000, .i32⟩ : BufTy).Contents (Elt F) → (⟨S800000x1, .i32⟩ : BufTy).Contents (Elt F)),
    binary main_v66 main_v72 main_v73 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    binary main_v73 main_arg2 main_v74 (mulf : (⟨S800000x64, .f32⟩ : BufTy).Contents (Elt F) → (⟨S800000x64, .f32⟩ : BufTy).Contents (Elt F) → (⟨S800000x64, .f32⟩ : BufTy).Contents (Elt F)),
    nullary main_cst_11 (constant S_ .f32 0x00000000#32),
    unary main_cst_11 main_v75 (broadcastInDim S50000x64 ![] bcast_S_S50000x64 : (⟨S_, .f32⟩ : BufTy).Contents (Elt F) → (⟨S50000x64, .f32⟩ : BufTy).Contents (Elt F)),
    unary main_v1 main_v76 (broadcastInDim S800000x1 ![0] bcast_S800000_S800000x1_0 : (⟨S800000, .i32⟩ : BufTy).Contents (Elt F) → (⟨S800000x1, .i32⟩ : BufTy).Contents (Elt F)),
    ternary main_v75 main_v76 main_v74 main_v77 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_cst_12 (constant S_ .f32 0x3F800000#32),
    unary main_cst_12 main_v78 (broadcastInDim S800000x1 ![] bcast_S_S800000x1 : (⟨S_, .f32⟩ : BufTy).Contents (Elt F) → (⟨S800000x1, .f32⟩ : BufTy).Contents (Elt F)),
    nullary main_cst_13 (constant S_ .f32 0x00000000#32),
    unary main_cst_13 main_v79 (broadcastInDim S50000x1 ![] bcast_S_S50000x1 : (⟨S_, .f32⟩ : BufTy).Contents (Elt F) → (⟨S50000x1, .f32⟩ : BufTy).Contents (Elt F)),
    unary main_v1 main_v80 (broadcastInDim S800000x1 ![0] bcast_S800000_S800000x1_0 : (⟨S800000, .i32⟩ : BufTy).Contents (Elt F) → (⟨S800000x1, .i32⟩ : BufTy).Contents (Elt F)),
    ternary main_v79 main_v80 main_v78 main_v81 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    nullary main_cst_14 (constant S_ .f32 0x3F800000#32),
    unary main_cst_14 main_v82 (broadcastInDim S50000x1 ![] bcast_S_S50000x1 : (⟨S_, .f32⟩ : BufTy).Contents (Elt F) → (⟨S50000x1, .f32⟩ : BufTy).Contents (Elt F)),
    binary main_v81 main_v82 main_v83 (maximumf : (⟨S50000x1, .f32⟩ : BufTy).Contents (Elt F) → (⟨S50000x1, .f32⟩ : BufTy).Contents (Elt F) → (⟨S50000x1, .f32⟩ : BufTy).Contents (Elt F)),
    unary main_v83 main_v84 (broadcastInDim S50000x64 ![0, 1] bcast_S50000x1_S50000x64_0_1 : (⟨S50000x1, .f32⟩ : BufTy).Contents (Elt F) → (⟨S50000x64, .f32⟩ : BufTy).Contents (Elt F)),
    binary main_v77 main_v84 main_v85 (Host.divf : (⟨S50000x64, .f32⟩ : BufTy).Contents (Elt F) → (⟨S50000x64, .f32⟩ : BufTy).Contents (Elt F) → (⟨S50000x64, .f32⟩ : BufTy).Contents (Elt F)),
    binary main_v66 main_v85 main_v86 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)),
    unary main_arg4 main_v87 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v87 main_v88 rfl shapeCasts_S1x128x128_S128x128,
    binary main_v86 main_v88 main_v89 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg5 main_v90 ((extractStridedSlice S1x128 ![1, 0] · slices_S3x128_S1x128_1_0) : (⟨S3x128, .f32⟩ : BufTy).Contents (Elt F) → (⟨S1x128, .f32⟩ : BufTy).Contents (Elt F)),
    reshape main_v90 main_v91 rfl shapeCasts_S1x128_S128,
    unary main_v91 main_v92 (broadcastInDim S1x128 ![1] bcast_S128_S1x128_1 : (⟨S128, .f32⟩ : BufTy).Contents (Elt F) → (⟨S1x128, .f32⟩ : BufTy).Contents (Elt F)),
    unary main_v92 main_v93 (broadcastInDim S50000x128 ![0, 1] bcast_S1x128_S50000x128_0_1 : (⟨S1x128, .f32⟩ : BufTy).Contents (Elt F) → (⟨S50000x128, .f32⟩ : BufTy).Contents (Elt F)),
    binary main_v89 main_v93 main_v94 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v94) (TRef.of (T := ⟨S50000x128, .f32⟩) main_call1_v0) (TRef.of (T := ⟨S50000x128, .f32⟩) main_v95) maximumf,
    unary main_arg6 main_v96 ((extractStridedSlice S1x128x64 ![1, 0, 0] · slices_S3x128x64_S1x128x64_1_0_0) : (⟨S3x128x64, .f32⟩ : BufTy).Contents (Elt F) → (⟨S1x128x64, .f32⟩ : BufTy).Contents (Elt F)),
    reshape main_v96 main_v97 rfl shapeCasts_S1x128x64_S128x64,
    binary main_v95 main_v97 main_v98 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg7 main_v99 ((extractStridedSlice S1x64 ![1, 0] · slices_S3x64_S1x64_1_0) : (⟨S3x64, .f32⟩ : BufTy).Contents (Elt F) → (⟨S1x64, .f32⟩ : BufTy).Contents (Elt F)),
    reshape main_v99 main_v100 rfl shapeCasts_S1x64_S64,
    unary main_v100 main_v101 (broadcastInDim S1x64 ![1] bcast_S64_S1x64_1 : (⟨S64, .f32⟩ : BufTy).Contents (Elt F) → (⟨S1x64, .f32⟩ : BufTy).Contents (Elt F)),
    unary main_v101 main_v102 (broadcastInDim S50000x64 ![0, 1] bcast_S1x64_S50000x64_0_1 : (⟨S1x64, .f32⟩ : BufTy).Contents (Elt F) → (⟨S50000x64, .f32⟩ : BufTy).Contents (Elt F)),
    binary main_v98 main_v102 main_v103 (addf : (⟨S50000x64, .f32⟩ : BufTy).Contents (Elt F) → (⟨S50000x64, .f32⟩ : BufTy).Contents (Elt F) → (⟨S50000x64, .f32⟩ : BufTy).Contents (Elt F)),
    unary main_arg8 main_v104 ((extractStridedSlice S1x64 ![1, 0] · slices_S3x64_S1x64_1_0) : (⟨S3x64, .f32⟩ : BufTy).Contents (Elt F) → (⟨S1x64, .f32⟩ : BufTy).Contents (Elt F)),
    reshape main_v104 main_v105 rfl shapeCasts_S1x64_S64,
    unary main_arg9 main_v106 ((extractStridedSlice S1x64 ![1, 0] · slices_S3x64_S1x64_1_0) : (⟨S3x64, .f32⟩ : BufTy).Contents (Elt F) → (⟨S1x64, .f32⟩ : BufTy).Contents (Elt F)),
    reshape main_v106 main_v107 rfl shapeCasts_S1x64_S64,
    nullary main_cst_15 (constant S_ .f32 0x00000000#32),
    binary main_v103 main_cst_15 main_v108 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v108 main_v109 (broadcastInDim S50000x1 ![0] bcast_S50000_S50000x1_0 : (⟨S50000, .f32⟩ : BufTy).Contents (Elt F) → (⟨S50000x1, .f32⟩ : BufTy).Contents (Elt F)),
    nullary main_cst_16 (constant S_ .f32 0x42800000#32),
    unary main_cst_16 main_v110 (broadcastInDim S50000x1 ![] bcast_S_S50000x1 : (⟨S_, .f32⟩ : BufTy).Contents (Elt F) → (⟨S50000x1, .f32⟩ : BufTy).Contents (Elt F)),
    binary main_v109 main_v110 main_v111 (Host.divf : (⟨S50000x1, .f32⟩ : BufTy).Contents (Elt F) → (⟨S50000x1, .f32⟩ : BufTy).Contents (Elt F) → (⟨S50000x1, .f32⟩ : BufTy).Contents (Elt F)),
    unary main_v111 main_v112 (broadcastInDim S50000x64 ![0, 1] bcast_S50000x1_S50000x64_0_1 : (⟨S50000x1, .f32⟩ : BufTy).Contents (Elt F) → (⟨S50000x64, .f32⟩ : BufTy).Contents (Elt F)),
    binary main_v103 main_v112 main_v113 (subf : (⟨S50000x64, .f32⟩ : BufTy).Contents (Elt F) → (⟨S50000x64, .f32⟩ : BufTy).Contents (Elt F) → (⟨S50000x64, .f32⟩ : BufTy).Contents (Elt F)),
    binary main_v113 main_v113 main_v114 (mulf : (⟨S50000x64, .f32⟩ : BufTy).Contents (Elt F) → (⟨S50000x64, .f32⟩ : BufTy).Contents (Elt F) → (⟨S50000x64, .f32⟩ : BufTy).Contents (Elt F)),
    nullary main_cst_17 (constant S_ .f32 0x00000000#32),
    binary main_v114 main_cst_17 main_v115 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v115 main_v116 (broadcastInDim S50000x1 ![0] bcast_S50000_S50000x1_0 : (⟨S50000, .f32⟩ : BufTy).Contents (Elt F) → (⟨S50000x1, .f32⟩ : BufTy).Contents (Elt F)),
    nullary main_cst_18 (constant S_ .f32 0x42800000#32),
    unary main_cst_18 main_v117 (broadcastInDim S50000x1 ![] bcast_S_S50000x1 : (⟨S_, .f32⟩ : BufTy).Contents (Elt F) → (⟨S50000x1, .f32⟩ : BufTy).Contents (Elt F)),
    binary main_v116 main_v117 main_v118 (Host.divf : (⟨S50000x1, .f32⟩ : BufTy).Contents (Elt F) → (⟨S50000x1, .f32⟩ : BufTy).Contents (Elt F) → (⟨S50000x1, .f32⟩ : BufTy).Contents (Elt F)),
    unary main_v111 main_v119 (broadcastInDim S50000x64 ![0, 1] bcast_S50000x1_S50000x64_0_1 : (⟨S50000x1, .f32⟩ : BufTy).Contents (Elt F) → (⟨S50000x64, .f32⟩ : BufTy).Contents (Elt F)),
    binary main_v103 main_v119 main_v120 (subf : (⟨S50000x64, .f32⟩ : BufTy).Contents (Elt F) → (⟨S50000x64, .f32⟩ : BufTy).Contents (Elt F) → (⟨S50000x64, .f32⟩ : BufTy).Contents (Elt F)),
    nullary main_cst_19 (constant S_ .f32 0x3727C5AC#32),
    unary main_cst_19 main_v121 (broadcastInDim S50000x1 ![] bcast_S_S50000x1 : (⟨S_, .f32⟩ : BufTy).Contents (Elt F) → (⟨S50000x1, .f32⟩ : BufTy).Contents (Elt F)),
    binary main_v118 main_v121 main_v122 (addf : (⟨S50000x1, .f32⟩ : BufTy).Contents (Elt F) → (⟨S50000x1, .f32⟩ : BufTy).Contents (Elt F) → (⟨S50000x1, .f32⟩ : BufTy).Contents (Elt F)),
    unary main_v122 main_v123 (Host.rsqrt : (⟨S50000x1, .f32⟩ : BufTy).Contents (Elt F) → (⟨S50000x1, .f32⟩ : BufTy).Contents (Elt F)),
    unary main_v123 main_v124 (broadcastInDim S50000x64 ![0, 1] bcast_S50000x1_S50000x64_0_1 : (⟨S50000x1, .f32⟩ : BufTy).Contents (Elt F) → (⟨S50000x64, .f32⟩ : BufTy).Contents (Elt F)),
    binary main_v120 main_v124 main_v125 (mulf : (⟨S50000x64, .f32⟩ : BufTy).Contents (Elt F) → (⟨S50000x64, .f32⟩ : BufTy).Contents (Elt F) → (⟨S50000x64, .f32⟩ : BufTy).Contents (Elt F)),
    unary main_v105 main_v126 (broadcastInDim S1x64 ![1] bcast_S64_S1x64_1 : (⟨S64, .f32⟩ : BufTy).Contents (Elt F) → (⟨S1x64, .f32⟩ : BufTy).Contents (Elt F)),
    unary main_v126 main_v127 (broadcastInDim S50000x64 ![0, 1] bcast_S1x64_S50000x64_0_1 : (⟨S1x64, .f32⟩ : BufTy).Contents (Elt F) → (⟨S50000x64, .f32⟩ : BufTy).Contents (Elt F)),
    binary main_v125 main_v127 main_v128 (mulf : (⟨S50000x64, .f32⟩ : BufTy).Contents (Elt F) → (⟨S50000x64, .f32⟩ : BufTy).Contents (Elt F) → (⟨S50000x64, .f32⟩ : BufTy).Contents (Elt F)),
    unary main_v107 main_v129 (broadcastInDim S1x64 ![1] bcast_S64_S1x64_1 : (⟨S64, .f32⟩ : BufTy).Contents (Elt F) → (⟨S1x64, .f32⟩ : BufTy).Contents (Elt F)),
    unary main_v129 main_v130 (broadcastInDim S50000x64 ![0, 1] bcast_S1x64_S50000x64_0_1 : (⟨S1x64, .f32⟩ : BufTy).Contents (Elt F) → (⟨S50000x64, .f32⟩ : BufTy).Contents (Elt F)),
    binary main_v128 main_v130 main_v131 (addf : (⟨S50000x64, .f32⟩ : BufTy).Contents (Elt F) → (⟨S50000x64, .f32⟩ : BufTy).Contents (Elt F) → (⟨S50000x64, .f32⟩ : BufTy).Contents (Elt F)),
    nullary main_c_20 (constantI S_ 32 0#32),
    unary main_c_20 main_v132 (broadcastInDim S800000 ![] bcast_S_S800000 : (⟨S_, .i32⟩ : BufTy).Contents (Elt F) → (⟨S800000, .i32⟩ : BufTy).Contents (Elt F)),
    binary main_v1 main_v132 main_v133 (cmpi .slt : (⟨S800000, .i32⟩ : BufTy).Contents (Elt F) → (⟨S800000, .i32⟩ : BufTy).Contents (Elt F) → (⟨S800000, .i1⟩ : BufTy).Contents (Elt F)),
    nullary main_c_21 (constantI S_ 32 50000#32),
    unary main_c_21 main_v134 (broadcastInDim S800000 ![] bcast_S_S800000 : (⟨S_, .i32⟩ : BufTy).Contents (Elt F) → (⟨S800000, .i32⟩ : BufTy).Contents (Elt F)),
    binary main_v1 main_v134 main_v135 (addi : (⟨S800000, .i32⟩ : BufTy).Contents (Elt F) → (⟨S800000, .i32⟩ : BufTy).Contents (Elt F) → (⟨S800000, .i32⟩ : BufTy).Contents (Elt F)),
    ternary main_v133 main_v135 main_v1 main_v136 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v136 main_v137 (broadcastInDim S800000x1 ![0] bcast_S800000_S800000x1_0 : (⟨S800000, .i32⟩ : BufTy).Contents (Elt F) → (⟨S800000x1, .i32⟩ : BufTy).Contents (Elt F)),
    binary main_v131 main_v137 main_v138 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    binary main_v138 main_arg2 main_v139 (mulf : (⟨S800000x64, .f32⟩ : BufTy).Contents (Elt F) → (⟨S800000x64, .f32⟩ : BufTy).Contents (Elt F) → (⟨S800000x64, .f32⟩ : BufTy).Contents (Elt F)),
    nullary main_cst_22 (constant S_ .f32 0x00000000#32),
    unary main_cst_22 main_v140 (broadcastInDim S50000x64 ![] bcast_S_S50000x64 : (⟨S_, .f32⟩ : BufTy).Contents (Elt F) → (⟨S50000x64, .f32⟩ : BufTy).Contents (Elt F)),
    unary main_v1 main_v141 (broadcastInDim S800000x1 ![0] bcast_S800000_S800000x1_0 : (⟨S800000, .i32⟩ : BufTy).Contents (Elt F) → (⟨S800000x1, .i32⟩ : BufTy).Contents (Elt F)),
    ternary main_v140 main_v141 main_v139 main_v142 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_cst_23 (constant S_ .f32 0x3F800000#32),
    unary main_cst_23 main_v143 (broadcastInDim S800000x1 ![] bcast_S_S800000x1 : (⟨S_, .f32⟩ : BufTy).Contents (Elt F) → (⟨S800000x1, .f32⟩ : BufTy).Contents (Elt F)),
    nullary main_cst_24 (constant S_ .f32 0x00000000#32),
    unary main_cst_24 main_v144 (broadcastInDim S50000x1 ![] bcast_S_S50000x1 : (⟨S_, .f32⟩ : BufTy).Contents (Elt F) → (⟨S50000x1, .f32⟩ : BufTy).Contents (Elt F)),
    unary main_v1 main_v145 (broadcastInDim S800000x1 ![0] bcast_S800000_S800000x1_0 : (⟨S800000, .i32⟩ : BufTy).Contents (Elt F) → (⟨S800000x1, .i32⟩ : BufTy).Contents (Elt F)),
    ternary main_v144 main_v145 main_v143 main_v146 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    nullary main_cst_25 (constant S_ .f32 0x3F800000#32),
    unary main_cst_25 main_v147 (broadcastInDim S50000x1 ![] bcast_S_S50000x1 : (⟨S_, .f32⟩ : BufTy).Contents (Elt F) → (⟨S50000x1, .f32⟩ : BufTy).Contents (Elt F)),
    binary main_v146 main_v147 main_v148 (maximumf : (⟨S50000x1, .f32⟩ : BufTy).Contents (Elt F) → (⟨S50000x1, .f32⟩ : BufTy).Contents (Elt F) → (⟨S50000x1, .f32⟩ : BufTy).Contents (Elt F)),
    unary main_v148 main_v149 (broadcastInDim S50000x64 ![0, 1] bcast_S50000x1_S50000x64_0_1 : (⟨S50000x1, .f32⟩ : BufTy).Contents (Elt F) → (⟨S50000x64, .f32⟩ : BufTy).Contents (Elt F)),
    binary main_v142 main_v149 main_v150 (Host.divf : (⟨S50000x64, .f32⟩ : BufTy).Contents (Elt F) → (⟨S50000x64, .f32⟩ : BufTy).Contents (Elt F) → (⟨S50000x64, .f32⟩ : BufTy).Contents (Elt F)),
    binary main_v131 main_v150 main_v151 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)),
    unary main_arg4 main_v152 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v152 main_v153 rfl shapeCasts_S1x128x128_S128x128,
    binary main_v151 main_v153 main_v154 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg5 main_v155 ((extractStridedSlice S1x128 ![2, 0] · slices_S3x128_S1x128_2_0) : (⟨S3x128, .f32⟩ : BufTy).Contents (Elt F) → (⟨S1x128, .f32⟩ : BufTy).Contents (Elt F)),
    reshape main_v155 main_v156 rfl shapeCasts_S1x128_S128,
    unary main_v156 main_v157 (broadcastInDim S1x128 ![1] bcast_S128_S1x128_1 : (⟨S128, .f32⟩ : BufTy).Contents (Elt F) → (⟨S1x128, .f32⟩ : BufTy).Contents (Elt F)),
    unary main_v157 main_v158 (broadcastInDim S50000x128 ![0, 1] bcast_S1x128_S50000x128_0_1 : (⟨S1x128, .f32⟩ : BufTy).Contents (Elt F) → (⟨S50000x128, .f32⟩ : BufTy).Contents (Elt F)),
    binary main_v154 main_v158 main_v159 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v159) (TRef.of (T := ⟨S50000x128, .f32⟩) main_call2_v0) (TRef.of (T := ⟨S50000x128, .f32⟩) main_v160) maximumf,
    unary main_arg6 main_v161 ((extractStridedSlice S1x128x64 ![2, 0, 0] · slices_S3x128x64_S1x128x64_2_0_0) : (⟨S3x128x64, .f32⟩ : BufTy).Contents (Elt F) → (⟨S1x128x64, .f32⟩ : BufTy).Contents (Elt F)),
    reshape main_v161 main_v162 rfl shapeCasts_S1x128x64_S128x64,
    binary main_v160 main_v162 main_v163 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg7 main_v164 ((extractStridedSlice S1x64 ![2, 0] · slices_S3x64_S1x64_2_0) : (⟨S3x64, .f32⟩ : BufTy).Contents (Elt F) → (⟨S1x64, .f32⟩ : BufTy).Contents (Elt F)),
    reshape main_v164 main_v165 rfl shapeCasts_S1x64_S64,
    unary main_v165 main_v166 (broadcastInDim S1x64 ![1] bcast_S64_S1x64_1 : (⟨S64, .f32⟩ : BufTy).Contents (Elt F) → (⟨S1x64, .f32⟩ : BufTy).Contents (Elt F)),
    unary main_v166 main_v167 (broadcastInDim S50000x64 ![0, 1] bcast_S1x64_S50000x64_0_1 : (⟨S1x64, .f32⟩ : BufTy).Contents (Elt F) → (⟨S50000x64, .f32⟩ : BufTy).Contents (Elt F)),
    binary main_v163 main_v167 main_v168 (addf : (⟨S50000x64, .f32⟩ : BufTy).Contents (Elt F) → (⟨S50000x64, .f32⟩ : BufTy).Contents (Elt F) → (⟨S50000x64, .f32⟩ : BufTy).Contents (Elt F)),
    unary main_arg8 main_v169 ((extractStridedSlice S1x64 ![2, 0] · slices_S3x64_S1x64_2_0) : (⟨S3x64, .f32⟩ : BufTy).Contents (Elt F) → (⟨S1x64, .f32⟩ : BufTy).Contents (Elt F)),
    reshape main_v169 main_v170 rfl shapeCasts_S1x64_S64,
    unary main_arg9 main_v171 ((extractStridedSlice S1x64 ![2, 0] · slices_S3x64_S1x64_2_0) : (⟨S3x64, .f32⟩ : BufTy).Contents (Elt F) → (⟨S1x64, .f32⟩ : BufTy).Contents (Elt F)),
    reshape main_v171 main_v172 rfl shapeCasts_S1x64_S64,
    nullary main_cst_26 (constant S_ .f32 0x00000000#32),
    binary main_v168 main_cst_26 main_v173 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v173 main_v174 (broadcastInDim S50000x1 ![0] bcast_S50000_S50000x1_0 : (⟨S50000, .f32⟩ : BufTy).Contents (Elt F) → (⟨S50000x1, .f32⟩ : BufTy).Contents (Elt F)),
    nullary main_cst_27 (constant S_ .f32 0x42800000#32),
    unary main_cst_27 main_v175 (broadcastInDim S50000x1 ![] bcast_S_S50000x1 : (⟨S_, .f32⟩ : BufTy).Contents (Elt F) → (⟨S50000x1, .f32⟩ : BufTy).Contents (Elt F)),
    binary main_v174 main_v175 main_v176 (Host.divf : (⟨S50000x1, .f32⟩ : BufTy).Contents (Elt F) → (⟨S50000x1, .f32⟩ : BufTy).Contents (Elt F) → (⟨S50000x1, .f32⟩ : BufTy).Contents (Elt F)),
    unary main_v176 main_v177 (broadcastInDim S50000x64 ![0, 1] bcast_S50000x1_S50000x64_0_1 : (⟨S50000x1, .f32⟩ : BufTy).Contents (Elt F) → (⟨S50000x64, .f32⟩ : BufTy).Contents (Elt F)),
    binary main_v168 main_v177 main_v178 (subf : (⟨S50000x64, .f32⟩ : BufTy).Contents (Elt F) → (⟨S50000x64, .f32⟩ : BufTy).Contents (Elt F) → (⟨S50000x64, .f32⟩ : BufTy).Contents (Elt F)),
    binary main_v178 main_v178 main_v179 (mulf : (⟨S50000x64, .f32⟩ : BufTy).Contents (Elt F) → (⟨S50000x64, .f32⟩ : BufTy).Contents (Elt F) → (⟨S50000x64, .f32⟩ : BufTy).Contents (Elt F)),
    nullary main_cst_28 (constant S_ .f32 0x00000000#32),
    binary main_v179 main_cst_28 main_v180 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v180 main_v181 (broadcastInDim S50000x1 ![0] bcast_S50000_S50000x1_0 : (⟨S50000, .f32⟩ : BufTy).Contents (Elt F) → (⟨S50000x1, .f32⟩ : BufTy).Contents (Elt F)),
    nullary main_cst_29 (constant S_ .f32 0x42800000#32),
    unary main_cst_29 main_v182 (broadcastInDim S50000x1 ![] bcast_S_S50000x1 : (⟨S_, .f32⟩ : BufTy).Contents (Elt F) → (⟨S50000x1, .f32⟩ : BufTy).Contents (Elt F)),
    binary main_v181 main_v182 main_v183 (Host.divf : (⟨S50000x1, .f32⟩ : BufTy).Contents (Elt F) → (⟨S50000x1, .f32⟩ : BufTy).Contents (Elt F) → (⟨S50000x1, .f32⟩ : BufTy).Contents (Elt F)),
    unary main_v176 main_v184 (broadcastInDim S50000x64 ![0, 1] bcast_S50000x1_S50000x64_0_1 : (⟨S50000x1, .f32⟩ : BufTy).Contents (Elt F) → (⟨S50000x64, .f32⟩ : BufTy).Contents (Elt F)),
    binary main_v168 main_v184 main_v185 (subf : (⟨S50000x64, .f32⟩ : BufTy).Contents (Elt F) → (⟨S50000x64, .f32⟩ : BufTy).Contents (Elt F) → (⟨S50000x64, .f32⟩ : BufTy).Contents (Elt F)),
    nullary main_cst_30 (constant S_ .f32 0x3727C5AC#32),
    unary main_cst_30 main_v186 (broadcastInDim S50000x1 ![] bcast_S_S50000x1 : (⟨S_, .f32⟩ : BufTy).Contents (Elt F) → (⟨S50000x1, .f32⟩ : BufTy).Contents (Elt F)),
    binary main_v183 main_v186 main_v187 (addf : (⟨S50000x1, .f32⟩ : BufTy).Contents (Elt F) → (⟨S50000x1, .f32⟩ : BufTy).Contents (Elt F) → (⟨S50000x1, .f32⟩ : BufTy).Contents (Elt F)),
    unary main_v187 main_v188 (Host.rsqrt : (⟨S50000x1, .f32⟩ : BufTy).Contents (Elt F) → (⟨S50000x1, .f32⟩ : BufTy).Contents (Elt F)),
    unary main_v188 main_v189 (broadcastInDim S50000x64 ![0, 1] bcast_S50000x1_S50000x64_0_1 : (⟨S50000x1, .f32⟩ : BufTy).Contents (Elt F) → (⟨S50000x64, .f32⟩ : BufTy).Contents (Elt F)),
    binary main_v185 main_v189 main_v190 (mulf : (⟨S50000x64, .f32⟩ : BufTy).Contents (Elt F) → (⟨S50000x64, .f32⟩ : BufTy).Contents (Elt F) → (⟨S50000x64, .f32⟩ : BufTy).Contents (Elt F)),
    unary main_v170 main_v191 (broadcastInDim S1x64 ![1] bcast_S64_S1x64_1 : (⟨S64, .f32⟩ : BufTy).Contents (Elt F) → (⟨S1x64, .f32⟩ : BufTy).Contents (Elt F)),
    unary main_v191 main_v192 (broadcastInDim S50000x64 ![0, 1] bcast_S1x64_S50000x64_0_1 : (⟨S1x64, .f32⟩ : BufTy).Contents (Elt F) → (⟨S50000x64, .f32⟩ : BufTy).Contents (Elt F)),
    binary main_v190 main_v192 main_v193 (mulf : (⟨S50000x64, .f32⟩ : BufTy).Contents (Elt F) → (⟨S50000x64, .f32⟩ : BufTy).Contents (Elt F) → (⟨S50000x64, .f32⟩ : BufTy).Contents (Elt F)),
    unary main_v172 main_v194 (broadcastInDim S1x64 ![1] bcast_S64_S1x64_1 : (⟨S64, .f32⟩ : BufTy).Contents (Elt F) → (⟨S1x64, .f32⟩ : BufTy).Contents (Elt F)),
    unary main_v194 main_v195 (broadcastInDim S50000x64 ![0, 1] bcast_S1x64_S50000x64_0_1 : (⟨S1x64, .f32⟩ : BufTy).Contents (Elt F) → (⟨S50000x64, .f32⟩ : BufTy).Contents (Elt F)),
    binary main_v193 main_v195 main_v196 (addf : (⟨S50000x64, .f32⟩ : BufTy).Contents (Elt F) → (⟨S50000x64, .f32⟩ : BufTy).Contents (Elt F) → (⟨S50000x64, .f32⟩ : BufTy).Contents (Elt F)),
    binary main_v196 main_arg10 main_v197 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg11 main_v198 (broadcastInDim S1x64 ![1] bcast_S64_S1x64_1 : (⟨S64, .f32⟩ : BufTy).Contents (Elt F) → (⟨S1x64, .f32⟩ : BufTy).Contents (Elt F)),
    unary main_v198 main_v199 (broadcastInDim S50000x64 ![0, 1] bcast_S1x64_S50000x64_0_1 : (⟨S1x64, .f32⟩ : BufTy).Contents (Elt F) → (⟨S50000x64, .f32⟩ : BufTy).Contents (Elt F)),
    binary main_v197 main_v199 main_v200 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x64, .f32⟩) main_call3_v0) (broadcastInDim S50000x64 ![] bcast_S_S50000x64),
    TRef.binary (TRef.of (T := ⟨S50000x64, .f32⟩) main_v200) (TRef.of (T := ⟨S50000x64, .f32⟩) main_call3_v0) (TRef.of (T := ⟨S50000x64, .f32⟩) main_v201) maximumf,
    binary main_v201 main_arg12 main_v202 ((fun l r => Host.dotGeneral dot_S50000x64_S64x1_S50000x1_1_0_0_1_n_n none l r) : (⟨S50000x64, .f32⟩ : BufTy).Contents (Elt F) → (⟨S64x1, .f32⟩ : BufTy).Contents (Elt F) → (⟨S50000x1, .f32⟩ : BufTy).Contents (Elt F)),
    unary main_arg13 main_v203 (broadcastInDim S1x1 ![1] bcast_S1_S1x1_1 : (⟨S1, .f32⟩ : BufTy).Contents (Elt F) → (⟨S1x1, .f32⟩ : BufTy).Contents (Elt F)),
    unary main_v203 main_v204 (broadcastInDim S50000x1 ![0, 1] bcast_S1x1_S50000x1_0_1 : (⟨S1x1, .f32⟩ : BufTy).Contents (Elt F) → (⟨S50000x1, .f32⟩ : BufTy).Contents (Elt F)),
    binary main_v202 main_v204 main_v205 (addf : (⟨S50000x1, .f32⟩ : BufTy).Contents (Elt F) → (⟨S50000x1, .f32⟩ : BufTy).Contents (Elt F) → (⟨S50000x1, .f32⟩ : BufTy).Contents (Elt F)) ]

/-- The operations after it, in order. -/
abbrev opsB : List (HloOp τ sig (Elt F)) :=
  [
    nullary main_cst_31 (constant S_ .f32 0x00000000#32),
    binary main_v205 main_cst_31 main_v206 ((fun x v => Host.reduceAdd x v reducesTo_S50000x1_S50000_d1 h_S_) : (⟨S50000x1, .f32⟩ : BufTy).Contents (Elt F) → (⟨S_, .f32⟩ : BufTy).Contents (Elt F) → (⟨S50000, .f32⟩ : BufTy).Contents (Elt F)),
    unary main_v206 main_v207 (broadcastInDim S50000x1 ![0] bcast_S50000_S50000x1_0 : (⟨S50000, .f32⟩ : BufTy).Contents (Elt F) → (⟨S50000x1, .f32⟩ : BufTy).Contents (Elt F)),
    nullary main_cst_32 (constant S_ .f32 0x3F800000#32),
    unary main_cst_32 main_v208 (broadcastInDim S50000x1 ![] bcast_S_S50000x1 : (⟨S_, .f32⟩ : BufTy).Contents (Elt F) → (⟨S50000x1, .f32⟩ : BufTy).Contents (Elt F)),
    binary main_v207 main_v208 main_v209 (Host.divf : (⟨S50000x1, .f32⟩ : BufTy).Contents (Elt F) → (⟨S50000x1, .f32⟩ : BufTy).Contents (Elt F) → (⟨S50000x1, .f32⟩ : BufTy).Contents (Elt F)),
    binary main_v205 main_v209 main_v210 (subf : (⟨S50000x1, .f32⟩ : BufTy).Contents (Elt F) → (⟨S50000x1, .f32⟩ : BufTy).Contents (Elt F) → (⟨S50000x1, .f32⟩ : BufTy).Contents (Elt F)),
    binary main_v210 main_v210 main_v211 (mulf : (⟨S50000x1, .f32⟩ : BufTy).Contents (Elt F) → (⟨S50000x1, .f32⟩ : BufTy).Contents (Elt F) → (⟨S50000x1, .f32⟩ : BufTy).Contents (Elt F)),
    nullary main_cst_33 (constant S_ .f32 0x00000000#32),
    binary main_v211 main_cst_33 main_v212 ((fun x v => Host.reduceAdd x v reducesTo_S50000x1_S50000_d1 h_S_) : (⟨S50000x1, .f32⟩ : BufTy).Contents (Elt F) → (⟨S_, .f32⟩ : BufTy).Contents (Elt F) → (⟨S50000, .f32⟩ : BufTy).Contents (Elt F)),
    unary main_v212 main_v213 (broadcastInDim S50000x1 ![0] bcast_S50000_S50000x1_0 : (⟨S50000, .f32⟩ : BufTy).Contents (Elt F) → (⟨S50000x1, .f32⟩ : BufTy).Contents (Elt F)),
    nullary main_cst_34 (constant S_ .f32 0x3F800000#32),
    unary main_cst_34 main_v214 (broadcastInDim S50000x1 ![] bcast_S_S50000x1 : (⟨S_, .f32⟩ : BufTy).Contents (Elt F) → (⟨S50000x1, .f32⟩ : BufTy).Contents (Elt F)),
    binary main_v213 main_v214 main_v215 (Host.divf : (⟨S50000x1, .f32⟩ : BufTy).Contents (Elt F) → (⟨S50000x1, .f32⟩ : BufTy).Contents (Elt F) → (⟨S50000x1, .f32⟩ : BufTy).Contents (Elt F)),
    binary main_v205 main_v209 main_v216 (subf : (⟨S50000x1, .f32⟩ : BufTy).Contents (Elt F) → (⟨S50000x1, .f32⟩ : BufTy).Contents (Elt F) → (⟨S50000x1, .f32⟩ : BufTy).Contents (Elt F)),
    nullary main_cst_35 (constant S_ .f32 0x3727C5AC#32),
    unary main_cst_35 main_v217 (broadcastInDim S50000x1 ![] bcast_S_S50000x1 : (⟨S_, .f32⟩ : BufTy).Contents (Elt F) → (⟨S50000x1, .f32⟩ : BufTy).Contents (Elt F)),
    binary main_v215 main_v217 main_v218 (addf : (⟨S50000x1, .f32⟩ : BufTy).Contents (Elt F) → (⟨S50000x1, .f32⟩ : BufTy).Contents (Elt F) → (⟨S50000x1, .f32⟩ : BufTy).Contents (Elt F)),
    unary main_v218 main_v219 (Host.rsqrt : (⟨S50000x1, .f32⟩ : BufTy).Contents (Elt F) → (⟨S50000x1, .f32⟩ : BufTy).Contents (Elt F)),
    binary main_v216 main_v219 main_v220 (mulf : (⟨S50000x1, .f32⟩ : BufTy).Contents (Elt F) → (⟨S50000x1, .f32⟩ : BufTy).Contents (Elt F) → (⟨S50000x1, .f32⟩ : BufTy).Contents (Elt F)),
    unary main_arg14 main_v221 (broadcastInDim S1x1 ![1] bcast_S1_S1x1_1 : (⟨S1, .f32⟩ : BufTy).Contents (Elt F) → (⟨S1x1, .f32⟩ : BufTy).Contents (Elt F)),
    unary main_v221 main_v222 (broadcastInDim S50000x1 ![0, 1] bcast_S1x1_S50000x1_0_1 : (⟨S1x1, .f32⟩ : BufTy).Contents (Elt F) → (⟨S50000x1, .f32⟩ : BufTy).Contents (Elt F)),
    binary main_v220 main_v222 main_v223 (mulf : (⟨S50000x1, .f32⟩ : BufTy).Contents (Elt F) → (⟨S50000x1, .f32⟩ : BufTy).Contents (Elt F) → (⟨S50000x1, .f32⟩ : BufTy).Contents (Elt F)),
    unary main_arg15 main_v224 (broadcastInDim S1x1 ![1] bcast_S1_S1x1_1 : (⟨S1, .f32⟩ : BufTy).Contents (Elt F) → (⟨S1x1, .f32⟩ : BufTy).Contents (Elt F)),
    unary main_v224 main_v225 (broadcastInDim S50000x1 ![0, 1] bcast_S1x1_S50000x1_0_1 : (⟨S1x1, .f32⟩ : BufTy).Contents (Elt F) → (⟨S50000x1, .f32⟩ : BufTy).Contents (Elt F)),
    binary main_v223 main_v225 main_v226 (addf : (⟨S50000x1, .f32⟩ : BufTy).Contents (Elt F) → (⟨S50000x1, .f32⟩ : BufTy).Contents (Elt F) → (⟨S50000x1, .f32⟩ : BufTy).Contents (Elt F)),
    nullary main_c_36 (constantI S_ 32 0#32),
    unary main_c_36 main_v227 (broadcastInDim S1024 ![] bcast_S_S1024 : (⟨S_, .i32⟩ : BufTy).Contents (Elt F) → (⟨S1024, .i32⟩ : BufTy).Contents (Elt F)),
    binary main_arg3 main_v227 main_v228 (cmpi .slt : (⟨S1024, .i32⟩ : BufTy).Contents (Elt F) → (⟨S1024, .i32⟩ : BufTy).Contents (Elt F) → (⟨S1024, .i1⟩ : BufTy).Contents (Elt F)),
    nullary main_c_37 (constantI S_ 32 50000#32),
    unary main_c_37 main_v229 (broadcastInDim S1024 ![] bcast_S_S1024 : (⟨S_, .i32⟩ : BufTy).Contents (Elt F) → (⟨S1024, .i32⟩ : BufTy).Contents (Elt F)),
    binary main_arg3 main_v229 main_v230 (addi : (⟨S1024, .i32⟩ : BufTy).Contents (Elt F) → (⟨S1024, .i32⟩ : BufTy).Contents (Elt F) → (⟨S1024, .i32⟩ : BufTy).Contents (Elt F)),
    ternary main_v228 main_v230 main_arg3 main_v231 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v231 main_v232 (broadcastInDim S1024x1 ![0] bcast_S1024_S1024x1_0 : (⟨S1024, .i32⟩ : BufTy).Contents (Elt F) → (⟨S1024x1, .i32⟩ : BufTy).Contents (Elt F)),
    binary main_v226 main_v232 main_v233 ((fun x i => Host.gather gather_S50000x1_S1024x1_S1024x1_1_0_n_n_0_1_11 x i) : (⟨S50000x1, .f32⟩ : BufTy).Contents (Elt F) → (⟨S1024x1, .i32⟩ : BufTy).Contents (Elt F) → (⟨S1024x1, .f32⟩ : BufTy).Contents (Elt F)),
    unary main_v233 main_v234 ((transpose S1x1024 [1, 0] · transposes_S1024x1_S1x1024_1_0) : (⟨S1024x1, .f32⟩ : BufTy).Contents (Elt F) → (⟨S1x1024, .f32⟩ : BufTy).Contents (Elt F)),
    binary main_v234 main_arg16 main_v235 ((fun l r => Host.dotGeneral dot_S1x1024_S1024x512_S1x512_1_0_0_1_n_n none l r) : (⟨S1x1024, .f32⟩ : BufTy).Contents (Elt F) → (⟨S1024x512, .f32⟩ : BufTy).Contents (Elt F) → (⟨S1x512, .f32⟩ : BufTy).Contents (Elt F)),
    unary main_arg17 main_v236 (broadcastInDim S1x512 ![1] bcast_S512_S1x512_1 : (⟨S512, .f32⟩ : BufTy).Contents (Elt F) → (⟨S1x512, .f32⟩ : BufTy).Contents (Elt F)),
    binary main_v235 main_v236 main_v237 (addf : (⟨S1x512, .f32⟩ : BufTy).Contents (Elt F) → (⟨S1x512, .f32⟩ : BufTy).Contents (Elt F) → (⟨S1x512, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S1x512, .f32⟩) main_call4_v0) (broadcastInDim S1x512 ![] bcast_S_S1x512),
    TRef.binary (TRef.of (T := ⟨S1x512, .f32⟩) main_v237) (TRef.of (T := ⟨S1x512, .f32⟩) main_call4_v0) (TRef.of (T := ⟨S1x512, .f32⟩) main_v238) maximumf,
    binary main_v238 main_arg18 main_v239 ((fun l r => Host.dotGeneral dot_S1x512_S512x256_S1x256_1_0_0_1_n_n none l r) : (⟨S1x512, .f32⟩ : BufTy).Contents (Elt F) → (⟨S512x256, .f32⟩ : BufTy).Contents (Elt F) → (⟨S1x256, .f32⟩ : BufTy).Contents (Elt F)),
    unary main_arg19 main_v240 (broadcastInDim S1x256 ![1] bcast_S256_S1x256_1 : (⟨S256, .f32⟩ : BufTy).Contents (Elt F) → (⟨S1x256, .f32⟩ : BufTy).Contents (Elt F)),
    binary main_v239 main_v240 main_v241 (addf : (⟨S1x256, .f32⟩ : BufTy).Contents (Elt F) → (⟨S1x256, .f32⟩ : BufTy).Contents (Elt F) → (⟨S1x256, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S1x256, .f32⟩) main_call5_v0) (broadcastInDim S1x256 ![] bcast_S_S1x256),
    TRef.binary (TRef.of (T := ⟨S1x256, .f32⟩) main_v241) (TRef.of (T := ⟨S1x256, .f32⟩) main_call5_v0) (TRef.of (T := ⟨S1x256, .f32⟩) main_v242) maximumf,
    binary main_v242 main_arg20 main_v243 ((fun l r => Host.dotGeneral dot_S1x256_S256x1_S1x1_1_0_0_1_n_n none l r) : (⟨S1x256, .f32⟩ : BufTy).Contents (Elt F) → (⟨S256x1, .f32⟩ : BufTy).Contents (Elt F) → (⟨S1x1, .f32⟩ : BufTy).Contents (Elt F)),
    unary main_arg21 main_v244 (broadcastInDim S1x1 ![1] bcast_S1_S1x1_1 : (⟨S1, .f32⟩ : BufTy).Contents (Elt F) → (⟨S1x1, .f32⟩ : BufTy).Contents (Elt F)),
    binary main_v243 main_v244 main_v245 (addf : (⟨S1x1, .f32⟩ : BufTy).Contents (Elt F) → (⟨S1x1, .f32⟩ : BufTy).Contents (Elt F) → (⟨S1x1, .f32⟩ : BufTy).Contents (Elt F)),
    nullary main_cst_38 (constant S_ .f32 0xFF800000#32),
    binary main_v245 main_cst_38 main_v246 ((fun x v => Host.reduce FloatOps.maximumf x v reducesTo_S1x1_S1_d1 h_S_) : (⟨S1x1, .f32⟩ : BufTy).Contents (Elt F) → (⟨S_, .f32⟩ : BufTy).Contents (Elt F) → (⟨S1, .f32⟩ : BufTy).Contents (Elt F)),
    nullary main_cst_39 (constant S_ .f32 0xFF800000#32),
    unary main_cst_39 main_v247 (broadcastInDim S1 ![] bcast_S_S1 : (⟨S_, .f32⟩ : BufTy).Contents (Elt F) → (⟨S1, .f32⟩ : BufTy).Contents (Elt F)),
    binary main_v247 main_v246 main_v248 (maximumf : (⟨S1, .f32⟩ : BufTy).Contents (Elt F) → (⟨S1, .f32⟩ : BufTy).Contents (Elt F) → (⟨S1, .f32⟩ : BufTy).Contents (Elt F)),
    unary main_v248 main_v249 (broadcastInDim S1x1 ![0] bcast_S1_S1x1_0 : (⟨S1, .f32⟩ : BufTy).Contents (Elt F) → (⟨S1x1, .f32⟩ : BufTy).Contents (Elt F)),
    binary main_v245 main_v249 main_v250 (subf : (⟨S1x1, .f32⟩ : BufTy).Contents (Elt F) → (⟨S1x1, .f32⟩ : BufTy).Contents (Elt F) → (⟨S1x1, .f32⟩ : BufTy).Contents (Elt F)),
    unary main_v250 main_v251 (Host.exp : (⟨S1x1, .f32⟩ : BufTy).Contents (Elt F) → (⟨S1x1, .f32⟩ : BufTy).Contents (Elt F)),
    nullary main_cst_40 (constant S_ .f32 0x00000000#32),
    binary main_v251 main_cst_40 main_v252 ((fun x v => Host.reduceAdd x v reducesTo_S1x1_S1_d1 h_S_) : (⟨S1x1, .f32⟩ : BufTy).Contents (Elt F) → (⟨S_, .f32⟩ : BufTy).Contents (Elt F) → (⟨S1, .f32⟩ : BufTy).Contents (Elt F)),
    unary main_v252 main_v253 (broadcastInDim S1x1 ![0] bcast_S1_S1x1_0 : (⟨S1, .f32⟩ : BufTy).Contents (Elt F) → (⟨S1x1, .f32⟩ : BufTy).Contents (Elt F)),
    binary main_v251 main_v253 main_v254 (Host.divf : (⟨S1x1, .f32⟩ : BufTy).Contents (Elt F) → (⟨S1x1, .f32⟩ : BufTy).Contents (Elt F) → (⟨S1x1, .f32⟩ : BufTy).Contents (Elt F)) ]

set_option maxRecDepth 8192 in
set_option maxHeartbeats 4000000 in
theorem main_eq (c : Dev nD) : main (F := F) c = seq (opsA ++ opsB) := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem opsA_sub : (opsA : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
set_option maxRecDepth 8192 in
theorem opsB_sub : (opsB : List (HloOp τ sig (Elt F))).Forall fun op => op.bufs ⊆ tcRefs τ sig :=
  ⟨nullary_bufs_sub .., binary_bufs_sub .., unary_bufs_sub .., nullary_bufs_sub .., unary_bufs_sub .., binary_bufs_sub .., binary_bufs_sub .., binary_bufs_sub .., nullary_bufs_sub .., binary_bufs_sub .., unary_bufs_sub .., nullary_bufs_sub .., unary_bufs_sub .., binary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., unary_bufs_sub .., binary_bufs_sub .., nullary_bufs_sub .., unary_bufs_sub .., binary_bufs_sub .., binary_bufs_sub .., unary_bufs_sub .., binary_bufs_sub .., nullary_bufs_sub .., unary_bufs_sub .., binary_bufs_sub .., binary_bufs_sub .., unary_bufs_sub .., binary_bufs_sub .., nullary_bufs_sub .., binary_bufs_sub .., nullary_bufs_sub .., unary_bufs_sub .., binary_bufs_sub .., unary_bufs_sub .., binary_bufs_sub .., unary_bufs_sub .., nullary_bufs_sub .., binary_bufs_sub .., unary_bufs_sub .., binary_bufs_sub ..⟩
theorem ops_sub : (opsA ++ opsB : List (HloOp τ sig (Elt F))).Forall fun op => op.bufs ⊆ tcRefs τ sig :=
  List.forall_append.mpr ⟨opsA_sub, opsB_sub⟩

/-- Every fair execution ends with every buffer at the fold of the two parts over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = after opsB (after opsA (launchContents m d)) (Proc.devRef .tc b) :=
  (θ_run defs _ _).mono (fun r h d b => (h d b).trans (by rw [StableHlo.after_append]))
    (run_seq scopedRefs_eq scopedSems_eq defs main (fun _ => opsA ++ opsB) main_eq (fun _ => ops_sub) m ρ)

end Program

end Cert.RefRun

end
-- ==== Proof.RefTail.lean ====
/-
  The reference's result, read off the second part of its line of operations.

  The second part normalises the one-column array t over its last axis, of length one (the mean is t, the centred
  value t - t), scales and shifts; by the module on normalising over one element the result holds the shift's one
  element in every row, whatever t is.  A gather from that array is constant whatever the indices, and so is its
  transpose; the last three layers and the closing operations follow.  No operation writes an argument, so every
  argument ends as launched and the parameters read by the second part are the launch's.
-/
import proofs.«115235_j38740605010497_2_alg».proof.Proof.RefRun

set_option maxRecDepth 16384

noncomputable section

namespace Cert.RefTail

open Cert.ReferenceIdeal Cert.ReferenceIdeal.Gen Idealize.ShloMosaic Idealize.ShloMosaic.TcCoe Idealize.SL.Sem Idealize.ShloMosaic.StableHlo
open Idealize.ShloMosaic.ValueIdx Cert.RefRun

/-- The contents of a buffer of a shape and a format, at the extended reals. -/
abbrev C (S : Shape) (e : EltTy) := (⟨S, e⟩ : BufTy).Contents (Elt Ideal)

/-- The mean over the last axis, of length one: the row sum broadcast back to a column, divided by one. -/
def meanRef (u : FVec Ideal S50000x1 .f32) : FVec Ideal S50000x1 .f32 :=
  Host.divf (broadcastInDim S50000x1 ![0] bcast_S50000_S50000x1_0
      (Host.reduceAdd u (constant (F := Ideal) S_ .f32 0x00000000#32) reducesTo_S50000x1_S50000_d1 h_S_))
    (broadcastInDim S50000x1 ![] bcast_S_S50000x1 (constant (F := Ideal) S_ .f32 0x3F800000#32))

/-- A one-element vector made [1, 1] and repeated down the rows. -/
def downRowsRef (v : FVec Ideal S1 .f32) : FVec Ideal S50000x1 .f32 :=
  broadcastInDim S50000x1 ![0, 1] bcast_S1x1_S50000x1_0_1 (broadcastInDim S1x1 ![1] bcast_S1_S1x1_1 v)

/-- The normalisation of t over its last axis, scaled by g and shifted by b. -/
def normRef (t : FVec Ideal S50000x1 .f32) (g b : FVec Ideal S1 .f32) : FVec Ideal S50000x1 .f32 :=
  addf (mulf (mulf (subf t (meanRef t))
      (Host.rsqrt (addf (meanRef (mulf (subf t (meanRef t)) (subf t (meanRef t))))
        (broadcastInDim S50000x1 ![] bcast_S_S50000x1 (constant (F := Ideal) S_ .f32 0x3727C5AC#32)))))
    (downRowsRef g)) (downRowsRef b)

/-- The row gathered from a one-column array at the (wrapped) indices, transposed. -/
def rowRef (n : FVec Ideal S50000x1 .f32) (idx : IVec S1024 32) : FVec Ideal S1x1024 .f32 :=
  transpose S1x1024 [1, 0] (Host.gather gather_S50000x1_S1024x1_S1024x1_1_0_n_n_0_1_11 n
    (broadcastInDim S1024x1 ![0] bcast_S1024_S1024x1_0
      (select (cmpi .slt idx (broadcastInDim S1024 ![] bcast_S_S1024 (constantI S_ 32 0#32)))
        (addi idx (broadcastInDim S1024 ![] bcast_S_S1024 (constantI S_ 32 50000#32))) idx))) transposes_S1024x1_S1x1024_1_0

set_option maxHeartbeats 8000000 in
/-- The second part's result buffer, from any contents W at its start. -/
theorem tail_result (W : Valuation τ sig (Elt Ideal)) :
    after (opsB (F := Ideal)) W (Proc.devRef .tc main_v254)
      = Cert.HeadMlp.softmaxTail (Cert.HeadMlp.headRef
          (rowRef (normRef (W (Proc.devRef .tc main_v205)) (W (Proc.devRef .tc main_arg14)) (W (Proc.devRef .tc main_arg15)))
            (W (Proc.devRef .tc main_arg3)))
          (W (Proc.devRef .tc main_arg16)) (W (Proc.devRef .tc main_arg17)) (W (Proc.devRef .tc main_arg18))
          (W (Proc.devRef .tc main_arg19)) (W (Proc.devRef .tc main_arg20)) (W (Proc.devRef .tc main_arg21))) := by
  after_results_simp <;> rfl

/-- The host's sum over the last axis, of length one, is the array itself. -/
theorem rowsumRef (u : FVec Ideal S50000x1 .f32) (p : Fin 50000) :
    Host.reduceAdd u (constant (F := Ideal) S_ .f32 0x00000000#32) reducesTo_S50000x1_S50000_d1 h_S_ (ix1 p)
      = u (ix2 p (0 : Fin 1)) := by
  simp only [Host.reduceAdd, Ideal.hostReduceAdd_def]
  refine (Ideal.hostReduceAdd_single reducesTo_S50000x1_S50000_d1 (by decide) u _ (ix1 p)).trans ?_
  refine (congrArg (_ + ·) (Cert.UnitNorm.sum_fin_one _)).trans ?_
  refine (congrArg (· + _) Ideal.ofBits_zero_f32).trans ?_
  refine (zero_add _).trans ?_
  exact congrArg u (funext fun a => Fin.ext (by
    match a with
    | ⟨0, _⟩ => rfl
    | ⟨1, _⟩ => rfl))

theorem meanRef_apply (u : FVec Ideal S50000x1 .f32) (p : Fin 50000) : meanRef u (ix2 p (0 : Fin 1)) = u (ix2 p (0 : Fin 1)) := by
  have e1 : broadcastInDim S50000x1 ![0] bcast_S50000_S50000x1_0
        (Host.reduceAdd u (constant (F := Ideal) S_ .f32 0x00000000#32) reducesTo_S50000x1_S50000_d1 h_S_) (ix2 p (0 : Fin 1))
      = Host.reduceAdd u (constant (F := Ideal) S_ .f32 0x00000000#32) reducesTo_S50000x1_S50000_d1 h_S_ (ix1 p) :=
    broadcastInDim_apply _ bcast_S50000_S50000x1_0 _ _ (ix1 p) (fun a => by
      obtain rfl : a = 0 := Subsingleton.elim _ _
      show p.val = if (50000 : Nat) = 1 then 0 else p.val
      rw [if_neg (by decide)])
  show Ideal.div (broadcastInDim S50000x1 ![0] bcast_S50000_S50000x1_0
        (Host.reduceAdd u (constant (F := Ideal) S_ .f32 0x00000000#32) reducesTo_S50000x1_S50000_d1 h_S_) (ix2 p (0 : Fin 1)))
      (Ideal.ofBits .f32 0x3F800000#32) = _
  rw [e1, rowsumRef, Cert.UnitNorm.div_one]

theorem downRowsRef_apply (v : FVec Ideal S1 .f32) (p : Fin 50000) : downRowsRef v (ix2 p (0 : Fin 1)) = v (ix1 (0 : Fin 1)) := by
  refine (broadcastInDim_apply _ bcast_S1x1_S50000x1_0_1 _ (ix2 p (0 : Fin 1)) (ix2 (0 : Fin 1) (0 : Fin 1)) (fun a => by
    match a with
    | ⟨0, _⟩ => rfl
    | ⟨1, _⟩ => rfl)).trans ?_
  exact broadcastInDim_apply _ bcast_S1_S1x1_1 v (ix2 (0 : Fin 1) (0 : Fin 1)) (ix1 (0 : Fin 1)) (fun a => by
    obtain rfl : a = 0 := Subsingleton.elim _ _
    rfl)

/-- The normalised array holds the shift's one element in every row. -/
theorem normRef_eq (t : FVec Ideal S50000x1 .f32) (g b : FVec Ideal S1 .f32) : normRef t g b = fun _ => b (ix1 (0 : Fin 1)) := by
  funext j
  obtain ⟨p, q, rfl⟩ : ∃ (p : Fin 50000) (q : Fin 1), j = ix2 p q := ⟨j 0, j 1, eq_ix2 j⟩
  obtain rfl : q = 0 := Subsingleton.elim _ _
  show (t (ix2 p 0) - meanRef t (ix2 p 0))
      * Ideal.rsqrt (meanRef (mulf (subf t (meanRef t)) (subf t (meanRef t))) (ix2 p 0) + Ideal.ofBits .f32 0x3727C5AC#32)
      * downRowsRef g (ix2 p 0) + downRowsRef b (ix2 p 0) = b (ix1 0)
  rw [meanRef_apply (mulf (subf t (meanRef t)) (subf t (meanRef t))) p, meanRef_apply t p, downRowsRef_apply, downRowsRef_apply]
  show (t (ix2 p 0) - t (ix2 p 0))
      * Ideal.rsqrt ((t (ix2 p 0) - meanRef t (ix2 p 0)) * (t (ix2 p 0) - meanRef t (ix2 p 0)) + Ideal.ofBits .f32 0x3727C5AC#32)
      * g (ix1 0) + b (ix1 0) = b (ix1 0)
  rw [meanRef_apply t p]
  exact Cert.UnitNorm.norm_one _ _ _ _ Cert.UnitNorm.ofBits_eps_ne_bot

/-- A row gathered from a constant array is constant, whatever the indices. -/
theorem rowRef_const (x : EReal) (idx : IVec S1024 32) : rowRef (fun _ => x) idx = fun _ => x := rfl

/-! ## No operation writes an argument -/

local macro "kept_by" l:ident : tactic =>
  `(tactic| (refine StableHlo.after_of_forall_not_mem _ _ (List.forall_iff_forall_mem.mp ?_)
             simp only [$l:ident, List.Forall, StableHlo.nullary_writes, StableHlo.unary_writes, StableHlo.binary_writes, StableHlo.ternary_writes, StableHlo.quaternary_writes, StableHlo.reshape_writes, StableHlo.binaryIndexed_writes, Finset.mem_singleton]
             repeat' apply And.intro
             all_goals exact StableHlo.devRef_ne_of_ne (by decide)))

theorem keptA_main_arg0 (V : Valuation τ sig (Elt Ideal)) : after (opsA (F := Ideal)) V (Proc.devRef .tc main_arg0) = V (Proc.devRef .tc main_arg0) := by kept_by opsA
theorem keptA_main_arg1 (V : Valuation τ sig (Elt Ideal)) : after (opsA (F := Ideal)) V (Proc.devRef .tc main_arg1) = V (Proc.devRef .tc main_arg1) := by kept_by opsA
theorem keptA_main_arg2 (V : Valuation τ sig (Elt Ideal)) : after (opsA (F := Ideal)) V (Proc.devRef .tc main_arg2) = V (Proc.devRef .tc main_arg2) := by kept_by opsA
theorem keptA_main_arg3 (V : Valuation τ sig (Elt Ideal)) : after (opsA (F := Ideal)) V (Proc.devRef .tc main_arg3) = V (Proc.devRef .tc main_arg3) := by kept_by opsA
theorem keptA_main_arg4 (V : Valuation τ sig (Elt Ideal)) : after (opsA (F := Ideal)) V (Proc.devRef .tc main_arg4) = V (Proc.devRef .tc main_arg4) := by kept_by opsA
theorem keptA_main_arg5 (V : Valuation τ sig (Elt Ideal)) : after (opsA (F := Ideal)) V (Proc.devRef .tc main_arg5) = V (Proc.devRef .tc main_arg5) := by kept_by opsA
theorem keptA_main_arg6 (V : Valuation τ sig (Elt Ideal)) : after (opsA (F := Ideal)) V (Proc.devRef .tc main_arg6) = V (Proc.devRef .tc main_arg6) := by kept_by opsA
theorem keptA_main_arg7 (V : Valuation τ sig (Elt Ideal)) : after (opsA (F := Ideal)) V (Proc.devRef .tc main_arg7) = V (Proc.devRef .tc main_arg7) := by kept_by opsA
theorem keptA_main_arg8 (V : Valuation τ sig (Elt Ideal)) : after (opsA (F := Ideal)) V (Proc.devRef .tc main_arg8) = V (Proc.devRef .tc main_arg8) := by kept_by opsA
theorem keptA_main_arg9 (V : Valuation τ sig (Elt Ideal)) : after (opsA (F := Ideal)) V (Proc.devRef .tc main_arg9) = V (Proc.devRef .tc main_arg9) := by kept_by opsA
theorem keptA_main_arg10 (V : Valuation τ sig (Elt Ideal)) : after (opsA (F := Ideal)) V (Proc.devRef .tc main_arg10) = V (Proc.devRef .tc main_arg10) := by kept_by opsA
theorem keptA_main_arg11 (V : Valuation τ sig (Elt Ideal)) : after (opsA (F := Ideal)) V (Proc.devRef .tc main_arg11) = V (Proc.devRef .tc main_arg11) := by kept_by opsA
theorem keptA_main_arg12 (V : Valuation τ sig (Elt Ideal)) : after (opsA (F := Ideal)) V (Proc.devRef .tc main_arg12) = V (Proc.devRef .tc main_arg12) := by kept_by opsA
theorem keptA_main_arg13 (V : Valuation τ sig (Elt Ideal)) : after (opsA (F := Ideal)) V (Proc.devRef .tc main_arg13) = V (Proc.devRef .tc main_arg13) := by kept_by opsA
theorem keptA_main_arg14 (V : Valuation τ sig (Elt Ideal)) : after (opsA (F := Ideal)) V (Proc.devRef .tc main_arg14) = V (Proc.devRef .tc main_arg14) := by kept_by opsA
theorem keptA_main_arg15 (V : Valuation τ sig (Elt Ideal)) : after (opsA (F := Ideal)) V (Proc.devRef .tc main_arg15) = V (Proc.devRef .tc main_arg15) := by kept_by opsA
theorem keptA_main_arg16 (V : Valuation τ sig (Elt Ideal)) : after (opsA (F := Ideal)) V (Proc.devRef .tc main_arg16) = V (Proc.devRef .tc main_arg16) := by kept_by opsA
theorem keptA_main_arg17 (V : Valuation τ sig (Elt Ideal)) : after (opsA (F := Ideal)) V (Proc.devRef .tc main_arg17) = V (Proc.devRef .tc main_arg17) := by kept_by opsA
theorem keptA_main_arg18 (V : Valuation τ sig (Elt Ideal)) : after (opsA (F := Ideal)) V (Proc.devRef .tc main_arg18) = V (Proc.devRef .tc main_arg18) := by kept_by opsA
theorem keptA_main_arg19 (V : Valuation τ sig (Elt Ideal)) : after (opsA (F := Ideal)) V (Proc.devRef .tc main_arg19) = V (Proc.devRef .tc main_arg19) := by kept_by opsA
theorem keptA_main_arg20 (V : Valuation τ sig (Elt Ideal)) : after (opsA (F := Ideal)) V (Proc.devRef .tc main_arg20) = V (Proc.devRef .tc main_arg20) := by kept_by opsA
theorem keptA_main_arg21 (V : Valuation τ sig (Elt Ideal)) : after (opsA (F := Ideal)) V (Proc.devRef .tc main_arg21) = V (Proc.devRef .tc main_arg21) := by kept_by opsA
theorem keptB_main_arg0 (V : Valuation τ sig (Elt Ideal)) : after (opsB (F := Ideal)) V (Proc.devRef .tc main_arg0) = V (Proc.devRef .tc main_arg0) := by kept_by opsB
theorem keptB_main_arg1 (V : Valuation τ sig (Elt Ideal)) : after (opsB (F := Ideal)) V (Proc.devRef .tc main_arg1) = V (Proc.devRef .tc main_arg1) := by kept_by opsB
theorem keptB_main_arg2 (V : Valuation τ sig (Elt Ideal)) : after (opsB (F := Ideal)) V (Proc.devRef .tc main_arg2) = V (Proc.devRef .tc main_arg2) := by kept_by opsB
theorem keptB_main_arg3 (V : Valuation τ sig (Elt Ideal)) : after (opsB (F := Ideal)) V (Proc.devRef .tc main_arg3) = V (Proc.devRef .tc main_arg3) := by kept_by opsB
theorem keptB_main_arg4 (V : Valuation τ sig (Elt Ideal)) : after (opsB (F := Ideal)) V (Proc.devRef .tc main_arg4) = V (Proc.devRef .tc main_arg4) := by kept_by opsB
theorem keptB_main_arg5 (V : Valuation τ sig (Elt Ideal)) : after (opsB (F := Ideal)) V (Proc.devRef .tc main_arg5) = V (Proc.devRef .tc main_arg5) := by kept_by opsB
theorem keptB_main_arg6 (V : Valuation τ sig (Elt Ideal)) : after (opsB (F := Ideal)) V (Proc.devRef .tc main_arg6) = V (Proc.devRef .tc main_arg6) := by kept_by opsB
theorem keptB_main_arg7 (V : Valuation τ sig (Elt Ideal)) : after (opsB (F := Ideal)) V (Proc.devRef .tc main_arg7) = V (Proc.devRef .tc main_arg7) := by kept_by opsB
theorem keptB_main_arg8 (V : Valuation τ sig (Elt Ideal)) : after (opsB (F := Ideal)) V (Proc.devRef .tc main_arg8) = V (Proc.devRef .tc main_arg8) := by kept_by opsB
theorem keptB_main_arg9 (V : Valuation τ sig (Elt Ideal)) : after (opsB (F := Ideal)) V (Proc.devRef .tc main_arg9) = V (Proc.devRef .tc main_arg9) := by kept_by opsB
theorem keptB_main_arg10 (V : Valuation τ sig (Elt Ideal)) : after (opsB (F := Ideal)) V (Proc.devRef .tc main_arg10) = V (Proc.devRef .tc main_arg10) := by kept_by opsB
theorem keptB_main_arg11 (V : Valuation τ sig (Elt Ideal)) : after (opsB (F := Ideal)) V (Proc.devRef .tc main_arg11) = V (Proc.devRef .tc main_arg11) := by kept_by opsB
theorem keptB_main_arg12 (V : Valuation τ sig (Elt Ideal)) : after (opsB (F := Ideal)) V (Proc.devRef .tc main_arg12) = V (Proc.devRef .tc main_arg12) := by kept_by opsB
theorem keptB_main_arg13 (V : Valuation τ sig (Elt Ideal)) : after (opsB (F := Ideal)) V (Proc.devRef .tc main_arg13) = V (Proc.devRef .tc main_arg13) := by kept_by opsB
theorem keptB_main_arg14 (V : Valuation τ sig (Elt Ideal)) : after (opsB (F := Ideal)) V (Proc.devRef .tc main_arg14) = V (Proc.devRef .tc main_arg14) := by kept_by opsB
theorem keptB_main_arg15 (V : Valuation τ sig (Elt Ideal)) : after (opsB (F := Ideal)) V (Proc.devRef .tc main_arg15) = V (Proc.devRef .tc main_arg15) := by kept_by opsB
theorem keptB_main_arg16 (V : Valuation τ sig (Elt Ideal)) : after (opsB (F := Ideal)) V (Proc.devRef .tc main_arg16) = V (Proc.devRef .tc main_arg16) := by kept_by opsB
theorem keptB_main_arg17 (V : Valuation τ sig (Elt Ideal)) : after (opsB (F := Ideal)) V (Proc.devRef .tc main_arg17) = V (Proc.devRef .tc main_arg17) := by kept_by opsB
theorem keptB_main_arg18 (V : Valuation τ sig (Elt Ideal)) : after (opsB (F := Ideal)) V (Proc.devRef .tc main_arg18) = V (Proc.devRef .tc main_arg18) := by kept_by opsB
theorem keptB_main_arg19 (V : Valuation τ sig (Elt Ideal)) : after (opsB (F := Ideal)) V (Proc.devRef .tc main_arg19) = V (Proc.devRef .tc main_arg19) := by kept_by opsB
theorem keptB_main_arg20 (V : Valuation τ sig (Elt Ideal)) : after (opsB (F := Ideal)) V (Proc.devRef .tc main_arg20) = V (Proc.devRef .tc main_arg20) := by kept_by opsB
theorem keptB_main_arg21 (V : Valuation τ sig (Elt Ideal)) : after (opsB (F := Ideal)) V (Proc.devRef .tc main_arg21) = V (Proc.devRef .tc main_arg21) := by kept_by opsB

/-! ## The run, read -/

/-- The reference's result: the closing operations of the last three layers of the row that holds the shift's
    element in every place. -/
abbrev resultOf (b : FVec Ideal S1 .f32) (w1 : FVec Ideal S1024x512 .f32) (b1 : FVec Ideal S512 .f32) (w2 : FVec Ideal S512x256 .f32)
    (b2 : FVec Ideal S256 .f32) (w3 : FVec Ideal S256x1 .f32) (b3 : FVec Ideal S1 .f32) : FVec Ideal S1x1 .f32 :=
  Cert.HeadMlp.softmaxTail (Cert.HeadMlp.headRef (fun _ => b (ix1 (0 : Fin 1))) w1 b1 w2 b2 w3 b3)

set_option maxHeartbeats 8000000 in
theorem result_eq (V : Valuation τ sig (Elt Ideal)) :
    after (opsB (F := Ideal)) (after (opsA (F := Ideal)) V) (Proc.devRef .tc main_v254)
      = resultOf (V (Proc.devRef .tc main_arg15)) (V (Proc.devRef .tc main_arg16)) (V (Proc.devRef .tc main_arg17))
          (V (Proc.devRef .tc main_arg18)) (V (Proc.devRef .tc main_arg19)) (V (Proc.devRef .tc main_arg20)) (V (Proc.devRef .tc main_arg21)) := by
  rw [tail_result, normRef_eq, rowRef_const, keptA_main_arg15, keptA_main_arg16, keptA_main_arg17, keptA_main_arg18,
    keptA_main_arg19, keptA_main_arg20, keptA_main_arg21]

set_option maxHeartbeats 8000000 in
/-- Every fair execution of the reference terminates with its result at that value and its arguments as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v254)
        = resultOf (m ((c.tc : Thread nD τ).loc main_arg15)) (m ((c.tc : Thread nD τ).loc main_arg16)) (m ((c.tc : Thread nD τ).loc main_arg17))
            (m ((c.tc : Thread nD τ).loc main_arg18)) (m ((c.tc : Thread nD τ).loc main_arg19)) (m ((c.tc : Thread nD τ).loc main_arg20))
            (m ((c.tc : Thread nD τ).loc main_arg21))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21) :=
  (θ_run defs _ _).mono (fun r h c =>
    ⟨(h c main_v254).trans (result_eq (launchContents m c)),
     (h c main_arg0).trans ((keptB_main_arg0 _).trans (keptA_main_arg0 _)),
     (h c main_arg1).trans ((keptB_main_arg1 _).trans (keptA_main_arg1 _)),
     (h c main_arg2).trans ((keptB_main_arg2 _).trans (keptA_main_arg2 _)),
     (h c main_arg3).trans ((keptB_main_arg3 _).trans (keptA_main_arg3 _)),
     (h c main_arg4).trans ((keptB_main_arg4 _).trans (keptA_main_arg4 _)),
     (h c main_arg5).trans ((keptB_main_arg5 _).trans (keptA_main_arg5 _)),
     (h c main_arg6).trans ((keptB_main_arg6 _).trans (keptA_main_arg6 _)),
     (h c main_arg7).trans ((keptB_main_arg7 _).trans (keptA_main_arg7 _)),
     (h c main_arg8).trans ((keptB_main_arg8 _).trans (keptA_main_arg8 _)),
     (h c main_arg9).trans ((keptB_main_arg9 _).trans (keptA_main_arg9 _)),
     (h c main_arg10).trans ((keptB_main_arg10 _).trans (keptA_main_arg10 _)),
     (h c main_arg11).trans ((keptB_main_arg11 _).trans (keptA_main_arg11 _)),
     (h c main_arg12).trans ((keptB_main_arg12 _).trans (keptA_main_arg12 _)),
     (h c main_arg13).trans ((keptB_main_arg13 _).trans (keptA_main_arg13 _)),
     (h c main_arg14).trans ((keptB_main_arg14 _).trans (keptA_main_arg14 _)),
     (h c main_arg15).trans ((keptB_main_arg15 _).trans (keptA_main_arg15 _)),
     (h c main_arg16).trans ((keptB_main_arg16 _).trans (keptA_main_arg16 _)),
     (h c main_arg17).trans ((keptB_main_arg17 _).trans (keptA_main_arg17 _)),
     (h c main_arg18).trans ((keptB_main_arg18 _).trans (keptA_main_arg18 _)),
     (h c main_arg19).trans ((keptB_main_arg19 _).trans (keptA_main_arg19 _)),
     (h c main_arg20).trans ((keptB_main_arg20 _).trans (keptA_main_arg20 _)),
     (h c main_arg21).trans ((keptB_main_arg21 _).trans (keptA_main_arg21 _))⟩)
    (run_fold m ρ)

end Cert.RefTail

end
-- ==== Proof.PreDecode.lean ====
/-
  The precondition's last conjunct, decoded: every index is at least 0 and below 50000.

  The precondition is a chain of "and"s of tests, each reduced to one bit; it answers one, so its last operand does:
  the reduction by "and" of the entrywise test "at least 0 and below 50000" of the index array.  A reduction by
  "and" that is one had a one at every entry, so every index passes both comparisons, which are the signed ones.
-/
import proofs.«115235_j38740605010497_2_alg».proof.Defs
import proofs.«115235_j38740605010497_2_alg».proof.Proof.Gen.Pre_finite_inputs
import proofs.«115235_j38740605010497_2_alg».proof.Proof.IndexRange
import Idealize.ShloMosaic.Lib.ReduceAll
import Idealize.ShloMosaic.Lib.ValueIdx

set_option maxRecDepth 16384

noncomputable section

namespace Cert.PreDecode

open Idealize.ShloMosaic Idealize.SL.Sem Cert.Pre_finite_inputs

instance : Subsingleton S_.Idx := ⟨fun a b => funext fun d => d.elim0⟩

variable [Cert.Pre_finite_inputs.Facts]

/-- Under the precondition every entry of the index argument is at least 0 and below 50000, signed. -/
theorem indices_inside (m : (ℓ : Loc Cert.KernelIdeal.nD Cert.KernelIdeal.τ Cert.KernelIdeal.sig) → Buf (Elt Ideal) ℓ)
    (h : Cert.Pre_KernelIdeal m) (c : Dev Cert.KernelIdeal.nD) (k : S1024.Idx) :
    0 ≤ ((m ((c.tc : Thread Cert.KernelIdeal.nD Cert.KernelIdeal.τ).loc Cert.KernelIdeal.main_arg3) : IVec S1024 32) k).toInt
      ∧ ((m ((c.tc : Thread Cert.KernelIdeal.nD Cert.KernelIdeal.τ).loc Cert.KernelIdeal.main_arg3) : IVec S1024 32) k).toInt < 50000 := by
  have e := congrFun (h c) ValueIdx.ix0
  generalize (m ((c.tc : Thread Cert.KernelIdeal.nD Cert.KernelIdeal.τ).loc Cert.KernelIdeal.main_arg3) : IVec S1024 32) = a3 at e ⊢
  have e2 : IntOp.andi _ (Host.reduce IntOp.andi
      (andi (cmpi .sge a3 (broadcastInDim S1024 ![] _ (constantI S_ 32 0#32)))
        (cmpi .slt a3 (broadcastInDim S1024 ![] _ (constantI S_ 32 50000#32))))
      (constantI S_ 1 1#1) _ _ ValueIdx.ix0) = 1#1 := e
  have e3 := Host.reduce_andi_all _ _ _ _ _ ((Cert.IndexRange.and1 _ _).mp e2).2 k
  have e4 : IntOp.andi (IntOp.cmpi .sge (a3 k) 0#32) (IntOp.cmpi .slt (a3 k) 50000#32) = 1#1 := e3
  obtain ⟨h0, h1⟩ := (Cert.IndexRange.and1 _ _).mp e4
  exact ⟨(Cert.IndexRange.sge_zero _).mp h0, (Cert.IndexRange.slt_50000 _).mp h1⟩

end Cert.PreDecode

end
-- ==== Proof.lean ====
/-
  The claim: the idealized kernel program and the idealized reference end with equal results on the extended
  reals, from memories agreeing on the arguments, under the precondition that every float input is finite and
  every supernode index is at least 0 and below 50000.

  Both programs end with the same closing operations of a three-layer perceptron applied to a row of 1024 values
  gathered from a one-column array, and that array is, in both, a normalisation over an axis of length one: it
  holds the shift parameter's one element in every row whatever was normalised, because the centred value of a row
  of length one is zero (or, for an infinite entry, the reciprocal root of an infinite variance is zero).  So the
  three message-passing layers and the first perceptron never reach the result.  The reference gathers with
  clamped indices, so its row holds the shift's element everywhere; the kernel program fills a place whose index
  is out of range with a filler, which the precondition on the indices excludes.  The last three layers agree
  because a matrix product into a zero accumulator is the host's product on the extended reals.  The three frames
  are the generated kernel frames and the reference's run with its result dropped; the idealization's ledger is
  empty.
-/
import proofs.«115235_j38740605010497_2_alg».proof.Defs
import proofs.«115235_j38740605010497_2_alg».proof.Proof.Gen.Kernel
import proofs.«115235_j38740605010497_2_alg».proof.Proof.Gen.Kernel.Frame
import proofs.«115235_j38740605010497_2_alg».proof.Proof.Gen.KernelIdeal
import proofs.«115235_j38740605010497_2_alg».proof.Proof.Gen.KernelIdeal.Frame
import proofs.«115235_j38740605010497_2_alg».proof.Proof.Gen.ReferenceIdeal
import proofs.«115235_j38740605010497_2_alg».proof.Proof.Gen.Pre_finite_inputs
import proofs.«115235_j38740605010497_2_alg».proof.Proof.KernelRun
import proofs.«115235_j38740605010497_2_alg».proof.Proof.KernelFold
import proofs.«115235_j38740605010497_2_alg».proof.Proof.RefTail
import proofs.«115235_j38740605010497_2_alg».proof.Proof.PreDecode
import proofs.«115235_j38740605010497_2_alg».proof.Proof.HeadMlp
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The common result: the closing operations of the last three layers of the row holding the shift's one element
    in every place, with the six parameters as launched. -/
def common (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v87) :=
  Cert.HeadMlp.softmaxTail (Cert.HeadMlp.headRef
    (fun _ => (m ((c.tc : Thread Cert.KernelIdeal.nD Cert.KernelIdeal.τ).loc Cert.KernelIdeal.main_arg15) : Cert.KernelFold.C Cert.KernelIdeal.S1 .f32) (ix1 (0 : Fin 1)))
    (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))
    (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)))

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.RefTail.run m ρ)

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨common m, ?_, ?_⟩
  · refine (θ_run Cert.KernelIdeal.defs _ _).mono (fun r h c => ⟨(h c).1.trans ?_, (h c).2⟩) (Cert.KernelIdeal.Result.run m ρ)
    refine (Cert.KernelFold.result_value m ρ c (Cert.PreDecode.indices_inside m hpre c)).trans ?_
    exact congrArg Cert.HeadMlp.softmaxTail (Cert.HeadMlp.head_eq _ _ _ _ _ _ _)
  · refine (θ_run Cert.ReferenceIdeal.defs _ _).mono (fun r h c => ⟨(h c).1.trans ?_, (h c).2⟩) (Cert.RefTail.run m' ρ')
    obtain ⟨h0, h1, h2, h3, h4, h5, h6, h7, h8, h9, h10, h11, h12, h13, h14, h15, h16, h17, h18, h19, h20, h21⟩ := hagree c
    unfold Cert.RefTail.resultOf common
    rw [h15, h16, h17, h18, h19, h20, h21]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
